-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_v131) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S3x1x2048 : Shape := ⟨3, ![3, 1, 2048]⟩
abbrev S8192x1 : Shape := ⟨2, ![8192, 1]⟩
abbrev S8192x2048 : Shape := ⟨2, ![8192, 2048]⟩
abbrev S8192 : Shape := ⟨1, ![8192]⟩
abbrev S1x2048 : Shape := ⟨2, ![1, 2048]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S3x1x2048 : S_.BroadcastsInDim S3x1x2048 (![] : Fin 0 → Fin S3x1x2048.rank)
  reducesTo_S3x1x2048_S_d0_1_2 : S3x1x2048.ReducesTo [0, 1, 2] S_
  bcast_S_S8192x1 : S_.BroadcastsInDim S8192x1 (![] : Fin 0 → Fin S8192x1.rank)
  reducesTo_S8192x1_S_d0_1 : S8192x1.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_
  bcast_S_S1x2048 : S_.BroadcastsInDim S1x2048 (![] : Fin 0 → Fin S1x2048.rank)
  reducesTo_S1x2048_S_d0_1 : S1x2048.ReducesTo [0, 1] S_

variable [Facts]

def fn_part4 {F : FTy → Type} [FloatOps F] (main_arg14 : FVec F S8192 .f32) (main_arg15 : FVec F S1x2048 .f32) (main_arg16 : FVec F S1 .f32) (main_v63 : IVec S_ 1) (main_v67 : IVec S_ 1) : IVec S_ 1 :=
  let main_v68 : IVec S_ 1 := andi main_v63 main_v67
  let main_v69 : FVec F S8192 .f32 := Host.absf main_arg14
  let main_cst_26 : FVec F S_ .f32 := constant S_ .f32 0x7F800000#32
  let main_v70 : FVec F S8192 .f32 := broadcastInDim S8192 ![] bcast_S_S8192 main_cst_26
  let main_v71 : IVec S8192 1 := cmpf .olt main_v69 main_v70
  let main_c_27 : IVec S_ 1 := constantI S_ 1 1#1
  let main_v72 : IVec S_ 1 := (fun x v => Host.reduce IntOp.andi x v reducesTo_S8192_S_d0 h_S_) main_v71 main_c_27
  let main_v73 : IVec S_ 1 := andi main_v68 main_v72
  let main_v74 : FVec F S1x2048 .f32 := Host.absf main_arg15
  let main_cst_28 : FVec F S_ .f32 := constant S_ .f32 0x7F800000#32
  let main_v75 : FVec F S1x2048 .f32 := broadcastInDim S1x2048 ![] bcast_S_S1x2048 main_cst_28
  let main_v76 : IVec S1x2048 1 := cmpf .olt main_v74 main_v75
  let main_c_29 : IVec S_ 1 := constantI S_ 1 1#1
  let main_v77 : IVec S_ 1 := (fun x v => Host.reduce IntOp.andi x v reducesTo_S1x2048_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg11 : FVec F S8192x2048 .f32) (main_arg12 : FVec F S8192x2048 .f32) (main_arg13 : FVec F S8192 .f32) (main_arg14 : FVec F S8192 .f32) (main_arg15 : FVec F S1x2048 .f32) (main_arg16 : FVec F S1 .f32) (main_v48 : IVec S_ 1) (main_v49 : FVec F S8192 .f32) (main_v50 : FVec F S8192 .f32) : IVec S_ 1 :=
  let main_v51 : IVec S8192 1 := cmpf .olt main_v49 main_v50
  let main_c_19 : IVec S_ 1 := constantI S_ 1 1#1
  let main_v52 : IVec S_ 1 := (fun x v => Host.reduce IntOp.andi x v reducesTo_S8192_S_d0 h_S_) main_v51 main_c_19
  let main_v53 : IVec S_ 1 := andi main_v48 main_v52
  let main_v54 : FVec F S8192x2048 .f32 := Host.absf main_arg11
  let main_cst_20 : FVec F S_ .f32 := constant S_ .f32 0x7F800000#32
  let main_v55 : FVec F S8192x2048 .f32 := broadcastInDim S8192x2048 ![] bcast_S_S8192x2048 main_cst_20
  let main_v56 : IVec S8192x2048 1 := cmpf .olt main_v54 main_v55
  let main_c_21 : IVec S_ 1 := constantI S_ 1 1#1
  let main_v57 : IVec S_ 1 := (fun x v => Host.reduce IntOp.andi x v reducesTo_S8192x2048_S_d0_1 h_S_) main_v56 main_c_21
  let main_v58 : IVec S_ 1 := andi main_v53 main_v57
  let main_v59 : FVec F S8192x2048 .f32 := Host.absf main_arg12
  let main_cst_22 : FVec F S_ .f32 := constant S_ .f32 0x7F800000#32
  let main_v60 : FVec F S8192x2048 .f32 := broadcastInDim S8192x2048 ![] bcast_S_S8192x2048 main_cst_22
  let main_v61 : IVec S8192x2048 1 := cmpf .olt main_v59 main_v60
  let main_c_23 : IVec S_ 1 := constantI S_ 1 1#1
  let main_v62 : IVec S_ 1 := (fun x v => Host.reduce IntOp.andi x v reducesTo_S8192x2048_S_d0_1 h_S_) main_v61 main_c_23
  let main_v63 : IVec S_ 1 := andi main_v58 main_v62
  let main_v64 : FVec F S8192 .f32 := Host.absf main_arg13
  let main_cst_24 : FVec F S_ .f32 := constant S_ .f32 0x7F800000#32
  let main_v65 : FVec F S8192 .f32 := broadcastInDim S8192 ![] bcast_S_S8192 main_cst_24
  let main_v66 : IVec S8192 1 := cmpf .olt main_v64 main_v65
  let main_c_25 : IVec S_ 1 := constantI S_ 1 1#1
  let main_v67 : IVec S_ 1 := (fun x v => Host.reduce IntOp.andi x v reducesTo_S8192_S_d0 h_S_) main_v66 main_c_25
  fn_part4 (F := F) main_arg14 main_arg15 main_arg16 main_v63 main_v67

def fn_part2 {F : FTy → Type} [FloatOps F] (main_arg7 : FVec F S8192x2048 .f32) (main_arg8 : FVec F S8192x2048 .f32) (main_arg9 : FVec F S8192 .f32) (main_arg10 : FVec F S8192 .f32) (main_arg11 : FVec F S8192x2048 .f32) (main_arg12 : FVec F S8192x2048 .f32) (main_arg13 : FVec F S8192 .f32) (main_arg14 : FVec F S8192 .f32) (main_arg15 : FVec F S1x2048 .f32) (main_arg16 : FVec F S1 .f32) (main_v33 : IVec S_ 1) : IVec S_ 1 :=
  let main_v34 : FVec F S8192x2048 .f32 := Host.absf main_arg7
  let main_cst_12 : FVec F S_ .f32 := constant S_ .f32 0x7F800000#32
  let main_v35 : FVec F S8192x2048 .f32 := broadcastInDim S8192x2048 ![] bcast_S_S8192x2048 main_cst_12
  let main_v36 : IVec S8192x2048 1 := cmpf .olt main_v34 main_v35
  let main_c_13 : IVec S_ 1 := constantI S_ 1 1#1
  let main_v37 : IVec S_ 1 := (fun x v => Host.reduce IntOp.andi x v reducesTo_S8192x2048_S_d0_1 h_S_) main_v36 main_c_13
  let main_v38 : IVec S_ 1 := andi main_v33 main_v37
  let main_v39 : FVec F S8192x2048 .f32 := Host.absf main_arg8
  let main_cst_14 : FVec F S_ .f32 := constant S_ .f32 0x7F800000#32
  let main_v40 : FVec F S8192x2048 .f32 := broadcastInDim S8192x2048 ![] bcast_S_S8192x2048 main_cst_14
  let main_v41 : IVec S8192x2048 1 := cmpf .olt main_v39 main_v40
  let main_c_15 : IVec S_ 1 := constantI S_ 1 1#1
  let main_v42 : IVec S_ 1 := (fun x v => Host.reduce IntOp.andi x v reducesTo_S8192x2048_S_d0_1 h_S_) main_v41 main_c_15
  let main_v43 : IVec S_ 1 := andi main_v38 main_v42
  let main_v44 : FVec F S8192 .f32 := Host.absf main_arg9
  let main_cst_16 : FVec F S_ .f32 := constant S_ .f32 0x7F800000#32
  let main_v45 : FVec F S8192 .f32 := broadcastInDim S8192 ![] bcast_S_S8192 main_cst_16
  let main_v46 : IVec S8192 1 := cmpf .olt main_v44 main_v45
  let main_c_17 : IVec S_ 1 := constantI S_ 1 1#1
  let main_v47 : IVec S_ 1 := (fun x v => Host.reduce IntOp.andi x v reducesTo_S8192_S_d0 h_S_) main_v46 main_c_17
  let main_v48 : IVec S_ 1 := andi main_v43 main_v47
  let main_v49 : FVec F S8192 .f32 := Host.absf main_arg10
  let main_cst_18 : FVec F S_ .f32 := constant S_ .f32 0x7F800000#32
  let main_v50 : FVec F S8192 .f32 := broadcastInDim S8192 ![] bcast_S_S8192 main_cst_18
  fn_part3 (F := F) main_arg11 main_arg12 main_arg13 main_arg14 main_arg15 main_arg16 main_v48 main_v49 main_v50

def fn_part1 {F : FTy → Type} [FloatOps F] (main_arg4 : FVec F S8192x2048 .f32) (main_arg5 : FVec F S8192 .f32) (main_arg6 : FVec F S8192 .f32) (main_arg7 : FVec F S8192x2048 .f32) (main_arg8 : FVec F S8192x2048 .f32) (main_arg9 : FVec F S8192 .f32) (main_arg10 : FVec F S8192 .f32) (main_arg11 : FVec F S8192x2048 .f32) (main_arg12 : FVec F S8192x2048 .f32) (main_arg13 : FVec F S8192 .f32) (main_arg14 : FVec F S8192 .f32) (main_arg15 : FVec F S1x2048 .f32) (main_arg16 : FVec F S1 .f32) (main_v13 : IVec S_ 1) (main_v16 : IVec S8192x1 1) : IVec S_ 1 :=
  let main_c_5 : IVec S_ 1 := constantI S_ 1 1#1
  let main_v17 : IVec S_ 1 := (fun x v => Host.reduce IntOp.andi x v reducesTo_S8192x1_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S1 .f32) (main_arg1 : FVec F S3x1x2048 .f32) (main_arg2 : FVec F S3x1x2048 .f32) (main_arg3 : FVec F S8192x1 .f32) (main_arg4 : FVec F S8192x2048 .f32) (main_arg5 : FVec F S8192 .f32) (main_arg6 : FVec F S8192 .f32) (main_arg7 : FVec F S8192x2048 .f32) (main_arg8 : FVec F S8192x2048 .f32) (main_arg9 : FVec F S8192 .f32) (main_arg10 : FVec F S8192 .f32) (main_arg11 : FVec F S8192x2048 .f32) (main_arg12 : FVec F S8192x2048 .f32) (main_arg13 : FVec F S8192 .f32) (main_arg14 : FVec F S8192 .f32) (main_arg15 : FVec F S1x2048 .f32) (main_arg16 : FVec F S1 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S3x1x2048 .f32 := Host.absf main_arg1
  let main_cst_0 : FVec F S_ .f32 := constant S_ .f32 0x7F800000#32
  let main_v5 : FVec F S3x1x2048 .f32 := broadcastInDim S3x1x2048 ![] bcast_S_S3x1x2048 main_cst_0
  let main_v6 : IVec S3x1x2048 1 := cmpf .olt main_v4 main_v5
  let main_c_1 : IVec S_ 1 := constantI S_ 1 1#1
  let main_v7 : IVec S_ 1 := (fun x v => Host.reduce IntOp.andi x v reducesTo_S3x1x2048_S_d0_1_2 h_S_) main_v6 main_c_1
  let main_v8 : IVec S_ 1 := andi main_v3 main_v7
  let main_v9 : FVec F S3x1x2048 .f32 := Host.absf main_arg2
  let main_cst_2 : FVec F S_ .f32 := constant S_ .f32 0x7F800000#32
  let main_v10 : FVec F S3x1x2048 .f32 := broadcastInDim S3x1x2048 ![] bcast_S_S3x1x2048 main_cst_2
  let main_v11 : IVec S3x1x2048 1 := cmpf .olt main_v9 main_v10
  let main_c_3 : IVec S_ 1 := constantI S_ 1 1#1
  let main_v12 : IVec S_ 1 := (fun x v => Host.reduce IntOp.andi x v reducesTo_S3x1x2048_S_d0_1_2 h_S_) main_v11 main_c_3
  let main_v13 : IVec S_ 1 := andi main_v8 main_v12
  let main_v14 : FVec F S8192x1 .f32 := Host.absf main_arg3
  let main_cst_4 : FVec F S_ .f32 := constant S_ .f32 0x7F800000#32
  let main_v15 : FVec F S8192x1 .f32 := broadcastInDim S8192x1 ![] bcast_S_S8192x1 main_cst_4
  let main_v16 : IVec S8192x1 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S1 : Shape := ⟨1, ![1]⟩
abbrev S3x1x2048 : Shape := ⟨3, ![3, 1, 2048]⟩
abbrev S8192x1 : Shape := ⟨2, ![8192, 1]⟩
abbrev S8192x2048 : Shape := ⟨2, ![8192, 2048]⟩
abbrev S8192 : Shape := ⟨1, ![8192]⟩
abbrev S1x2048 : Shape := ⟨2, ![1, 2048]⟩
abbrev S_ : Shape := ⟨0, ![]⟩
abbrev S4x2048 : Shape := ⟨2, ![4, 2048]⟩
abbrev S1x1x2048 : Shape := ⟨3, ![1, 1, 2048]⟩
abbrev S4x2048x2048 : Shape := ⟨3, ![4, 2048, 2048]⟩
abbrev S1x256 : Shape := ⟨2, ![1, 256]⟩
abbrev S4x256x2048 : Shape := ⟨3, ![4, 256, 2048]⟩
abbrev S4x256 : Shape := ⟨2, ![4, 256]⟩
abbrev S1x256x2048 : Shape := ⟨3, ![1, 256, 2048]⟩
abbrev S256x2048 : Shape := ⟨2, ![256, 2048]⟩
abbrev S256 : Shape := ⟨1, ![256]⟩
abbrev S2048x1 : Shape := ⟨2, ![2048, 1]⟩
abbrev S1x1 : Shape := ⟨2, ![1, 1]⟩
abbrev S1x1x1 : Shape := ⟨3, ![1, 1, 1]⟩

abbrev nBuf : Space → Nat
  | .hbm => 64
  | .vmem => 39
  | .smem => 0
  | _ => 0

abbrev bufTy : (tb : Table) → Fin (tcTables nBuf tb) → BufTy
  | .hbm, ⟨0, _⟩ => ⟨S1, .f32⟩
  | .hbm, ⟨1, _⟩ => ⟨S3x1x2048, .f32⟩
  | .hbm, ⟨2, _⟩ => ⟨S3x1x2048, .f32⟩
  | .hbm, ⟨3, _⟩ => ⟨S8192x1, .f32⟩
  | .hbm, ⟨4, _⟩ => ⟨S8192x2048, .f32⟩
  | .hbm, ⟨5, _⟩ => ⟨S8192, .f32⟩
  | .hbm, ⟨6, _⟩ => ⟨S8192, .f32⟩
  | .hbm, ⟨7, _⟩ => ⟨S8192x2048, .f32⟩
  | .hbm, ⟨8, _⟩ => ⟨S8192x2048, .f32⟩
  | .hbm, ⟨9, _⟩ => ⟨S8192, .f32⟩
  | .hbm, ⟨10, _⟩ => ⟨S8192, .f32⟩
  | .hbm, ⟨11, _⟩ => ⟨S8192x2048, .f32⟩
  | .hbm, ⟨12, _⟩ => ⟨S8192x2048, .f32⟩
  | .hbm, ⟨13, _⟩ => ⟨S8192, .f32⟩
  | .hbm, ⟨14, _⟩ => ⟨S8192, .f32⟩
  | .hbm, ⟨15, _⟩ => ⟨S1x2048, .f32⟩
  | .hbm, ⟨16, _⟩ => ⟨S1, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S8192, .f32⟩
  | .hbm, ⟨22, _⟩ => ⟨S8192, .f32⟩
  | .hbm, ⟨23, _⟩ => ⟨S4x2048, .f32⟩
  | .hbm, ⟨24, _⟩ => ⟨S1x1x2048, .f32⟩
  | .hbm, ⟨25, _⟩ => ⟨S1x2048, .f32⟩
  | .hbm, ⟨26, _⟩ => ⟨S1x1x2048, .f32⟩
  | .hbm, ⟨27, _⟩ => ⟨S1x2048, .f32⟩
  | .hbm, ⟨28, _⟩ => ⟨S4x2048x2048, .f32⟩
  | .hbm, ⟨29, _⟩ => ⟨S1x2048, .f32⟩
  | .hbm, ⟨30, _⟩ => ⟨S1x2048, .f32⟩
  | .hbm, ⟨31, _⟩ => ⟨S8192, .f32⟩
  | .hbm, ⟨32, _⟩ => ⟨S4x2048, .f32⟩
  | .hbm, ⟨33, _⟩ => ⟨S1x1x2048, .f32⟩
  | .hbm, ⟨34, _⟩ => ⟨S1x2048, .f32⟩
  | .hbm, ⟨35, _⟩ => ⟨S1x1x2048, .f32⟩
  | .hbm, ⟨36, _⟩ => ⟨S1x2048, .f32⟩
  | .hbm, ⟨37, _⟩ => ⟨S4x2048x2048, .f32⟩
  | .hbm, ⟨38, _⟩ => ⟨S4x2048x2048, .f32⟩
  | .hbm, ⟨39, _⟩ => ⟨S1x2048, .f32⟩
  | .hbm, ⟨40, _⟩ => ⟨S1x2048, .f32⟩
  | .hbm, ⟨41, _⟩ => ⟨S8192, .f32⟩
  | .hbm, ⟨42, _⟩ => ⟨S4x2048, .f32⟩
  | .hbm, ⟨43, _⟩ => ⟨S1x1x2048, .f32⟩
  | .hbm, ⟨44, _⟩ => ⟨S1x2048, .f32⟩
  | .hbm, ⟨45, _⟩ => ⟨S1x1x2048, .f32⟩
  | .hbm, ⟨46, _⟩ => ⟨S1x2048, .f32⟩
  | .hbm, ⟨47, _⟩ => ⟨S4x2048x2048, .f32⟩
  | .hbm, ⟨48, _⟩ => ⟨S4x2048x2048, .f32⟩
  | .hbm, ⟨49, _⟩ => ⟨S1x2048, .f32⟩
  | .hbm, ⟨50, _⟩ => ⟨S1x2048, .f32⟩
  | .hbm, ⟨51, _⟩ => ⟨S1x1x2048, .f32⟩
  | .hbm, ⟨52, _⟩ => ⟨S1x1x2048, .f32⟩
  | .hbm, ⟨53, _⟩ => ⟨S1x1x2048, .f32⟩
  | .hbm, ⟨54, _⟩ => ⟨S3x1x2048, .f32⟩
  | .hbm, ⟨55, _⟩ => ⟨S1x1x2048, .f32⟩
  | .hbm, ⟨56, _⟩ => ⟨S1x1x2048, .f32⟩
  | .hbm, ⟨57, _⟩ => ⟨S1x1x2048, .f32⟩
  | .hbm, ⟨58, _⟩ => ⟨S3x1x2048, .f32⟩
  | .hbm, ⟨59, _⟩ => ⟨S2048x1, .f32⟩
  | .hbm, ⟨60, _⟩ => ⟨S1x1, .f32⟩
  | .hbm, ⟨61, _⟩ => ⟨S1x1, .f32⟩
  | .hbm, ⟨62, _⟩ => ⟨S1x1, .f32⟩
  | .hbm, ⟨63, _⟩ => ⟨S1x1x1, .f32⟩
  | .local _ .vmem, ⟨0, _⟩ => ⟨S1x2048, .f32⟩
  | .local _ .vmem, ⟨1, _⟩ => ⟨S1x256, .f32⟩
  | .local _ .vmem, ⟨2, _⟩ => ⟨S1x256, .f32⟩
  | .local _ .vmem, ⟨3, _⟩ => ⟨S4x256x2048, .f32⟩
  | .local _ .vmem, ⟨4, _⟩ => ⟨S4x256x2048, .f32⟩
  | .local _ .vmem, ⟨5, _⟩ => ⟨S4x256, .f32⟩
  | .local _ .vmem, ⟨6, _⟩ => ⟨S4x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x2048, .f32⟩
  | .local _ .vmem, ⟨12, _⟩ => ⟨S1x2048, .f32⟩
  | .local _ .vmem, ⟨13, _⟩ => ⟨S1x256, .f32⟩
  | .local _ .vmem, ⟨14, _⟩ => ⟨S1x256, .f32⟩
  | .local _ .vmem, ⟨15, _⟩ => ⟨S4x256x2048, .f32⟩
  | .local _ .vmem, ⟨16, _⟩ => ⟨S4x256x2048, .f32⟩
  | .local _ .vmem, ⟨17, _⟩ => ⟨S4x256x2048, .f32⟩
  | .local _ .vmem, ⟨18, _⟩ => ⟨S4x256x2048, .f32⟩
  | .local _ .vmem, ⟨19, _⟩ => ⟨S4x256, .f32⟩
  | .local _ .vmem, ⟨20, _⟩ => ⟨S4x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x2048, .f32⟩
  | .local _ .vmem, ⟨26, _⟩ => ⟨S1x2048, .f32⟩
  | .local _ .vmem, ⟨27, _⟩ => ⟨S1x256, .f32⟩
  | .local _ .vmem, ⟨28, _⟩ => ⟨S1x256, .f32⟩
  | .local _ .vmem, ⟨29, _⟩ => ⟨S4x256x2048, .f32⟩
  | .local _ .vmem, ⟨30, _⟩ => ⟨S4x256x2048, .f32⟩
  | .local _ .vmem, ⟨31, _⟩ => ⟨S4x256x2048, .f32⟩
  | .local _ .vmem, ⟨32, _⟩ => ⟨S4x256x2048, .f32⟩
  | .local _ .vmem, ⟨33, _⟩ => ⟨S4x256, .f32⟩
  | .local _ .vmem, ⟨34, _⟩ => ⟨S4x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S1x256, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12_0 : Ref sig .tc := ⟨.hbm, 29, rfl⟩
abbrev main_v12_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21_0 : Ref sig .tc := ⟨.hbm, 39, rfl⟩
abbrev main_v21_1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30_0 : Ref sig .tc := ⟨.hbm, 49, rfl⟩
abbrev main_v30_1 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc2_stg0_0 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg5_0 : Ref sig .tc := ⟨.vmem, 33, rfl⟩
abbrev cc2_stg5_1 : Ref sig .tc := ⟨.vmem, 34, rfl⟩
abbrev cc2_stg6_0 : Ref sig .tc := ⟨.vmem, 35, rfl⟩
abbrev cc2_stg6_1 : Ref sig .tc := ⟨.vmem, 36, rfl⟩
abbrev cc2_stg7_0 : Ref sig .tc := ⟨.vmem, 37, rfl⟩
abbrev cc2_stg7_1 : Ref sig .tc := ⟨.vmem, 38, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem7_1 : DmaSem sig := 24
abbrev cc2_sem0_0 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem4_1 : DmaSem sig := 32
abbrev cc2_sem5_0 : DmaSem sig := 33
abbrev cc2_sem5_1 : DmaSem sig := 34
abbrev cc2_sem6_0 : DmaSem sig := 35
abbrev cc2_sem6_1 : DmaSem sig := 36
abbrev cc2_sem7_0 : DmaSem sig := 37
abbrev cc2_sem7_1 : DmaSem sig := 38

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4x256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4x256x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S1_S_ : S1.ShapeCasts S_
  shapeCasts_S8192x1_S8192 : S8192x1.ShapeCasts S8192
  bcast_S_S8192 : S_.BroadcastsInDim S8192 (![] : Fin 0 → Fin S8192.rank)
  shapeCasts_S8192_S4x2048 : S8192.ShapeCasts S4x2048
  slices_S3x1x2048_S1x1x2048_0_0_0 : S3x1x2048.Slices ![0, 0, 0] S1x1x2048
  shapeCasts_S1x1x2048_S1x2048 : S1x1x2048.ShapeCasts S1x2048
  shapeCasts_S8192x2048_S4x2048x2048 : S8192x2048.ShapeCasts S4x2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S4x256x2048_S4x256x2048_0_0_0 : ∀ a, (![0, 0, 0] : Fin 3 → Nat) a + S4x256x2048.size a ≤ S4x256x2048.size a
  h_S4x256x2048 : 0 < S4x256x2048.numel
  shapeCasts_S4x256x2048_S4x256x2048 : S4x256x2048.ShapeCasts S4x256x2048
  inb_S4x256_S4x256_0_0 : ∀ a, (![0, 0] : Fin 2 → Nat) a + S4x256.size a ≤ S4x256.size a
  h_S4x256 : 0 < S4x256.numel
  shapeCasts_S4x256_S4x256 : S4x256.ShapeCasts S4x256
  slices_S4x256x2048_o0_0_0_S1x256x2048 : S4x256x2048.Slices ![0, 0, 0] S1x256x2048
  shapeCasts_S1x256x2048_S256x2048 : S1x256x2048.ShapeCasts S256x2048
  slices_S4x256_o0_0_S1x256 : S4x256.Slices ![0, 0] S1x256
  shapeCasts_S1x256_S256 : S1x256.ShapeCasts S256
  shapeCasts_S256_S1x256 : S256.ShapeCasts S1x256
  slices_S4x256x2048_o1_0_0_S1x256x2048 : S4x256x2048.Slices ![1, 0, 0] S1x256x2048
  slices_S4x256_o1_0_S1x256 : S4x256.Slices ![1, 0] S1x256
  slices_S4x256x2048_o2_0_0_S1x256x2048 : S4x256x2048.Slices ![2, 0, 0] S1x256x2048
  slices_S4x256_o2_0_S1x256 : S4x256.Slices ![2, 0] S1x256
  slices_S4x256x2048_o3_0_0_S1x256x2048 : S4x256x2048.Slices ![3, 0, 0] S1x256x2048
  slices_S4x256_o3_0_S1x256 : S4x256.Slices ![3, 0] S1x256
  slices_S3x1x2048_S1x1x2048_1_0_0 : S3x1x2048.Slices ![1, 0, 0] S1x1x2048
  slices_S3x1x2048_S1x1x2048_2_0_0 : S3x1x2048.Slices ![2, 0, 0] S1x1x2048
  bcast_S1x2048_S1x1x2048_1_2 : S1x2048.BroadcastsInDim S1x1x2048 (![1, 2] : Fin 2 → Fin S1x1x2048.rank)
  concatenates_S1x1x2048_S1x1x2048_S1x1x2048_S3x1x2048_d0 : Shape.Concatenates [S1x1x2048, S1x1x2048, S1x1x2048] S3x1x2048 0
  transposes_S1x2048_S2048x1_1_0 : S1x2048.Transposes [1, 0] S2048x1
  bcast_S1_S1x1_1 : S1.BroadcastsInDim S1x1 (![1] : Fin 1 → Fin S1x1.rank)
  shapeCasts_S1x1_S1x1x1 : S1x1.ShapeCasts S1x1x1
  dot_S1x2048_S256x2048_S1x256_1_1_0_0_n_n_wf : DotDims.WF S1x2048 S256x2048 S1x256 [1] [1] [0] [0] [] []
  dot_S1x2048_S2048x1_S1x1_1_0_0_1_n_n_wf : DotDims.WF S1x2048 S2048x1 S1x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x2048.size a
  hwx0_0 : ∀ i : grid0.Coords, EltTy.bits .f32 = 32 ∨ (Rect.block (s := S1x2048) S1x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x2048.size a
  hwx0_1 : ∀ i : grid0.Coords, EltTy.bits .f32 = 32 ∨ (Rect.block (s := S1x2048) S1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x2048.size a ≤ S4x2048x2048.size a
  hwx0_2 : ∀ i : grid0.Coords, EltTy.bits .f32 = 32 ∨ (Rect.block (s := S4x2048x2048) S4x256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256.size a ≤ S4x2048.size a
  hwx0_3 : ∀ i : grid0.Coords, EltTy.bits .f32 = 32 ∨ (Rect.block (s := S4x2048) S4x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x2048.size a
  hwx0_4 : ∀ i : grid0.Coords, EltTy.bits .f32 = 32 ∨ (Rect.block (s := S1x2048) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x2048.size a
  hwx1_0 : ∀ i : grid1.Coords, EltTy.bits .f32 = 32 ∨ (Rect.block (s := S1x2048) S1x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x2048.size a
  hwx1_2 : ∀ i : grid1.Coords, EltTy.bits .f32 = 32 ∨ (Rect.block (s := S1x2048) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x256x2048.size a ≤ S4x2048x2048.size a
  hwx1_3 : ∀ i : grid1.Coords, EltTy.bits .f32 = 32 ∨ (Rect.block (s := S4x2048x2048) S4x256x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x256x2048.size a ≤ S4x2048x2048.size a
  hwx1_4 : ∀ i : grid1.Coords, EltTy.bits .f32 = 32 ∨ (Rect.block (s := S4x2048x2048) S4x256x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4x256.size a ≤ S4x2048.size a
  hwx1_5 : ∀ i : grid1.Coords, EltTy.bits .f32 = 32 ∨ (Rect.block (s := S4x2048) S4x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x2048.size a
  hwx1_6 : ∀ i : grid1.Coords, EltTy.bits .f32 = 32 ∨ (Rect.block (s := S1x2048) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x2048.size a
  hwx1_7 : ∀ i : grid1.Coords, EltTy.bits .f32 = 32 ∨ (Rect.block (s := S1x2048) S1x256.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x2048.size a ≤ S1x2048.size a
  hwx2_0 : ∀ i : grid2.Coords, EltTy.bits .f32 = 32 ∨ (Rect.block (s := S1x2048) S1x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x2048.size a
  hwx2_1 : ∀ i : grid2.Coords, EltTy.bits .f32 = 32 ∨ (Rect.block (s := S1x2048) S1x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x2048.size a
  hwx2_2 : ∀ i : grid2.Coords, EltTy.bits .f32 = 32 ∨ (Rect.block (s := S1x2048) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4x256x2048.size a ≤ S4x2048x2048.size a
  hwx2_3 : ∀ i : grid2.Coords, EltTy.bits .f32 = 32 ∨ (Rect.block (s := S4x2048x2048) S4x256x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4x256x2048.size a ≤ S4x2048x2048.size a
  hwx2_4 : ∀ i : grid2.Coords, EltTy.bits .f32 = 32 ∨ (Rect.block (s := S4x2048x2048) S4x256x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4x256.size a ≤ S4x2048.size a
  hwx2_5 : ∀ i : grid2.Coords, EltTy.bits .f32 = 32 ∨ (Rect.block (s := S4x2048) S4x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x2048.size a
  hwx2_6 : ∀ i : grid2.Coords, EltTy.bits .f32 = 32 ∨ (Rect.block (s := S1x2048) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x2048.size a
  hwx2_7 : ∀ i : grid2.Coords, EltTy.bits .f32 = 32 ∨ (Rect.block (s := S1x2048) S1x256.size (cc2_transform_7 i) (hinb2_7 i)).WholeWords (EltTy.packing .f32)

variable [Facts₀]

def dot_S1x2048_S256x2048_S1x256_1_1_0_0_n_n : DotDims S1x2048 S256x2048 S1x256 where
  lhsContracting := [1]
  rhsContracting := [1]
  lhsNonContracting := [0]
  rhsNonContracting := [0]
  lhsBatch := []
  rhsBatch := []
  wf := dot_S1x2048_S256x2048_S1x256_1_1_0_0_n_n_wf
def dot_S1x2048_S2048x1_S1x1_1_0_0_1_n_n : DotDims S1x2048 S2048x1 S1x1 where
  lhsContracting := [1]
  rhsContracting := [0]
  lhsNonContracting := [0]
  rhsNonContracting := [1]
  lhsBatch := []
  rhsBatch := []
  wf := dot_S1x2048_S2048x1_S1x1_1_0_0_1_n_n_wf

abbrev win0_0 : Pipeline.Window sig grid0 :=
  Pipeline.Window.ofSpec (Memref.whole main_v8) S1x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4x256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_0) S1x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_1) S1x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v12_0) S1x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S4x256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20) S4x256x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v14) S4x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v21_0) S1x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v21_1) S1x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v21_0) S1x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v25) S1x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S4x256x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v29) S4x256x2048.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v23) S4x256.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v30_0) S1x256.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v30_1) S1x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S1 : Shape := ⟨1, ![1]⟩
abbrev S3x1x2048 : Shape := ⟨3, ![3, 1, 2048]⟩
abbrev S8192x1 : Shape := ⟨2, ![8192, 1]⟩
abbrev S8192x2048 : Shape := ⟨2, ![8192, 2048]⟩
abbrev S8192 : Shape := ⟨1, ![8192]⟩
abbrev S1x2048 : Shape := ⟨2, ![1, 2048]⟩
abbrev S1x1 : Shape := ⟨2, ![1, 1]⟩
abbrev S1x1x2048 : Shape := ⟨3, ![1, 1, 2048]⟩
abbrev S1x8192 : Shape := ⟨2, ![1, 8192]⟩
abbrev S2048x8192 : Shape := ⟨2, ![2048, 8192]⟩
abbrev S_ : Shape := ⟨0, ![]⟩
abbrev S2048x1 : Shape := ⟨2, ![2048, 1]⟩
abbrev S1x1x1 : Shape := ⟨3, ![1, 1, 1]⟩

abbrev nBuf : Space → Nat
  | .hbm => 172
  | .vmem => 0
  | .smem => 0
  | _ => 0

abbrev hbmTy0_0 (i : Nat) : BufTy := match i % 128 with
  | 0 => ⟨S1, .f32⟩
  | 1 => ⟨S3x1x2048, .f32⟩
  | 2 => ⟨S3x1x2048, .f32⟩
  | 3 => ⟨S8192x1, .f32⟩
  | 4 => ⟨S8192x2048, .f32⟩
  | 5 => ⟨S8192, .f32⟩
  | 6 => ⟨S8192, .f32⟩
  | 7 => ⟨S8192x2048, .f32⟩
  | 8 => ⟨S8192x2048, .f32⟩
  | 9 => ⟨S8192, .f32⟩
  | 10 => ⟨S8192, .f32⟩
  | 11 => ⟨S8192x2048, .f32⟩
  | 12 => ⟨S8192x2048, .f32⟩
  | 13 => ⟨S8192, .f32⟩
  | 14 => ⟨S8192, .f32⟩
  | 15 => ⟨S1x2048, .f32⟩
  | 16 => ⟨S1, .f32⟩
  | 17 => ⟨S1x1, .f32⟩
  | 18 => ⟨S1x1x2048, .f32⟩
  | 19 => ⟨S1x2048, .f32⟩
  | 20 => ⟨S1x1x2048, .f32⟩
  | 21 => ⟨S1x2048, .f32⟩
  | 22 => ⟨S1x8192, .f32⟩
  | 23 => ⟨S1x8192, .f32⟩
  | 24 => ⟨S2048x8192, .f32⟩
  | 25 => ⟨S1x8192, .f32⟩
  | 26 => ⟨S1x8192, .f32⟩
  | 27 => ⟨S1x8192, .f32⟩
  | 28 => ⟨S1x8192, .f32⟩
  | 29 => ⟨S1x8192, .f32⟩
  | 30 => ⟨S1x8192, .f32⟩
  | 31 => ⟨S1x2048, .f32⟩
  | 32 => ⟨S1x2048, .f32⟩
  | 33 => ⟨S1x2048, .f32⟩
  | 34 => ⟨S1x2048, .f32⟩
  | 35 => ⟨S1x2048, .f32⟩
  | 36 => ⟨S1x2048, .f32⟩
  | 37 => ⟨S_, .f32⟩
  | 38 => ⟨S1x2048, .f32⟩
  | 39 => ⟨S1x2048, .f32⟩
  | 40 => ⟨S_, .f32⟩
  | 41 => ⟨S1x2048, .f32⟩
  | 42 => ⟨S1x2048, .f32⟩
  | 43 => ⟨S1x2048, .f32⟩
  | 44 => ⟨S1x2048, .f32⟩
  | 45 => ⟨S1x2048, .f32⟩
  | 46 => ⟨S_, .f32⟩
  | 47 => ⟨S1x2048, .f32⟩
  | 48 => ⟨S1x2048, .f32⟩
  | 49 => ⟨S_, .f32⟩
  | 50 => ⟨S1x2048, .f32⟩
  | 51 => ⟨S1x2048, .f32⟩
  | 52 => ⟨S1x2048, .f32⟩
  | 53 => ⟨S1x2048, .f32⟩
  | 54 => ⟨S1x2048, .f32⟩
  | 55 => ⟨S1x2048, .f32⟩
  | 56 => ⟨S1x2048, .f32⟩
  | 57 => ⟨S_, .f32⟩
  | 58 => ⟨S1x2048, .f32⟩
  | 59 => ⟨S1x2048, .f32⟩
  | 60 => ⟨S_, .f32⟩
  | 61 => ⟨S1x2048, .f32⟩
  | 62 => ⟨S1x2048, .f32⟩
  | 63 => ⟨S1x2048, .f32⟩
  | 64 => ⟨S1x2048, .f32⟩
  | 65 => ⟨S1x1x2048, .f32⟩
  | 66 => ⟨S1x2048, .f32⟩
  | 67 => ⟨S1x1x2048, .f32⟩
  | 68 => ⟨S1x2048, .f32⟩
  | 69 => ⟨S2048x8192, .f32⟩
  | 70 => ⟨S1x8192, .f32⟩
  | 71 => ⟨S2048x8192, .f32⟩
  | 72 => ⟨S1x8192, .f32⟩
  | 73 => ⟨S1x8192, .f32⟩
  | 74 => ⟨S1x8192, .f32⟩
  | 75 => ⟨S1x8192, .f32⟩
  | 76 => ⟨S1x8192, .f32⟩
  | 77 => ⟨S1x8192, .f32⟩
  | 78 => ⟨S1x2048, .f32⟩
  | 79 => ⟨S1x2048, .f32⟩
  | 80 => ⟨S1x2048, .f32⟩
  | 81 => ⟨S1x2048, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S_, .f32⟩
  | 88 => ⟨S1x2048, .f32⟩
  | 89 => ⟨S1x2048, .f32⟩
  | 90 => ⟨S1x2048, .f32⟩
  | 91 => ⟨S1x2048, .f32⟩
  | 92 => ⟨S1x2048, .f32⟩
  | 93 => ⟨S_, .f32⟩
  | 94 => ⟨S1x2048, .f32⟩
  | 95 => ⟨S1x2048, .f32⟩
  | 96 => ⟨S_, .f32⟩
  | 97 => ⟨S1x2048, .f32⟩
  | 98 => ⟨S1x2048, .f32⟩
  | 99 => ⟨S1x2048, .f32⟩
  | 100 => ⟨S1x2048, .f32⟩
  | 101 => ⟨S1x2048, .f32⟩
  | 102 => ⟨S1x2048, .f32⟩
  | 103 => ⟨S1x2048, .f32⟩
  | 104 => ⟨S_, .f32⟩
  | 105 => ⟨S1x2048, .f32⟩
  | 106 => ⟨S1x2048, .f32⟩
  | 107 => ⟨S_, .f32⟩
  | 108 => ⟨S1x2048, .f32⟩
  | 109 => ⟨S1x2048, .f32⟩
  | 110 => ⟨S1x2048, .f32⟩
  | 111 => ⟨S1x2048, .f32⟩
  | 112 => ⟨S1x1x2048, .f32⟩
  | 113 => ⟨S1x2048, .f32⟩
  | 114 => ⟨S1x1x2048, .f32⟩
  | 115 => ⟨S1x2048, .f32⟩
  | 116 => ⟨S2048x8192, .f32⟩
  | 117 => ⟨S1x8192, .f32⟩
  | 118 => ⟨S2048x8192, .f32⟩
  | 119 => ⟨S1x8192, .f32⟩
  | 120 => ⟨S1x8192, .f32⟩
  | 121 => ⟨S1x8192, .f32⟩
  | 122 => ⟨S1x8192, .f32⟩
  | 123 => ⟨S1x8192, .f32⟩
  | 124 => ⟨S1x8192, .f32⟩
  | 125 => ⟨S1x2048, .f32⟩
  | 126 => ⟨S1x2048, .f32⟩
  | 127 => ⟨S1x2048, .f32⟩
  | _ => ⟨S1, .f32⟩

abbrev hbmTy0_1 (i : Nat) : BufTy := match i % 128 with
  | 0 => ⟨S1x2048, .f32⟩
  | 1 => ⟨S1x2048, .f32⟩
  | 2 => ⟨S1x2048, .f32⟩
  | 3 => ⟨S_, .f32⟩
  | 4 => ⟨S1x2048, .f32⟩
  | 5 => ⟨S1x2048, .f32⟩
  | 6 => ⟨S_, .f32⟩
  | 7 => ⟨S1x2048, .f32⟩
  | 8 => ⟨S1x2048, .f32⟩
  | 9 => ⟨S1x2048, .f32⟩
  | 10 => ⟨S1x2048, .f32⟩
  | 11 => ⟨S1x2048, .f32⟩
  | 12 => ⟨S_, .f32⟩
  | 13 => ⟨S1x2048, .f32⟩
  | 14 => ⟨S1x2048, .f32⟩
  | 15 => ⟨S_, .f32⟩
  | 16 => ⟨S1x2048, .f32⟩
  | 17 => ⟨S1x2048, .f32⟩
  | 18 => ⟨S1x2048, .f32⟩
  | 19 => ⟨S1x2048, .f32⟩
  | 20 => ⟨S1x2048, .f32⟩
  | 21 => ⟨S1x2048, .f32⟩
  | 22 => ⟨S1x2048, .f32⟩
  | 23 => ⟨S_, .f32⟩
  | 24 => ⟨S1x2048, .f32⟩
  | 25 => ⟨S1x2048, .f32⟩
  | 26 => ⟨S_, .f32⟩
  | 27 => ⟨S1x2048, .f32⟩
  | 28 => ⟨S1x2048, .f32⟩
  | 29 => ⟨S1x2048, .f32⟩
  | 30 => ⟨S1x2048, .f32⟩
  | 31 => ⟨S1x1x2048, .f32⟩
  | 32 => ⟨S1x1x2048, .f32⟩
  | 33 => ⟨S1x1x2048, .f32⟩
  | 34 => ⟨S3x1x2048, .f32⟩
  | 35 => ⟨S1x1x2048, .f32⟩
  | 36 => ⟨S1x1x2048, .f32⟩
  | 37 => ⟨S1x1x2048, .f32⟩
  | 38 => ⟨S3x1x2048, .f32⟩
  | 39 => ⟨S2048x1, .f32⟩
  | 40 => ⟨S1x1, .f32⟩
  | 41 => ⟨S1x1, .f32⟩
  | 42 => ⟨S1x1, .f32⟩
  | 43 => ⟨S1x1x1, .f32⟩
  | _ => ⟨S1, .f32⟩

abbrev hbmTy (i : Nat) : BufTy := match i / 128 with
  | 0 => hbmTy0_0 i
  | 1 => hbmTy0_1 i
  | _ => ⟨S1, .f32⟩

abbrev bufTy : (tb : Table) → Fin (tcTables nBuf tb) → BufTy
  | .hbm, ⟨i, _⟩ => hbmTy i
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_cst_0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_1 : Ref sig .tc := ⟨.hbm, 46, rfl⟩
abbrev main_v27 : Ref sig .tc := ⟨.hbm, 47, rfl⟩
abbrev main_v28 : Ref sig .tc := ⟨.hbm, 48, rfl⟩
abbrev main_cst_2 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_3 : Ref sig .tc := ⟨.hbm, 57, rfl⟩
abbrev main_v36 : Ref sig .tc := ⟨.hbm, 58, rfl⟩
abbrev main_v37 : Ref sig .tc := ⟨.hbm, 59, rfl⟩
abbrev main_cst_4 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_5 : Ref sig .tc := ⟨.hbm, 84, rfl⟩
abbrev main_v61 : Ref sig .tc := ⟨.hbm, 85, rfl⟩
abbrev main_v62 : Ref sig .tc := ⟨.hbm, 86, rfl⟩
abbrev main_cst_6 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_7 : Ref sig .tc := ⟨.hbm, 93, rfl⟩
abbrev main_v68 : Ref sig .tc := ⟨.hbm, 94, rfl⟩
abbrev main_v69 : Ref sig .tc := ⟨.hbm, 95, rfl⟩
abbrev main_cst_8 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_9 : Ref sig .tc := ⟨.hbm, 104, rfl⟩
abbrev main_v77 : Ref sig .tc := ⟨.hbm, 105, rfl⟩
abbrev main_v78 : Ref sig .tc := ⟨.hbm, 106, rfl⟩
abbrev main_cst_10 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_11 : Ref sig .tc := ⟨.hbm, 131, rfl⟩
abbrev main_v102 : Ref sig .tc := ⟨.hbm, 132, rfl⟩
abbrev main_v103 : Ref sig .tc := ⟨.hbm, 133, rfl⟩
abbrev main_cst_12 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_13 : Ref sig .tc := ⟨.hbm, 140, rfl⟩
abbrev main_v109 : Ref sig .tc := ⟨.hbm, 141, rfl⟩
abbrev main_v110 : Ref sig .tc := ⟨.hbm, 142, rfl⟩
abbrev main_cst_14 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_15 : Ref sig .tc := ⟨.hbm, 151, rfl⟩
abbrev main_v118 : Ref sig .tc := ⟨.hbm, 152, rfl⟩
abbrev main_v119 : Ref sig .tc := ⟨.hbm, 153, rfl⟩
abbrev main_cst_16 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩

abbrev nD : Nat := 1
abbrev τ : Topo := Topo.v7x

variable {F : FTy → Type} [FloatOps F]

class Facts₀ : Prop where
  shapeCasts_S1_S1x1 : S1.ShapeCasts S1x1
  slices_S3x1x2048_S1x1x2048_0_0_0 : S3x1x2048.Slices ![0, 0, 0] S1x1x2048
  shapeCasts_S1x1x2048_S1x2048 : S1x1x2048.ShapeCasts S1x2048
  transposes_S8192x1_S1x8192_1_0 : S8192x1.Transposes [1, 0] S1x8192
  transposes_S8192x2048_S2048x8192_1_0 : S8192x2048.Transposes [1, 0] S2048x8192
  bcast_S8192_S1x8192_1 : S8192.BroadcastsInDim S1x8192 (![1] : Fin 1 → Fin S1x8192.rank)
  slices_S1x8192_S1x2048_0_0 : S1x8192.Slices ![0, 0] S1x2048
  slices_S1x8192_S1x2048_0_2048 : S1x8192.Slices ![0, 2048] S1x2048
  slices_S1x8192_S1x2048_0_4096 : S1x8192.Slices ![0, 4096] S1x2048
  slices_S1x8192_S1x2048_0_6144 : S1x8192.Slices ![0, 6144] S1x2048
  bcast_S_S1x2048 : S_.BroadcastsInDim S1x2048 (![] : Fin 0 → Fin S1x2048.rank)
  slices_S3x1x2048_S1x1x2048_1_0_0 : S3x1x2048.Slices ![1, 0, 0] S1x1x2048
  slices_S3x1x2048_S1x1x2048_2_0_0 : S3x1x2048.Slices ![2, 0, 0] S1x1x2048
  bcast_S1x2048_S1x1x2048_1_2 : S1x2048.BroadcastsInDim S1x1x2048 (![1, 2] : Fin 2 → Fin S1x1x2048.rank)
  concatenates_S1x1x2048_S1x1x2048_S1x1x2048_S3x1x2048_d0 : Shape.Concatenates [S1x1x2048, S1x1x2048, S1x1x2048] S3x1x2048 0
  transposes_S1x2048_S2048x1_1_0 : S1x2048.Transposes [1, 0] S2048x1
  bcast_S1_S1x1_1 : S1.BroadcastsInDim S1x1 (![1] : Fin 1 → Fin S1x1.rank)
  shapeCasts_S1x1_S1x1x1 : S1x1.ShapeCasts S1x1x1
  dot_S1x1_S1x8192_S1x8192_1_0_0_1_n_n_wf : DotDims.WF S1x1 S1x8192 S1x8192 [1] [0] [0] [1] [] []
  dot_S1x2048_S2048x8192_S1x8192_1_0_0_1_n_n_wf : DotDims.WF S1x2048 S2048x8192 S1x8192 [1] [0] [0] [1] [] []
  dot_S1x2048_S2048x1_S1x1_1_0_0_1_n_n_wf : DotDims.WF S1x2048 S2048x1 S1x1 [1] [0] [0] [1] [] []

variable [Facts₀]

def dot_S1x1_S1x8192_S1x8192_1_0_0_1_n_n : DotDims S1x1 S1x8192 S1x8192 where
  lhsContracting := [1]
  rhsContracting := [0]
  lhsNonContracting := [0]
  rhsNonContracting := [1]
  lhsBatch := []
  rhsBatch := []
  wf := dot_S1x1_S1x8192_S1x8192_1_0_0_1_n_n_wf
def dot_S1x2048_S2048x8192_S1x8192_1_0_0_1_n_n : DotDims S1x2048 S2048x8192 S1x8192 where
  lhsContracting := [1]
  rhsContracting := [0]
  lhsNonContracting := [0]
  rhsNonContracting := [1]
  lhsBatch := []
  rhsBatch := []
  wf := dot_S1x2048_S2048x8192_S1x8192_1_0_0_1_n_n_wf
def dot_S1x2048_S2048x1_S1x1_1_0_0_1_n_n : DotDims S1x2048 S2048x1 S1x1 where
  lhsContracting := [1]
  rhsContracting := [0]
  lhsNonContracting := [0]
  rhsNonContracting := [1]
  lhsBatch := []
  rhsBatch := []
  wf := dot_S1x2048_S2048x1_S1x1_1_0_0_1_n_n_wf

class Facts : Prop extends Facts₀ where

variable [Facts]
-- ==== Proof.KB.Dat0.lean ====
/-
  Region 0 (the first LSTM layer, its input already folded into the bias): what the pipeline's proof data are.
  The region is entered with the TensorCore's buffers at some contents `V`.  Window `w`'s block at grid point `t`
  is read off its array; the body loads its four input blocks whole and stores the new hidden state into
  window 4 and the new cell state into window 5, each in one whole-block store.
-/
import proofs.«142598_j64742337019981_2_alg».proof.Proof.Gen.Kernel.Launch
import proofs.«142598_j64742337019981_2_alg».proof.Proof.Gen.Kernel.Skeleton
import proofs.«142598_j64742337019981_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev rH0 : Rect S1x2048 := Rect.unit (s := S1x2048) ![0, 0] S1x2048.size inb_S1x2048_S1x2048_0_0
abbrev rC0 : Rect S1x256 := Rect.unit (s := S1x256) ![0, 0] S1x256.size inb_S1x256_S1x256_0_0
abbrev rW0 : Rect S4x256x2048 := Rect.unit (s := S4x256x2048) ![0, 0, 0] S4x256x2048.size inb_S4x256x2048_S4x256x2048_0_0_0
abbrev rB0 : Rect S4x256 := Rect.unit (s := S4x256) ![0, 0] S4x256.size inb_S4x256_S4x256_0_0

/-- Window 4's staging buffer after the body: the new hidden state of the block's 256 units. -/
def out0_4 (x0 : Vec F S1x2048 .f32) (x1 : Vec F S1x256 .f32) (x2 : Vec F S4x256x2048 .f32) (x3 : Vec F S4x256 .f32) : Vec F S1x256 .f32 :=
  View.canon [⟨rC0, k0_pay5 (View.ld x0 rH0) (View.ld x1 rC0) (View.ld x2 rW0) (View.ld x3 rB0)⟩]

/-- Window 5's staging buffer after the body: the new cell state of the block's 256 units. -/
def out0_5 (x0 : Vec F S1x2048 .f32) (x1 : Vec F S1x256 .f32) (x2 : Vec F S4x256x2048 .f32) (x3 : Vec F S4x256 .f32) : Vec F S1x256 .f32 :=
  View.canon [⟨rC0, k0_pay4 (View.ld x0 rH0) (View.ld x1 rC0) (View.ld x2 rW0) (View.ld x3 rB0)⟩]

/-- The proof data of pipeline 0 on core `c`: arrays as found; after the body each input's buffer holds its block and
    each output's the body's result of the input blocks; the scoped rest and the generator register ride along untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

end Cert.Kernel.Fr

end
-- ==== Proof.KB.Body0.lean ====
/-
  Region 0: the kernel body meets the pipeline's obligation at every grid point.  On whole staging buffers holding the
  input blocks, the body runs to the end without a fault, leaves every input buffer as it was, and leaves in each output
  buffer what its one whole-block store wrote: the payload of the loaded blocks.
-/
import proofs.«142598_j64742337019981_2_alg».proof.Proof.Gen.Kernel.Launch
import proofs.«142598_j64742337019981_2_alg».proof.Proof.Gen.Kernel.Skeleton
import proofs.«142598_j64742337019981_2_alg».proof.Proof.Gen.Kernel.Points
import proofs.«142598_j64742337019981_2_alg».proof.Proof.KB.Dat0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-- Input window 1's current staging buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- Input window 2's current staging buffer holds its block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- Input window 3's current staging buffer holds its block at every point, fetched there or not. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-- One whole-block store covers the output's buffer. -/
theorem cover0 (p0 : Vec F S1x256 .f32) (y : S1x256.Idx) :
    ∃ pc ∈ ([⟨rC0, p0⟩] : List (View.Piece (Elt F) S1x256 .f32)), y ∈ pc.1.set :=
  View.cover_of_tiled [⟨rC0, p0⟩] S1x256.size (by rfl) y

set_option maxHeartbeats 1000000 in
/-- The body's triple on whole staging memrefs. -/
theorem sound_kernel0 (c : Dev nD) (E : Set ℕ) (i : grid0.Coords) (arg1 : Memref sig .tc .vmem S1x2048 .f32) (harg1 : arg1.IsWhole) (arg2 : Memref sig .tc .vmem S1x256 .f32) (harg2 : arg2.IsWhole) (arg3 : Memref sig .tc .vmem S4x256x2048 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S1x256 .f32) (harg6 : arg6.IsWhole)
    (x0 : Vec F S1x2048 .f32) (x1 : Vec F S1x256 .f32) (x2 : Vec F S4x256x2048 .f32) (x3 : Vec F S4x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3)) -∗ K ⟨⟩))
      ⊢ wp frame (wpE (defs₀ (F := F)) Variants.none c none) E (cc0__lstm_layer_kernel_no_input i arg1 harg1 arg2 harg2 arg3 harg3 arg4 harg4 arg5 harg5 arg6 harg6) K := by
  simp only [cc0__lstm_layer_kernel_no_input_eq_skeleton]; unfold cc0__lstm_layer_kernel_no_input_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover0 _)
  iexists _; isplitr
  swap; · iexact H5
  ipureintro
  try dsimp only
  exact View.read_writes_eq_canon _ _ _ (cover0 _)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.Dat1.lean ====
/-
  Region 1 (an LSTM layer fed by the layer below): what the pipeline's proof data are.
  The region is entered with the TensorCore's buffers at some contents `V`.  Window `w`'s block at grid point `t`
  is read off its array; the body loads its six input blocks whole (layer input, previous hidden state, the block's
  previous cell state, the block's rows of the two weight arrays, the block's bias) and stores the new hidden state
  into window 6 and the new cell state into window 7, each in one whole-block store.
-/
import proofs.«142598_j64742337019981_2_alg».proof.Proof.Gen.Kernel.Launch
import proofs.«142598_j64742337019981_2_alg».proof.Proof.Gen.Kernel.Skeleton
import proofs.«142598_j64742337019981_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles the body loads and stores through. -/
abbrev rH1 : Rect S1x2048 := Rect.unit (s := S1x2048) ![0, 0] S1x2048.size inb_S1x2048_S1x2048_0_0
abbrev rC1 : Rect S1x256 := Rect.unit (s := S1x256) ![0, 0] S1x256.size inb_S1x256_S1x256_0_0
abbrev rW1 : Rect S4x256x2048 := Rect.unit (s := S4x256x2048) ![0, 0, 0] S4x256x2048.size inb_S4x256x2048_S4x256x2048_0_0_0
abbrev rB1 : Rect S4x256 := Rect.unit (s := S4x256) ![0, 0] S4x256.size inb_S4x256_S4x256_0_0

/-- Window 6's staging buffer after the body: the new hidden state of the block's 256 units. -/
def out1_6 (x0 x1 : Vec F S1x2048 .f32) (x2 : Vec F S1x256 .f32) (x3 x4 : Vec F S4x256x2048 .f32) (x5 : Vec F S4x256 .f32) : Vec F S1x256 .f32 :=
  View.canon [⟨rC1, k1_pay2 (k1_pay3 (View.ld x0 rH1)) (k1_pay4 (View.ld x1 rH1)) (k1_pay5 (View.ld x2 rC1)) (k1_pay6 (View.ld x3 rW1)) (k1_pay7 (View.ld x4 rW1)) (k1_pay8 (View.ld x5 rB1))
    (k1_pay9 (View.ld x0 rH1) (View.ld x1 rH1) (View.ld x3 rW1) (View.ld x4 rW1) (View.ld x5 rB1))
    (k1_pay10 (View.ld x0 rH1) (View.ld x1 rH1) (View.ld x3 rW1) (View.ld x4 rW1) (View.ld x5 rB1))
    (k1_pay11 (View.ld x0 rH1) (View.ld x3 rW1)) (k1_pay12 (View.ld x4 rW1)) (constant S1x256 .f32 0x00000000#32)⟩]

/-- Window 7's staging buffer after the body: the new cell state of the block's 256 units. -/
def out1_7 (x0 x1 : Vec F S1x2048 .f32) (x2 : Vec F S1x256 .f32) (x3 x4 : Vec F S4x256x2048 .f32) (x5 : Vec F S4x256 .f32) : Vec F S1x256 .f32 :=
  View.canon [⟨rC1, k1_pay1 (k1_pay4 (View.ld x1 rH1)) (k1_pay5 (View.ld x2 rC1)) (k1_pay8 (View.ld x5 rB1))
    (k1_pay9 (View.ld x0 rH1) (View.ld x1 rH1) (View.ld x3 rW1) (View.ld x4 rW1) (View.ld x5 rB1))
    (k1_pay10 (View.ld x0 rH1) (View.ld x1 rH1) (View.ld x3 rW1) (View.ld x4 rW1) (View.ld x5 rB1))
    (k1_pay11 (View.ld x0 rH1) (View.ld x3 rW1)) (k1_pay12 (View.ld x4 rW1)) (constant S1x256 .f32 0x00000000#32)⟩]

/-- The proof data of pipeline 1 on core `c`: arrays as found; after the body each input's buffer holds its block and
    each output's the body's result of the input blocks; the scoped rest and the generator register ride along untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

end Cert.Kernel.Fr

end
-- ==== Proof.KB.Body1.lean ====
/-
  Region 1: the kernel body meets the pipeline's obligation at every grid point.  On whole staging buffers holding the
  input blocks, the body runs to the end without a fault, leaves every input buffer as it was, and leaves in each output
  buffer what its one whole-block store wrote: the payload of the loaded blocks.
-/
import proofs.«142598_j64742337019981_2_alg».proof.Proof.Gen.Kernel.Launch
import proofs.«142598_j64742337019981_2_alg».proof.Proof.Gen.Kernel.Skeleton
import proofs.«142598_j64742337019981_2_alg».proof.Proof.Gen.Kernel.Points
import proofs.«142598_j64742337019981_2_alg».proof.Proof.KB.Dat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

/-- Input window 1's current staging buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- Input window 2's current staging buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- Input window 3's current staging buffer holds its block at every point, fetched there or not. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- Input window 4's current staging buffer holds its block at every point, fetched there or not. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-- Input window 5's current staging buffer holds its block at every point, fetched there or not. -/
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-- One whole-block store covers the output's buffer. -/
theorem cover1 (p0 : Vec F S1x256 .f32) (y : S1x256.Idx) :
    ∃ pc ∈ ([⟨rC1, p0⟩] : List (View.Piece (Elt F) S1x256 .f32)), y ∈ pc.1.set :=
  View.cover_of_tiled [⟨rC1, p0⟩] S1x256.size (by rfl) y

set_option maxHeartbeats 1000000 in
/-- The body's triple on whole staging memrefs. -/
theorem sound_kernel1 (c : Dev nD) (E : Set ℕ) (i : grid1.Coords) (arg1 : Memref sig .tc .vmem S1x2048 .f32) (harg1 : arg1.IsWhole) (arg2 : Memref sig .tc .vmem S1x2048 .f32) (harg2 : arg2.IsWhole) (arg3 : Memref sig .tc .vmem S1x256 .f32) (harg3 : arg3.IsWhole) (arg4 : Memref sig .tc .vmem S4x256x2048 .f32) (harg4 : arg4.IsWhole) (arg5 : Memref sig .tc .vmem S4x256x2048 .f32) (harg5 : arg5.IsWhole) (arg6 : Memref sig .tc .vmem S4x256 .f32) (harg6 : arg6.IsWhole) (arg7 : Memref sig .tc .vmem S1x256 .f32) (harg7 : arg7.IsWhole) (arg8 : Memref sig .tc .vmem S1x256 .f32) (harg8 : arg8.IsWhole)
    (x0 : Vec F S1x2048 .f32) (x1 : Vec F S1x2048 .f32) (x2 : Vec F S1x256 .f32) (x3 : Vec F S4x256x2048 .f32) (x4 : Vec F S4x256x2048 .f32) (x5 : Vec F S4x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__lstm_layer_kernel_with_input i arg1 harg1 arg2 harg2 arg3 harg3 arg4 harg4 arg5 harg5 arg6 harg6 arg7 harg7 arg8 harg8) K := by
  simp only [cc1__lstm_layer_kernel_with_input_eq_skeleton]; unfold cc1__lstm_layer_kernel_with_input_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover1 _)
  iexists _; isplitr
  swap; · iexact H7
  ipureintro
  try dsimp only
  exact View.read_writes_eq_canon _ _ _ (cover1 _)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.Dat2.lean ====
/-
  Region 2 (an LSTM layer fed by the layer below): what the pipeline's proof data are.
  The region is entered with the TensorCore's buffers at some contents `V`.  Window `w`'s block at grid point `t`
  is read off its array; the body loads its six input blocks whole (layer input, previous hidden state, the block's
  previous cell state, the block's rows of the two weight arrays, the block's bias) and stores the new hidden state
  into window 6 and the new cell state into window 7, each in one whole-block store.
-/
import proofs.«142598_j64742337019981_2_alg».proof.Proof.Gen.Kernel.Launch
import proofs.«142598_j64742337019981_2_alg».proof.Proof.Gen.Kernel.Skeleton
import proofs.«142598_j64742337019981_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-block rectangles the body loads and stores through. -/
abbrev rH2 : Rect S1x2048 := Rect.unit (s := S1x2048) ![0, 0] S1x2048.size inb_S1x2048_S1x2048_0_0
abbrev rC2 : Rect S1x256 := Rect.unit (s := S1x256) ![0, 0] S1x256.size inb_S1x256_S1x256_0_0
abbrev rW2 : Rect S4x256x2048 := Rect.unit (s := S4x256x2048) ![0, 0, 0] S4x256x2048.size inb_S4x256x2048_S4x256x2048_0_0_0
abbrev rB2 : Rect S4x256 := Rect.unit (s := S4x256) ![0, 0] S4x256.size inb_S4x256_S4x256_0_0

/-- Window 6's staging buffer after the body: the new hidden state of the block's 256 units. -/
def out2_6 (x0 x1 : Vec F S1x2048 .f32) (x2 : Vec F S1x256 .f32) (x3 x4 : Vec F S4x256x2048 .f32) (x5 : Vec F S4x256 .f32) : Vec F S1x256 .f32 :=
  View.canon [⟨rC2, k2_pay2 (k2_pay3 (View.ld x0 rH2)) (k2_pay4 (View.ld x1 rH2)) (k2_pay5 (View.ld x2 rC2)) (k2_pay6 (View.ld x3 rW2)) (k2_pay7 (View.ld x4 rW2)) (k2_pay8 (View.ld x5 rB2))
    (k2_pay9 (View.ld x0 rH2) (View.ld x1 rH2) (View.ld x3 rW2) (View.ld x4 rW2) (View.ld x5 rB2))
    (k2_pay10 (View.ld x0 rH2) (View.ld x1 rH2) (View.ld x3 rW2) (View.ld x4 rW2) (View.ld x5 rB2))
    (k2_pay11 (View.ld x0 rH2) (View.ld x3 rW2)) (k2_pay12 (View.ld x4 rW2)) (constant S1x256 .f32 0x00000000#32)⟩]

/-- Window 7's staging buffer after the body: the new cell state of the block's 256 units. -/
def out2_7 (x0 x1 : Vec F S1x2048 .f32) (x2 : Vec F S1x256 .f32) (x3 x4 : Vec F S4x256x2048 .f32) (x5 : Vec F S4x256 .f32) : Vec F S1x256 .f32 :=
  View.canon [⟨rC2, k2_pay1 (k2_pay4 (View.ld x1 rH2)) (k2_pay5 (View.ld x2 rC2)) (k2_pay8 (View.ld x5 rB2))
    (k2_pay9 (View.ld x0 rH2) (View.ld x1 rH2) (View.ld x3 rW2) (View.ld x4 rW2) (View.ld x5 rB2))
    (k2_pay10 (View.ld x0 rH2) (View.ld x1 rH2) (View.ld x3 rW2) (View.ld x4 rW2) (View.ld x5 rB2))
    (k2_pay11 (View.ld x0 rH2) (View.ld x3 rW2)) (k2_pay12 (View.ld x4 rW2)) (constant S1x256 .f32 0x00000000#32)⟩]

/-- The proof data of pipeline 2 on core `c`: arrays as found; after the body each input's buffer holds its block and
    each output's the body's result of the input blocks; the scoped rest and the generator register ride along untouched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

end Cert.Kernel.Fr

end
-- ==== Proof.KB.Body2.lean ====
/-
  Region 2: the kernel body meets the pipeline's obligation at every grid point.  On whole staging buffers holding the
  input blocks, the body runs to the end without a fault, leaves every input buffer as it was, and leaves in each output
  buffer what its one whole-block store wrote: the payload of the loaded blocks.
-/
import proofs.«142598_j64742337019981_2_alg».proof.Proof.Gen.Kernel.Launch
import proofs.«142598_j64742337019981_2_alg».proof.Proof.Gen.Kernel.Skeleton
import proofs.«142598_j64742337019981_2_alg».proof.Proof.Gen.Kernel.Points
import proofs.«142598_j64742337019981_2_alg».proof.Proof.KB.Dat2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)

/-- Input window 1's current staging buffer holds its block at every point, fetched there or not. -/
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-- Input window 2's current staging buffer holds its block at every point, fetched there or not. -/
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

/-- Input window 3's current staging buffer holds its block at every point, fetched there or not. -/
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

/-- Input window 4's current staging buffer holds its block at every point, fetched there or not. -/
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-- Input window 5's current staging buffer holds its block at every point, fetched there or not. -/
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)

/-- One whole-block store covers the output's buffer. -/
theorem cover2 (p0 : Vec F S1x256 .f32) (y : S1x256.Idx) :
    ∃ pc ∈ ([⟨rC2, p0⟩] : List (View.Piece (Elt F) S1x256 .f32)), y ∈ pc.1.set :=
  View.cover_of_tiled [⟨rC2, p0⟩] S1x256.size (by rfl) y

set_option maxHeartbeats 1000000 in
/-- The body's triple on whole staging memrefs. -/
theorem sound_kernel2 (c : Dev nD) (E : Set ℕ) (i : grid2.Coords) (arg1 : Memref sig .tc .vmem S1x2048 .f32) (harg1 : arg1.IsWhole) (arg2 : Memref sig .tc .vmem S1x2048 .f32) (harg2 : arg2.IsWhole) (arg3 : Memref sig .tc .vmem S1x256 .f32) (harg3 : arg3.IsWhole) (arg4 : Memref sig .tc .vmem S4x256x2048 .f32) (harg4 : arg4.IsWhole) (arg5 : Memref sig .tc .vmem S4x256x2048 .f32) (harg5 : arg5.IsWhole) (arg6 : Memref sig .tc .vmem S4x256 .f32) (harg6 : arg6.IsWhole) (arg7 : Memref sig .tc .vmem S1x256 .f32) (harg7 : arg7.IsWhole) (arg8 : Memref sig .tc .vmem S1x256 .f32) (harg8 : arg8.IsWhole)
    (x0 : Vec F S1x2048 .f32) (x1 : Vec F S1x2048 .f32) (x2 : Vec F S1x256 .f32) (x3 : Vec F S4x256x2048 .f32) (x4 : Vec F S4x256x2048 .f32) (x5 : Vec F S4x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__lstm_layer_kernel_with_input i arg1 harg1 arg2 harg2 arg3 harg3 arg4 harg4 arg5 harg5 arg6 harg6 arg7 harg7 arg8 harg8) K := by
  simp only [cc2__lstm_layer_kernel_with_input_eq_skeleton]; unfold cc2__lstm_layer_kernel_with_input_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover2 _)
  iexists _; isplitr
  swap; · iexact H7
  ipureintro
  try dsimp only
  exact View.read_writes_eq_canon _ _ _ (cover2 _)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KB.Run.lean ====
/-
  The whole run of @main: four stretches of host operations around three pipelined regions.  The contents of the
  TensorCore's unscoped buffers are followed from the launch memory through every segment: a host stretch applies its
  operations, a region replaces its windows' arrays by what its pipeline leaves.  Every weakly fair execution ends, without
  a fault, with every unscoped buffer at the last of these contents (`run_all`); no segment writes an argument array, so
  each ends as launched (`frame`).
-/
import proofs.«142598_j64742337019981_2_alg».proof.Proof.Gen.Kernel.Launch
import proofs.«142598_j64742337019981_2_alg».proof.Proof.Gen.Kernel.Skeleton
import proofs.«142598_j64742337019981_2_alg».proof.Proof.Gen.Kernel.Points
import proofs.«142598_j64742337019981_2_alg».proof.Proof.KB.Body0
import proofs.«142598_j64742337019981_2_alg».proof.Proof.KB.Body1
import proofs.«142598_j64742337019981_2_alg».proof.Proof.KB.Body2
import proofs.«142598_j64742337019981_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev B0 : Dev nD → Valuation τ sig (Elt F) := fun c b => (s₀ m ρ).mem ((c : Dev nD), b)
/-- After the first host stretch (region 0's entry). -/
abbrev B1 : Dev nD → Valuation τ sig (Elt F) := fun c => StableHlo.after hostOps0 (B0 m ρ c)
abbrev T1 : (c : Dev nD) → (b : Ref sig .tc) → Buf (Elt F) ((c : Thread nD τ).loc b) := fun c b => B1 m ρ c b

/-- At region 0's exit: its arrays at what the pipeline leaves (an input's as entered, an output's the fold of its
    write-backs), every other buffer as entered. -/
def B2 (c : Dev nD) : Valuation τ sig (Elt F) :=
  Pipeline.withArrays spec0 c (B1 m ρ c) fun w => (dat0 (T1 m ρ) c).arrAt w cfg0.N
theorem B2_arr (c : Dev nD) (w : Fin cfg0.W) :
    B2 m ρ c (Proc.devRef .tc (Pipeline.arrRef spec0 w)) = (dat0 (T1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references. -/
abbrev T2 : (c : Dev nD) → (b : Ref sig .tc) → Buf (Elt F) ((c : Thread nD τ).loc b) := fun c b => B2 m ρ c b
theorem hF0 (c : Dev nD) (w : Fin cfg0.W) : (dat0 (T1 m ρ) c).arrAt w cfg0.N = T2 m ρ c (Pipeline.arrRef spec0 w) :=
  (B2_arr m ρ c w).symm
theorem hrest0 (c : Dev nD) : ∀ b, b ∉ Finset.univ.image (Pipeline.arrRef spec0) → T2 m ρ c b = T1 m ρ c b :=
  fun b hb => B2_of_ne m ρ c b fun w e => hb (Finset.mem_image.mpr ⟨w, Finset.mem_univ _, e⟩)

/-- After the second host stretch (region 1's entry). -/
abbrev B3 : Dev nD → Valuation τ sig (Elt F) := fun c => StableHlo.after hostOps1 (B2 m ρ c)
abbrev T3 : (c : Dev nD) → (b : Ref sig .tc) → Buf (Elt F) ((c : Thread nD τ).loc b) := fun c b => B3 m ρ c b

/-- At region 1's exit: its arrays at what the pipeline leaves (an input's as entered, an output's the fold of its
    write-backs), every other buffer as entered. -/
def B4 (c : Dev nD) : Valuation τ sig (Elt F) :=
  Pipeline.withArrays spec1 c (B3 m ρ c) fun w => (dat1 (T3 m ρ) c).arrAt w cfg1.N
theorem B4_arr (c : Dev nD) (w : Fin cfg1.W) :
    B4 m ρ c (Proc.devRef .tc (Pipeline.arrRef spec1 w)) = (dat1 (T3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
/-- The same read at the TensorCore's references. -/
abbrev T4 : (c : Dev nD) → (b : Ref sig .tc) → Buf (Elt F) ((c : Thread nD τ).loc b) := fun c b => B4 m ρ c b
theorem hF1 (c : Dev nD) (w : Fin cfg1.W) : (dat1 (T3 m ρ) c).arrAt w cfg1.N = T4 m ρ c (Pipeline.arrRef spec1 w) :=
  (B4_arr m ρ c w).symm
theorem hrest1 (c : Dev nD) : ∀ b, b ∉ Finset.univ.image (Pipeline.arrRef spec1) → T4 m ρ c b = T3 m ρ c b :=
  fun b hb => B4_of_ne m ρ c b fun w e => hb (Finset.mem_image.mpr ⟨w, Finset.mem_univ _, e⟩)

/-- After the third host stretch (region 2's entry). -/
abbrev B5 : Dev nD → Valuation τ sig (Elt F) := fun c => StableHlo.after hostOps2 (B4 m ρ c)
abbrev T5 : (c : Dev nD) → (b : Ref sig .tc) → Buf (Elt F) ((c : Thread nD τ).loc b) := fun c b => B5 m ρ c b

/-- At region 2's exit: its arrays at what the pipeline leaves (an input's as entered, an output's the fold of its
    write-backs), every other buffer as entered. -/
def B6 (c : Dev nD) : Valuation τ sig (Elt F) :=
  Pipeline.withArrays spec2 c (B5 m ρ c) fun w => (dat2 (T5 m ρ) c).arrAt w cfg2.N
theorem B6_arr (c : Dev nD) (w : Fin cfg2.W) :
    B6 m ρ c (Proc.devRef .tc (Pipeline.arrRef spec2 w)) = (dat2 (T5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
/-- The same read at the TensorCore's references. -/
abbrev T6 : (c : Dev nD) → (b : Ref sig .tc) → Buf (Elt F) ((c : Thread nD τ).loc b) := fun c b => B6 m ρ c b
theorem hF2 (c : Dev nD) (w : Fin cfg2.W) : (dat2 (T5 m ρ) c).arrAt w cfg2.N = T6 m ρ c (Pipeline.arrRef spec2 w) :=
  (B6_arr m ρ c w).symm
theorem hrest2 (c : Dev nD) : ∀ b, b ∉ Finset.univ.image (Pipeline.arrRef spec2) → T6 m ρ c b = T5 m ρ c b :=
  fun b hb => B6_of_ne m ρ c b fun w e => hb (Finset.mem_image.mpr ⟨w, Finset.mem_univ _, e⟩)

/-- After the last host stretch: what @main returns with. -/
abbrev B7 : Dev nD → Valuation τ sig (Elt F) := fun c => StableHlo.after hostOps3 (B6 m ρ c)

/-! ## No segment writes an argument array -/

/-- A buffer that no host stretch writes and that is no window's array holds its launch contents at the end. -/
theorem B7_kept (c : Dev nD) (b : Ref sig .tc)
    (h0 : b ∉ hostOps0_W) (h1 : b ∉ hostOps1_W) (h2 : b ∉ hostOps2_W) (h3 : b ∉ hostOps3_W)
    (w0 : ∀ w, Pipeline.arrRef spec0 w ≠ b) (w1 : ∀ w, Pipeline.arrRef spec1 w ≠ b) (w2 : ∀ w, Pipeline.arrRef spec2 w ≠ b) :
    B7 m ρ c (Proc.devRef .tc b) = m ((c : Thread nD τ).loc b) :=
  calc B7 m ρ c (Proc.devRef .tc b)
    _ = B6 m ρ c (Proc.devRef .tc b) := StableHlo.after_of_writes_sub hostOps3 _ hostOps3_writes h3
    _ = B5 m ρ c (Proc.devRef .tc b) := B6_of_ne m ρ c b w2
    _ = B4 m ρ c (Proc.devRef .tc b) := StableHlo.after_of_writes_sub hostOps2 _ hostOps2_writes h2
    _ = B3 m ρ c (Proc.devRef .tc b) := B4_of_ne m ρ c b w1
    _ = B2 m ρ c (Proc.devRef .tc b) := StableHlo.after_of_writes_sub hostOps1 _ hostOps1_writes h1
    _ = B1 m ρ c (Proc.devRef .tc b) := B2_of_ne m ρ c b w0
    _ = B0 m ρ c (Proc.devRef .tc b) := StableHlo.after_of_writes_sub hostOps0 _ hostOps0_writes h0
    _ = m ((c : Thread nD τ).loc b) := rfl

theorem B7_main_arg0 (c : Dev nD) : B7 m ρ c (Proc.devRef .tc main_arg0) = m ((c : Thread nD τ).loc main_arg0) :=
  B7_kept m ρ c main_arg0 (by decide) (by decide) (by decide) (by decide) (by decide) (by decide) (by decide)
theorem B7_main_arg1 (c : Dev nD) : B7 m ρ c (Proc.devRef .tc main_arg1) = m ((c : Thread nD τ).loc main_arg1) :=
  B7_kept m ρ c main_arg1 (by decide) (by decide) (by decide) (by decide) (by decide) (by decide) (by decide)
theorem B7_main_arg2 (c : Dev nD) : B7 m ρ c (Proc.devRef .tc main_arg2) = m ((c : Thread nD τ).loc main_arg2) :=
  B7_kept m ρ c main_arg2 (by decide) (by decide) (by decide) (by decide) (by decide) (by decide) (by decide)
theorem B7_main_arg3 (c : Dev nD) : B7 m ρ c (Proc.devRef .tc main_arg3) = m ((c : Thread nD τ).loc main_arg3) :=
  B7_kept m ρ c main_arg3 (by decide) (by decide) (by decide) (by decide) (by decide) (by decide) (by decide)
theorem B7_main_arg4 (c : Dev nD) : B7 m ρ c (Proc.devRef .tc main_arg4) = m ((c : Thread nD τ).loc main_arg4) :=
  B7_kept m ρ c main_arg4 (by decide) (by decide) (by decide) (by decide) (by decide) (by decide) (by decide)
theorem B7_main_arg5 (c : Dev nD) : B7 m ρ c (Proc.devRef .tc main_arg5) = m ((c : Thread nD τ).loc main_arg5) :=
  B7_kept m ρ c main_arg5 (by decide) (by decide) (by decide) (by decide) (by decide) (by decide) (by decide)
theorem B7_main_arg6 (c : Dev nD) : B7 m ρ c (Proc.devRef .tc main_arg6) = m ((c : Thread nD τ).loc main_arg6) :=
  B7_kept m ρ c main_arg6 (by decide) (by decide) (by decide) (by decide) (by decide) (by decide) (by decide)
theorem B7_main_arg7 (c : Dev nD) : B7 m ρ c (Proc.devRef .tc main_arg7) = m ((c : Thread nD τ).loc main_arg7) :=
  B7_kept m ρ c main_arg7 (by decide) (by decide) (by decide) (by decide) (by decide) (by decide) (by decide)
theorem B7_main_arg8 (c : Dev nD) : B7 m ρ c (Proc.devRef .tc main_arg8) = m ((c : Thread nD τ).loc main_arg8) :=
  B7_kept m ρ c main_arg8 (by decide) (by decide) (by decide) (by decide) (by decide) (by decide) (by decide)
theorem B7_main_arg9 (c : Dev nD) : B7 m ρ c (Proc.devRef .tc main_arg9) = m ((c : Thread nD τ).loc main_arg9) :=
  B7_kept m ρ c main_arg9 (by decide) (by decide) (by decide) (by decide) (by decide) (by decide) (by decide)
theorem B7_main_arg10 (c : Dev nD) : B7 m ρ c (Proc.devRef .tc main_arg10) = m ((c : Thread nD τ).loc main_arg10) :=
  B7_kept m ρ c main_arg10 (by decide) (by decide) (by decide) (by decide) (by decide) (by decide) (by decide)
theorem B7_main_arg11 (c : Dev nD) : B7 m ρ c (Proc.devRef .tc main_arg11) = m ((c : Thread nD τ).loc main_arg11) :=
  B7_kept m ρ c main_arg11 (by decide) (by decide) (by decide) (by decide) (by decide) (by decide) (by decide)
theorem B7_main_arg12 (c : Dev nD) : B7 m ρ c (Proc.devRef .tc main_arg12) = m ((c : Thread nD τ).loc main_arg12) :=
  B7_kept m ρ c main_arg12 (by decide) (by decide) (by decide) (by decide) (by decide) (by decide) (by decide)
theorem B7_main_arg13 (c : Dev nD) : B7 m ρ c (Proc.devRef .tc main_arg13) = m ((c : Thread nD τ).loc main_arg13) :=
  B7_kept m ρ c main_arg13 (by decide) (by decide) (by decide) (by decide) (by decide) (by decide) (by decide)
theorem B7_main_arg14 (c : Dev nD) : B7 m ρ c (Proc.devRef .tc main_arg14) = m ((c : Thread nD τ).loc main_arg14) :=
  B7_kept m ρ c main_arg14 (by decide) (by decide) (by decide) (by decide) (by decide) (by decide) (by decide)
theorem B7_main_arg15 (c : Dev nD) : B7 m ρ c (Proc.devRef .tc main_arg15) = m ((c : Thread nD τ).loc main_arg15) :=
  B7_kept m ρ c main_arg15 (by decide) (by decide) (by decide) (by decide) (by decide) (by decide) (by decide)
theorem B7_main_arg16 (c : Dev nD) : B7 m ρ c (Proc.devRef .tc main_arg16) = m ((c : Thread nD τ).loc main_arg16) :=
  B7_kept m ρ c main_arg16 (by decide) (by decide) (by decide) (by decide) (by decide) (by decide) (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (T1 m ρ) c
  | ⟨1, _⟩ => fun c => dat1 (T3 m ρ) c
  | ⟨2, _⟩ => fun c => dat2 (T5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (B7 m ρ c) ∗ ∃ r, prngReg c r)

/-! ## The regions as segments -/

set_option backward.isDefEq.respectTransparency.types false in
/-- Region 0 over the thread state: entered with every unscoped buffer at `B1`, left with them at `B2`.  Its arrays
    are split out of the unscoped buffers on entry and put back at what the pipeline leaves on exit; the generator
    register goes into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (T1 m ρ c) (T2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `B3`, left with them at `B4`.  Its arrays
    are split out of the unscoped buffers on entry and put back at what the pipeline leaves on exit; the generator
    register goes into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (T3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (T3 m ρ c) (T4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `B5`, left with them at `B6`.  Its arrays
    are split out of the unscoped buffers on entry and put back at what the pipeline leaves on exit; the generator
    register goes into the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (T5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (T5 m ρ c) (T6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)) ]
/-- @main is the run of the segments. -/
theorem main_run (c : Dev nD) : main (F := F) c = Pipeline.Seg.run (segs m ρ) :=
  main_segs adm (pdats m ρ) () 𝒱₀ L lv _ _ _ _ (reg0 m ρ) (reg1 m ρ) (reg2 m ρ) rfl rfl rfl rfl c

set_option backward.isDefEq.respectTransparency.types false in
/-- Every weakly fair execution of @main from memory `m` with zero counters terminates, nothing faulting, and every
    final memory holds each unscoped TensorCore buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (B7 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (B7_main_arg0 m ρ c),
     (h c _ (mem_uc main_arg1 (by decide))).trans (B7_main_arg1 m ρ c),
     (h c _ (mem_uc main_arg2 (by decide))).trans (B7_main_arg2 m ρ c),
     (h c _ (mem_uc main_arg3 (by decide))).trans (B7_main_arg3 m ρ c),
     (h c _ (mem_uc main_arg4 (by decide))).trans (B7_main_arg4 m ρ c),
     (h c _ (mem_uc main_arg5 (by decide))).trans (B7_main_arg5 m ρ c),
     (h c _ (mem_uc main_arg6 (by decide))).trans (B7_main_arg6 m ρ c),
     (h c _ (mem_uc main_arg7 (by decide))).trans (B7_main_arg7 m ρ c),
     (h c _ (mem_uc main_arg8 (by decide))).trans (B7_main_arg8 m ρ c),
     (h c _ (mem_uc main_arg9 (by decide))).trans (B7_main_arg9 m ρ c),
     (h c _ (mem_uc main_arg10 (by decide))).trans (B7_main_arg10 m ρ c),
     (h c _ (mem_uc main_arg11 (by decide))).trans (B7_main_arg11 m ρ c),
     (h c _ (mem_uc main_arg12 (by decide))).trans (B7_main_arg12 m ρ c),
     (h c _ (mem_uc main_arg13 (by decide))).trans (B7_main_arg13 m ρ c),
     (h c _ (mem_uc main_arg14 (by decide))).trans (B7_main_arg14 m ρ c),
     (h c _ (mem_uc main_arg15 (by decide))).trans (B7_main_arg15 m ρ c),
     (h c _ (mem_uc main_arg16 (by decide))).trans (B7_main_arg16 m ρ c)⟩) (run_all m ρ)

end Cert.Kernel.Fr

end
-- ==== Proof.KI.Dat0.lean ====
/-
  Region 0 (the first LSTM layer, its input already folded into the bias): what the pipeline's proof data are.
  The region is entered with the TensorCore's buffers at some contents `V`.  Window `w`'s block at grid point `t`
  is read off its array; the body loads its four input blocks whole and stores the new hidden state into
  window 4 and the new cell state into window 5, each in one whole-block store.
-/
import proofs.«142598_j64742337019981_2_alg».proof.Proof.Gen.KernelIdeal.Launch
import proofs.«142598_j64742337019981_2_alg».proof.Proof.Gen.KernelIdeal.Skeleton
import proofs.«142598_j64742337019981_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev rH0 : Rect S1x2048 := Rect.unit (s := S1x2048) ![0, 0] S1x2048.size inb_S1x2048_S1x2048_0_0
abbrev rC0 : Rect S1x256 := Rect.unit (s := S1x256) ![0, 0] S1x256.size inb_S1x256_S1x256_0_0
abbrev rW0 : Rect S4x256x2048 := Rect.unit (s := S4x256x2048) ![0, 0, 0] S4x256x2048.size inb_S4x256x2048_S4x256x2048_0_0_0
abbrev rB0 : Rect S4x256 := Rect.unit (s := S4x256) ![0, 0] S4x256.size inb_S4x256_S4x256_0_0

/-- Window 4's staging buffer after the body: the new hidden state of the block's 256 units. -/
def out0_4 (x0 : Vec F S1x2048 .f32) (x1 : Vec F S1x256 .f32) (x2 : Vec F S4x256x2048 .f32) (x3 : Vec F S4x256 .f32) : Vec F S1x256 .f32 :=
  View.canon [⟨rC0, k0_pay5 (View.ld x0 rH0) (View.ld x1 rC0) (View.ld x2 rW0) (View.ld x3 rB0)⟩]

/-- Window 5's staging buffer after the body: the new cell state of the block's 256 units. -/
def out0_5 (x0 : Vec F S1x2048 .f32) (x1 : Vec F S1x256 .f32) (x2 : Vec F S4x256x2048 .f32) (x3 : Vec F S4x256 .f32) : Vec F S1x256 .f32 :=
  View.canon [⟨rC0, k0_pay4 (View.ld x0 rH0) (View.ld x1 rC0) (View.ld x2 rW0) (View.ld x3 rB0)⟩]

/-- The proof data of pipeline 0 on core `c`: arrays as found; after the body each input's buffer holds its block and
    each output's the body's result of the input blocks; the scoped rest and the generator register ride along untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

end Cert.KernelIdeal.Fr

end
-- ==== Proof.LibNtMatmul.lean ====
/-
  A matrix product with the right operand contracted on its LAST axis, read at an index, at the ideal values.

  For the dimension numbers of the product of an `M × K` matrix by the transpose of an `N × K` matrix (contract axis 1
  of both operands, no batch axis), the product accumulated into the zero matrix is, at row `r` and column `e`, the sum
  over `k < K` of `lhs (r, k) * rhs (e, k)` on the extended reals, whatever float formats label the two operands (every
  format is the extended reals there). Stated over literal-size coordinates (`ix2 r e`) so that it applies to a printed
  product by unification; a printed record of dimension numbers with the lists [1], [1], [0], [0], [], [] is
  `DotDims.transposedRhs M K N` up to the proof of its well-formedness, which is irrelevant.
-/
import Idealize.ShloMosaic.Lib.ValueIdx
import Idealize.ShloMosaic.PureOps.Ideal.Laws

noncomputable section

namespace Idealize.ShloMosaic.NtMatmul

open Idealize.ShloMosaic Idealize.ShloMosaic.ValueIdx

/-- The contraction shape has one axis, of extent `K`. -/
theorem contr_rank (M K N : ℕ) : (DotDims.transposedRhs M K N).contr.rank = 1 := rfl

theorem contr_size (M K N : ℕ) : (DotDims.transposedRhs M K N).contr.size ⟨0, by rw [contr_rank]; exact Nat.one_pos⟩ = K := rfl

theorem lhs_val0 (M K N : ℕ) (j : (⟨2, ![M, N]⟩ : Shape).Idx) (q : (DotDims.transposedRhs M K N).contr.Idx) :
    ((DotDims.transposedRhs M K N).lhsIdx j q 0).val = (j 0).val := rfl
theorem lhs_val1 (M K N : ℕ) (j : (⟨2, ![M, N]⟩ : Shape).Idx) (q : (DotDims.transposedRhs M K N).contr.Idx) :
    ((DotDims.transposedRhs M K N).lhsIdx j q 1).val = (q ⟨0, by rw [contr_rank]; exact Nat.one_pos⟩).val :=
  (DotDims.transposedRhs M K N).lhsIdx_val_of_single (cl := (1 : Fin 2)) rfl j q
theorem rhs_val0 (M K N : ℕ) (j : (⟨2, ![M, N]⟩ : Shape).Idx) (q : (DotDims.transposedRhs M K N).contr.Idx) :
    ((DotDims.transposedRhs M K N).rhsIdx j q 0).val = (j 1).val := rfl
theorem rhs_val1 (M K N : ℕ) (j : (⟨2, ![M, N]⟩ : Shape).Idx) (q : (DotDims.transposedRhs M K N).contr.Idx) :
    ((DotDims.transposedRhs M K N).rhsIdx j q 1).val = (q ⟨0, by rw [contr_rank]; exact Nat.one_pos⟩).val :=
  (DotDims.transposedRhs M K N).rhsIdx_val_of_single (cr := (1 : Fin 2)) rfl j q

/-- At output `(r, e)` and contraction coordinate `k` the left operand is read at `(r, k)` and the right at `(e, k)`. -/
theorem lhsIdx_eq (M K N : ℕ) (r : Fin M) (e : Fin N) (k : Fin K) :
    (DotDims.transposedRhs M K N).lhsIdx (ix2 r e) ((contrEquiv1 (DotDims.transposedRhs M K N) K (contr_rank M K N) (contr_size M K N)).symm k) = ix2 r k := by
  have hk := contrEquiv1_symm_val (DotDims.transposedRhs M K N) K (contr_rank M K N) (contr_size M K N) k
  funext a
  refine Fin.ext ?_
  match a with
  | ⟨0, _⟩ => exact lhs_val0 M K N _ _
  | ⟨1, _⟩ => exact (lhs_val1 M K N _ _).trans hk

theorem rhsIdx_eq (M K N : ℕ) (r : Fin M) (e : Fin N) (k : Fin K) :
    (DotDims.transposedRhs M K N).rhsIdx (ix2 r e) ((contrEquiv1 (DotDims.transposedRhs M K N) K (contr_rank M K N) (contr_size M K N)).symm k) = ix2 e k := by
  have hk := contrEquiv1_symm_val (DotDims.transposedRhs M K N) K (contr_rank M K N) (contr_size M K N) k
  funext a
  refine Fin.ext ?_
  match a with
  | ⟨0, _⟩ => exact rhs_val0 M K N _ _
  | ⟨1, _⟩ => exact (rhs_val1 M K N _ _).trans hk

/-- The product into the zero matrix, at `(r, e)`: the sum over the shared last axis of the operands' products. -/
theorem matmul_zero_apply_fmt {φ₁ φ₂ : FTy} (M K N : ℕ) (prec : Option ContractPrecision)
    (lhs : FVec Ideal ⟨2, ![M, K]⟩ φ₁) (rhs : FVec Ideal ⟨2, ![N, K]⟩ φ₂) (r : Fin M) (e : Fin N) :
    matmul (DotDims.transposedRhs M K N) prec lhs rhs (constant (F := Ideal) ⟨2, ![M, N]⟩ .f32 0x00000000#32) (ix2 r e)
      = ∑ k : Fin K, lhs (ix2 r k) * rhs (ix2 e k) := by
  show FloatOps.matmul (DotDims.transposedRhs M K N) prec lhs rhs (constant (F := Ideal) ⟨2, ![M, N]⟩ .f32 0x00000000#32) (ix2 r e) = _
  rw [Ideal.matmul_constant_zero_apply, ← Equiv.sum_comp (contrEquiv1 (DotDims.transposedRhs M K N) K (contr_rank M K N) (contr_size M K N)).symm]
  refine Finset.sum_congr rfl fun k _ => ?_
  rw [lhsIdx_eq, rhsIdx_eq]

end Idealize.ShloMosaic.NtMatmul

end
-- ==== Proof.LibLeadAxes.lean ====
/-
  Layout operations on the two leading axes of a rank-3 array, read at an index given by coordinates.

  • Flattening `[A, B, C]` to `[A·B, C]` (the rows of a stack of matrices laid one after another) reads, at `(R, c)` with
    `R = a·B + b`, the operand at `(a, b, c)`; un-flattening reads the other way. Both are the row-major position
    `(a·B + b)·C + c` spelt in two ways.
  • A slice along axis 0 from offset `o` reads, at `(u, k, e)`, the operand at `(o + u, k, e)`.
  Stated over `ixN` coordinates of literal `Fin` types so that they apply to a printed operation by unification.
-/
import Idealize.ShloMosaic.Lib.Pipeline.Value
import Idealize.ShloMosaic.Lib.ValueIdx

namespace Idealize.ShloMosaic.LeadAxes

open Idealize.ShloMosaic Idealize.ShloMosaic.ValueIdx

variable {α : Type}

/-- `[A, B, C]` flattened to `[n, C]` (`n = A·B`): at `(R, c)` with `R = a·B + b` it is the operand at `(a, b, c)`. -/
theorem shapeCast_merge_apply {A B C n : ℕ} (x : (⟨3, ![A, B, C]⟩ : Shape).Idx → α)
    (h : (⟨3, ![A, B, C]⟩ : Shape).ShapeCasts ⟨2, ![n, C]⟩) (a : Fin A) (b : Fin B) (c : Fin C) (R : Fin n)
    (hR : R.val = a.val * B + b.val) : shapeCast ⟨2, ![n, C]⟩ x h (ix2 R c) = x (ix3 a b c) :=
  shapeCast_apply x h _ _ (by
    rw [Shape.rowMajor_val_three, Shape.rowMajor_val_two]
    show (a.val * B + b.val) * C + c.val = R.val * C + c.val
    rw [hR])

/-- `[n, C]` un-flattened to `[A, B, C]` (`n = A·B`): at `(a, b, c)` it is the operand at `(R, c)` with `R = a·B + b`. -/
theorem shapeCast_split_apply {A B C n : ℕ} (x : (⟨2, ![n, C]⟩ : Shape).Idx → α)
    (h : (⟨2, ![n, C]⟩ : Shape).ShapeCasts ⟨3, ![A, B, C]⟩) (a : Fin A) (b : Fin B) (c : Fin C) (R : Fin n)
    (hR : R.val = a.val * B + b.val) : shapeCast ⟨3, ![A, B, C]⟩ x h (ix3 a b c) = x (ix2 R c) :=
  shapeCast_apply x h _ _ (by
    rw [Shape.rowMajor_val_three, Shape.rowMajor_val_two]
    show R.val * C + c.val = (a.val * B + b.val) * C + c.val
    rw [hR])

/-- A rank-3 array cut along axis 0 from `o` reads, at `(u, k, e)`, the source at `(b, k, e)` with `b = o + u`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (u : Fin m) (k : Fin n1) (e : Fin n2) (b : Fin n0) (hb : b.val = o + u.val) :
    extractStridedSlice ⟨3, ![m, n1, n2]⟩ ![o, 0, 0] X h (ix3 u k e) = X (ix3 b k e) :=
  extractStridedSlice_apply _ _ _ _ _ (fun ax => by
    match ax with
    | ⟨0, _⟩ => exact hb
    | ⟨1, _⟩ => exact (Nat.zero_add _).symm
    | ⟨2, _⟩ => exact (Nat.zero_add _).symm)

end Idealize.ShloMosaic.LeadAxes
-- ==== Proof.KVal.Gate.lean ====
/-
  One gate of the LSTM kernels' bodies at the ideal values, read at one hidden unit.

  A kernel body holds a block of 256 hidden units. Its weights arrive as a [4, 256, 2048] array, gate group k in
  slab k; its bias as a [4, 256] array, gate group k in row k. For gate group k the body cuts slab k out of the
  weights (a slice along axis 0 from k, of extent 1), drops the unit axis ([1, 256, 2048] to [256, 2048]), and multiplies
  the [1, 2048] state row by that matrix with both operands contracted on their last axis, into a zero accumulator:
  at unit l the result is  Σ_q state(0, q) · W(k, l, q)  on the extended reals (0 + s = s).  The bias row k is cut out
  of the [4, 256] array the same way and cast [1, 256] to [256] to [1, 256]; at unit l it is  b(k, l).
-/
import proofs.«142598_j64742337019981_2_alg».proof.Proof.Gen.KernelIdeal.Skeleton
import proofs.«142598_j64742337019981_2_alg».proof.Proof.LibNtMatmul
import proofs.«142598_j64742337019981_2_alg».proof.Proof.LibLeadAxes
import Idealize.ShloMosaic.Lib.ValueLayout

noncomputable section

namespace Cert.KernelIdeal.KVal

open Cert.KernelIdeal Cert.KernelIdeal.Gen
open Idealize.ShloMosaic Idealize.ShloMosaic.ValueIdx

/-- The logistic function and the hyperbolic tangent act entry by entry. -/
theorem logistic_apply {s : Shape} {φ : FTy} (v : FVec Ideal s φ) (i : s.Idx) : logistic v i = Ideal.logistic (v i) := rfl
theorem tanh_apply {s : Shape} {φ : FTy} (v : FVec Ideal s φ) (i : s.Idx) : tanh v i = Ideal.tanh (v i) := rfl

/-- The bodies' product contracts axis 1 of both operands and has no batch axis: it is the product of a 1 × 2048 row
    by the transpose of a 256 × 2048 matrix. -/
theorem dot_eq_transposedRhs :
    dot_S1x2048_S256x2048_S1x256_1_1_0_0_n_n = DotDims.transposedRhs 1 2048 256 := rfl

/-- The weight term of gate group `k` at unit `l`: Σ_q x(0, q) · W(k, l, q). -/
theorem gateDot_apply (x : FVec Ideal S1x2048 .f32) (W : FVec Ideal S4x256x2048 .f32) (o : ℕ)
    (hs : S4x256x2048.Slices ![o, 0, 0] S1x256x2048) (hc : S1x256x2048.ShapeCasts S256x2048)
    (k : Fin 4) (hk : k.val = o) (l : Fin 256) :
    matmul dot_S1x2048_S256x2048_S1x256_1_1_0_0_n_n none x
        (shapeCast S256x2048 (extractStridedSlice S1x256x2048 ![o, 0, 0] W hs) hc)
        (constant (F := Ideal) S1x256 .f32 0x00000000#32) (ix2 0 l)
      = ∑ q : Fin 2048, x (ix2 0 q) * W (ix3 k l q) := by
  rw [dot_eq_transposedRhs]
  refine (NtMatmul.matmul_zero_apply_fmt 1 2048 256 none x _ 0 l).trans ?_
  refine Finset.sum_congr rfl fun q _ => ?_
  rw [shapeCast_1ab_ab_apply, LeadAxes.slice3_axis0_apply o W hs 0 l q k (by rw [hk]; rfl)]

/-- The bias term of gate group `k` at unit `l`: b(k, l). -/
theorem gateBias_apply (b : FVec Ideal S4x256 .f32) (o : ℕ)
    (hs : S4x256.Slices ![o, 0] S1x256) (h1 : S1x256.ShapeCasts S256) (h2 : S256.ShapeCasts S1x256)
    (k : Fin 4) (hk : k.val = o) (l : Fin 256) :
    shapeCast S1x256 (shapeCast S256 (extractStridedSlice S1x256 ![o, 0] b hs) h1) h2 (ix2 0 l) = b (ix2 k l) := by
  rw [shapeCast_a_1a_apply, shapeCast_1a_a_apply, slice2_axis0_apply o b hs 0 l k (by rw [hk]; rfl)]

end Cert.KernelIdeal.KVal

end
-- ==== Proof.KVal.Cell0.lean ====
/-
  The first layer's kernel body at the ideal values, read at one hidden unit.

  The body holds the previous hidden state h [1, 2048], a block c [1, 256] of the previous cell state, the block
  W [4, 256, 2048] of the recurrent weights and the block b [4, 256] of the bias (the layer's input is already folded
  into it). Gate group k at unit l is  a_k(l) = Σ_q h(0, q) · W(k, l, q) + b(k, l);  the groups are, in order, the
  input gate, the forget gate, the candidate and the output gate. The new cell state at unit l is
      c'(l) = σ(a_1(l)) · c(0, l) + σ(a_0(l)) · tanh(a_2(l)),
  and the new hidden state is  σ(a_3(l)) · tanh(c'(l)),  σ the logistic function.
-/
import proofs.«142598_j64742337019981_2_alg».proof.Proof.KVal.Gate

noncomputable section

namespace Cert.KernelIdeal.KVal

open Cert.KernelIdeal Cert.KernelIdeal.Gen
open Idealize.ShloMosaic Idealize.ShloMosaic.ValueIdx

/-- Gate group `k` of the first layer at unit `l`: the recurrent product plus the bias. -/
def gate0 (h : Vec Ideal S1x2048 .f32) (W : Vec Ideal S4x256x2048 .f32) (b : Vec Ideal S4x256 .f32)
    (k : Fin 4) (l : Fin 256) : EReal :=
  (∑ q : Fin 2048, h (ix2 0 q) * W (ix3 k l q)) + b (ix2 k l)

/-- The new cell state of the block at unit `l`. -/
theorem k0_cell_apply (h : Vec Ideal S1x2048 .f32) (c : Vec Ideal S1x256 .f32) (W : Vec Ideal S4x256x2048 .f32)
    (b : Vec Ideal S4x256 .f32) (l : Fin 256) :
    k0_pay4 (F := Ideal) h c W b (ix2 0 l)
      = Ideal.logistic (gate0 h W b 1 l) * c (ix2 0 l)
        + Ideal.logistic (gate0 h W b 0 l) * Ideal.tanh (gate0 h W b 2 l) := by
  unfold k0_pay4 k0_pay1 k0_pay2 k0_pay3
  simp only [shapeCast_self, addf_apply, mulf_apply, logistic_apply, tanh_apply]
  rw [gateDot_apply h W 1 _ _ 1 rfl l, gateBias_apply b 1 _ _ _ 1 rfl l,
    gateDot_apply h W 0 _ _ 0 rfl l, gateBias_apply b 0 _ _ _ 0 rfl l,
    gateDot_apply h W 2 _ _ 2 rfl l, gateBias_apply b 2 _ _ _ 2 rfl l]
  rfl

/-- The new hidden state of the block at unit `l`. -/
theorem k0_hidden_apply (h : Vec Ideal S1x2048 .f32) (c : Vec Ideal S1x256 .f32) (W : Vec Ideal S4x256x2048 .f32)
    (b : Vec Ideal S4x256 .f32) (l : Fin 256) :
    k0_pay5 (F := Ideal) h c W b (ix2 0 l)
      = Ideal.logistic (gate0 h W b 3 l) * Ideal.tanh (k0_pay4 (F := Ideal) h c W b (ix2 0 l)) := by
  unfold k0_pay5 k0_pay1 k0_pay2 k0_pay3
  simp only [shapeCast_self, addf_apply, mulf_apply, logistic_apply, tanh_apply]
  rw [gateDot_apply h W 3 _ _ 3 rfl l, gateBias_apply b 3 _ _ _ 3 rfl l]
  rfl

end Cert.KernelIdeal.KVal

end
-- ==== Proof.KI.Val0.lean ====
/-
  Region 0: what the two output arrays hold after the region, index by index, as a function of the arrays the
  region reads.  The grid has 8 points; point t handles hidden units 256·t … 256·t + 255.  Each input window's block
  at point t is its array read at those units (the state rows are read whole at every point), the body's two results
  at unit l of the block are the cell and hidden formulas of the block's gate pre-activations, and a block's gate
  pre-activation at unit l is the array's at unit 256·t + l.  The 8 blocks of an output tile its array, so the array
  ends holding the formulas at every unit.
-/
import proofs.«142598_j64742337019981_2_alg».proof.Proof.KI.Dat0
import proofs.«142598_j64742337019981_2_alg».proof.Proof.KVal.Cell0
import Idealize.ShloMosaic.Lib.Pipeline.Value
import Idealize.ShloMosaic.Lib.ValueIdx
import Idealize.ShloMosaic.PureOps.Ideal

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The pre-activation of gate group `k` at hidden unit `n`: Σ_q h(0, q) · W(k, n, q) + b(k, n). -/
def G0 (h : Vec Ideal S1x2048 .f32) (W : Vec Ideal S4x2048x2048 .f32) (b : Vec Ideal S4x2048 .f32) (k : Fin 4) (n : Fin 2048) : EReal :=
  (∑ q : Fin 2048, h (ix2 0 q) * W (ix3 k n q)) + b (ix2 k n)

/-- The new cell state as one array: at unit n, σ(forget) · c + σ(input) · tanh(candidate). -/
def cellArr0 (h c : Vec Ideal S1x2048 .f32) (W : Vec Ideal S4x2048x2048 .f32) (b : Vec Ideal S4x2048 .f32) : S1x2048.Idx → EReal :=
  fun i => Ideal.logistic (G0 h W b 1 (i 1)) * c (ix2 0 (i 1)) + Ideal.logistic (G0 h W b 0 (i 1)) * Ideal.tanh (G0 h W b 2 (i 1))

/-- The new hidden state as one array: at unit n, σ(output) · tanh(new cell). -/
def hiddenArr0 (h c : Vec Ideal S1x2048 .f32) (W : Vec Ideal S4x2048x2048 .f32) (b : Vec Ideal S4x2048 .f32) : S1x2048.Idx → EReal :=
  fun i => Ideal.logistic (G0 h W b 3 (i 1)) * Ideal.tanh (cellArr0 h c W b i)

theorem hz2_0 : (![0, 0] : Fin 2 → Nat) = fun _ => 0 := funext fun a => by fin_cases a <;> rfl
theorem hz3_0 : (![0, 0, 0] : Fin 3 → Nat) = fun _ => 0 := funext fun a => by fin_cases a <;> rfl

/-- The windows' block indices at grid point t, decided over the 8 points: the state row is block (0, 0) at every
    point; every other window is at block t along its axis of hidden units. -/
theorem idx_facts0 : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 3) = 0 ∧ win0_2.index t (1 : Fin 3) = t.val ∧ win0_2.index t (2 : Fin 3) = 0
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val ∧ t.val < 8 :=
  (by decide +kernel : ∀ t : Fin grid0.N, _)

/-! ## Each input block as its array read at the block's units -/

theorem iblk0_0_apply (c : Dev nD) (t : Fin cfg0.N) (x k : S1x2048.Idx)
    (hk0 : (k 0).val = (x 0).val) (hk1 : (k 1).val = (x 1).val) :
    (iblk0 V c 0 t : Vec Ideal S1x2048 .f32) x = (V c main_v8 : S1x2048.Idx → EReal) k := by
  obtain ⟨e0, e1, -⟩ := idx_facts0 t
  unfold iblk0
  rw [View.read_apply]
  show V c main_v8 _ = V c main_v8 _
  congr 1
  funext a
  apply Fin.ext
  match a with
  | ⟨0, _⟩ => show win0_0.index t 0 * 1 + 1 * (x 0).val = (k 0).val; rw [e0, hk0]; omega
  | ⟨1, _⟩ => show win0_0.index t 1 * 2048 + 1 * (x 1).val = (k 1).val; rw [e1, hk1]; omega

theorem iblk0_1_apply (c : Dev nD) (t : Fin cfg0.N) (x : S1x256.Idx) (k : S1x2048.Idx)
    (hk0 : (k 0).val = (x 0).val) (hk1 : (k 1).val = 256 * t.val + (x 1).val) :
    (iblk0 V c 1 t : Vec Ideal S1x256 .f32) x = (V c main_v10 : S1x2048.Idx → EReal) k := by
  obtain ⟨-, -, e0, e1, -⟩ := idx_facts0 t
  unfold iblk0
  rw [View.read_apply]
  show V c main_v10 _ = V c main_v10 _
  congr 1
  funext a
  apply Fin.ext
  match a with
  | ⟨0, _⟩ => show win0_1.index t 0 * 1 + 1 * (x 0).val = (k 0).val; rw [e0, hk0]; omega
  | ⟨1, _⟩ => show win0_1.index t 1 * 256 + 1 * (x 1).val = (k 1).val; rw [e1, hk1]; omega

theorem iblk0_2_apply (c : Dev nD) (t : Fin cfg0.N) (x : S4x256x2048.Idx) (k : S4x2048x2048.Idx)
    (hk0 : (k 0).val = (x 0).val) (hk1 : (k 1).val = 256 * t.val + (x 1).val) (hk2 : (k 2).val = (x 2).val) :
    (iblk0 V c 2 t : Vec Ideal S4x256x2048 .f32) x = (V c main_v11 : S4x2048x2048.Idx → EReal) k := by
  obtain ⟨-, -, -, -, e0, e1, e2, -⟩ := idx_facts0 t
  unfold iblk0
  rw [View.read_apply]
  show V c main_v11 _ = V c main_v11 _
  congr 1
  funext a
  apply Fin.ext
  match a with
  | ⟨0, _⟩ => show win0_2.index t 0 * 4 + 1 * (x 0).val = (k 0).val; rw [e0, hk0]; omega
  | ⟨1, _⟩ => show win0_2.index t 1 * 256 + 1 * (x 1).val = (k 1).val; rw [e1, hk1]; omega
  | ⟨2, _⟩ => show win0_2.index t 2 * 2048 + 1 * (x 2).val = (k 2).val; rw [e2, hk2]; omega

theorem iblk0_3_apply (c : Dev nD) (t : Fin cfg0.N) (x : S4x256.Idx) (k : S4x2048.Idx)
    (hk0 : (k 0).val = (x 0).val) (hk1 : (k 1).val = 256 * t.val + (x 1).val) :
    (iblk0 V c 3 t : Vec Ideal S4x256 .f32) x = (V c main_v6 : S4x2048.Idx → EReal) k := by
  obtain ⟨-, -, -, -, -, -, -, e0, e1, -⟩ := idx_facts0 t
  unfold iblk0
  rw [View.read_apply]
  show V c main_v6 _ = V c main_v6 _
  congr 1
  funext a
  apply Fin.ext
  match a with
  | ⟨0, _⟩ => show win0_3.index t 0 * 4 + 1 * (x 0).val = (k 0).val; rw [e0, hk0]; omega
  | ⟨1, _⟩ => show win0_3.index t 1 * 256 + 1 * (x 1).val = (k 1).val; rw [e1, hk1]; omega

/-! ## A block's gate pre-activations, and the body's two results, are the arrays' at the block's units -/

theorem gate0_blk (h : Vec Ideal S1x2048 .f32) (W : Vec Ideal S4x2048x2048 .f32) (b : Vec Ideal S4x2048 .f32)
    (hb : Vec Ideal S1x2048 .f32) (Wb : Vec Ideal S4x256x2048 .f32) (bb : Vec Ideal S4x256 .f32)
    (l : Fin 256) (n : Fin 2048)
    (Hh : ∀ q : Fin 2048, hb (ix2 0 q) = h (ix2 0 q))
    (HW : ∀ (k : Fin 4) (q : Fin 2048), Wb (ix3 k l q) = W (ix3 k n q))
    (Hb : ∀ k : Fin 4, bb (ix2 k l) = b (ix2 k n)) (k : Fin 4) :
    KVal.gate0 hb Wb bb k l = G0 h W b k n := by
  unfold KVal.gate0 G0
  rw [Hb k]
  congr 1
  exact Finset.sum_congr rfl fun q _ => by rw [Hh q, HW k q]

theorem cell0_blk (h c : Vec Ideal S1x2048 .f32) (W : Vec Ideal S4x2048x2048 .f32) (b : Vec Ideal S4x2048 .f32)
    (hb : Vec Ideal S1x2048 .f32) (cb : Vec Ideal S1x256 .f32) (Wb : Vec Ideal S4x256x2048 .f32) (bb : Vec Ideal S4x256 .f32)
    (l : Fin 256) (n : Fin 2048)
    (Hh : ∀ q : Fin 2048, hb (ix2 0 q) = h (ix2 0 q))
    (Hc : cb (ix2 0 l) = c (ix2 0 n))
    (HW : ∀ (k : Fin 4) (q : Fin 2048), Wb (ix3 k l q) = W (ix3 k n q))
    (Hb : ∀ k : Fin 4, bb (ix2 k l) = b (ix2 k n)) :
    k0_pay4 (F := Ideal) hb cb Wb bb (ix2 0 l) = cellArr0 h c W b (ix2 0 n) := by
  rw [KVal.k0_cell_apply, gate0_blk h W b hb Wb bb l n Hh HW Hb 1, gate0_blk h W b hb Wb bb l n Hh HW Hb 0,
    gate0_blk h W b hb Wb bb l n Hh HW Hb 2, Hc]
  rfl

theorem hidden0_blk (h c : Vec Ideal S1x2048 .f32) (W : Vec Ideal S4x2048x2048 .f32) (b : Vec Ideal S4x2048 .f32)
    (hb : Vec Ideal S1x2048 .f32) (cb : Vec Ideal S1x256 .f32) (Wb : Vec Ideal S4x256x2048 .f32) (bb : Vec Ideal S4x256 .f32)
    (l : Fin 256) (n : Fin 2048)
    (Hh : ∀ q : Fin 2048, hb (ix2 0 q) = h (ix2 0 q))
    (Hc : cb (ix2 0 l) = c (ix2 0 n))
    (HW : ∀ (k : Fin 4) (q : Fin 2048), Wb (ix3 k l q) = W (ix3 k n q))
    (Hb : ∀ k : Fin 4, bb (ix2 k l) = b (ix2 k n)) :
    k0_pay5 (F := Ideal) hb cb Wb bb (ix2 0 l) = hiddenArr0 h c W b (ix2 0 n) := by
  rw [KVal.k0_hidden_apply, cell0_blk h c W b hb cb Wb bb l n Hh Hc HW Hb, gate0_blk h W b hb Wb bb l n Hh HW Hb 3]
  rfl

/-! ## What each point writes back is its block of the whole-array function -/

/-- Point t writes back block t of the new cell state. -/
theorem flushed0_5_eq (c : Dev nD) (t : Fin cfg0.N) :
    (dat0 V c).flushed 5 t = ((cfg0.win 5).blk t).view.read (Elt Ideal) (cellArr0 (V c main_v8) (V c main_v10) (V c main_v11) (V c main_v6)) := by
  show (cfg0.win 5).cut (grid0.coords t) ((dat0 V c).after 5 t) = _
  rw [after0_5]
  unfold out0_5
  rw [View.canon_unit_zero hz2_0]
  simp only [View.ld_unit_zero (S := S1x2048) hz2_0, View.ld_unit_zero (S := S1x256) hz2_0, View.ld_unit_zero (S := S4x256x2048) hz3_0, View.ld_unit_zero (S := S4x256) hz2_0]
  obtain ⟨-, -, -, -, -, -, -, -, -, -, -, e0, e1, ht⟩ := idx_facts0 t
  funext j
  obtain ⟨p, l, rfl⟩ : ∃ (p : Fin 1) (l : Fin 256), j = ix2 p l := ⟨j 0, j 1, eq_ix2 j⟩
  obtain rfl : p = 0 := Subsingleton.elim _ _
  have hl : l.val < 256 := l.isLt
  have hn : 256 * t.val + l.val < 2048 := by omega
  have hemb : ((cfg0.win 5).blk t).view.emb (ix2 0 l) = (ix2 0 ⟨256 * t.val + l.val, hn⟩ : S1x2048.Idx) := by
    funext a; apply Fin.ext
    match a with
    | ⟨0, _⟩ => show win0_5.index t 0 * 1 + 1 * 0 = 0; rw [e0]
    | ⟨1, _⟩ => show win0_5.index t 1 * 256 + 1 * l.val = 256 * t.val + l.val; rw [e1]; omega
  show k0_pay4 (F := Ideal) (iblk0 V c 0 t) (iblk0 V c 1 t) (iblk0 V c 2 t) (iblk0 V c 3 t) (ix2 0 l)
    = cellArr0 (V c main_v8) (V c main_v10) (V c main_v11) (V c main_v6) (((cfg0.win 5).blk t).view.emb (ix2 0 l))
  rw [hemb]
  exact cell0_blk (V c main_v8) (V c main_v10) (V c main_v11) (V c main_v6) (iblk0 V c 0 t) (iblk0 V c 1 t) (iblk0 V c 2 t) (iblk0 V c 3 t)
    l ⟨256 * t.val + l.val, hn⟩
    (fun q => iblk0_0_apply V c t (ix2 0 q) (ix2 0 q) rfl rfl)
    (iblk0_1_apply V c t (ix2 0 l) (ix2 0 ⟨256 * t.val + l.val, hn⟩) rfl rfl)
    (fun k q => iblk0_2_apply V c t (ix3 k l q) (ix3 k ⟨256 * t.val + l.val, hn⟩ q) rfl rfl rfl)
    (fun k => iblk0_3_apply V c t (ix2 k l) (ix2 k ⟨256 * t.val + l.val, hn⟩) rfl rfl)

/-- Point t writes back block t of the new hidden state. -/
theorem flushed0_4_eq (c : Dev nD) (t : Fin cfg0.N) :
    (dat0 V c).flushed 4 t = ((cfg0.win 4).blk t).view.read (Elt Ideal) (hiddenArr0 (V c main_v8) (V c main_v10) (V c main_v11) (V c main_v6)) := by
  show (cfg0.win 4).cut (grid0.coords t) ((dat0 V c).after 4 t) = _
  rw [after0_4]
  unfold out0_4
  rw [View.canon_unit_zero hz2_0]
  simp only [View.ld_unit_zero (S := S1x2048) hz2_0, View.ld_unit_zero (S := S1x256) hz2_0, View.ld_unit_zero (S := S4x256x2048) hz3_0, View.ld_unit_zero (S := S4x256) hz2_0]
  obtain ⟨-, -, -, -, -, -, -, -, -, e0, e1, -, -, ht⟩ := idx_facts0 t
  funext j
  obtain ⟨p, l, rfl⟩ : ∃ (p : Fin 1) (l : Fin 256), j = ix2 p l := ⟨j 0, j 1, eq_ix2 j⟩
  obtain rfl : p = 0 := Subsingleton.elim _ _
  have hl : l.val < 256 := l.isLt
  have hn : 256 * t.val + l.val < 2048 := by omega
  have hemb : ((cfg0.win 4).blk t).view.emb (ix2 0 l) = (ix2 0 ⟨256 * t.val + l.val, hn⟩ : S1x2048.Idx) := by
    funext a; apply Fin.ext
    match a with
    | ⟨0, _⟩ => show win0_4.index t 0 * 1 + 1 * 0 = 0; rw [e0]
    | ⟨1, _⟩ => show win0_4.index t 1 * 256 + 1 * l.val = 256 * t.val + l.val; rw [e1]; omega
  show k0_pay5 (F := Ideal) (iblk0 V c 0 t) (iblk0 V c 1 t) (iblk0 V c 2 t) (iblk0 V c 3 t) (ix2 0 l)
    = hiddenArr0 (V c main_v8) (V c main_v10) (V c main_v11) (V c main_v6) (((cfg0.win 4).blk t).view.emb (ix2 0 l))
  rw [hemb]
  exact hidden0_blk (V c main_v8) (V c main_v10) (V c main_v11) (V c main_v6) (iblk0 V c 0 t) (iblk0 V c 1 t) (iblk0 V c 2 t) (iblk0 V c 3 t)
    l ⟨256 * t.val + l.val, hn⟩
    (fun q => iblk0_0_apply V c t (ix2 0 q) (ix2 0 q) rfl rfl)
    (iblk0_1_apply V c t (ix2 0 l) (ix2 0 ⟨256 * t.val + l.val, hn⟩) rfl rfl)
    (fun k q => iblk0_2_apply V c t (ix3 k l q) (ix3 k ⟨256 * t.val + l.val, hn⟩ q) rfl rfl rfl)
    (fun k => iblk0_3_apply V c t (ix2 k l) (ix2 k ⟨256 * t.val + l.val, hn⟩) rfl rfl)

/-! ## The 8 blocks tile the output arrays -/

/-- An index of the array is in point t's block iff each coordinate is in the block's range on its axis. -/
theorem mem_blk0_5 (t : Fin cfg0.N) (i : S1x2048.Idx) :
    i ∈ ((cfg0.win 5).blk t).view.set ↔ ∀ a : Fin 2, win0_5.index t a * S1x256.size a ≤ (i a).val ∧ (i a).val < win0_5.index t a * S1x256.size a + S1x256.size a := by
  show i ∈ ((View.whole main_v12_1).slice (win0_5.rect t)).set ↔ _
  rw [View.set_slice_whole, Rect.mem_set_unit]
  exact Iff.rfl

theorem mem_blk0_4 (t : Fin cfg0.N) (i : S1x2048.Idx) :
    i ∈ ((cfg0.win 4).blk t).view.set ↔ ∀ a : Fin 2, win0_4.index t a * S1x256.size a ≤ (i a).val ∧ (i a).val < win0_4.index t a * S1x256.size a + S1x256.size a := by
  show i ∈ ((View.whole main_v12_0).slice (win0_4.rect t)).set ↔ _
  rw [View.set_slice_whole, Rect.mem_set_unit]
  exact Iff.rfl

/-- Unit n is in the block of point n / 256. -/
theorem cover0_5 (i : S1x2048.Idx) : ∃ t : Fin cfg0.N, (cfg0.win 5).flush t = true ∧ i ∈ ((cfg0.win 5).blk t).view.set := by
  have hi0 : (i 0).val < 1 := (i 0).isLt
  have hi1 : (i 1).val < 2048 := (i 1).isLt
  obtain ⟨t, ht⟩ : ∃ t : Fin cfg0.N, t.val = (i 1).val / 256 := ⟨⟨(i 1).val / 256, by rw [show cfg0.N = 8 from N_0]; omega⟩, rfl⟩
  refine ⟨t, flush0_5 t, ?_⟩
  rw [mem_blk0_5]
  obtain ⟨-, -, -, -, -, -, -, -, -, -, -, e0, e1, -⟩ := idx_facts0 t
  intro a
  match a with
  | ⟨0, _⟩ => show win0_5.index t 0 * 1 ≤ (i 0).val ∧ (i 0).val < win0_5.index t 0 * 1 + 1; rw [e0]; omega
  | ⟨1, _⟩ => show win0_5.index t 1 * 256 ≤ (i 1).val ∧ (i 1).val < win0_5.index t 1 * 256 + 256; rw [e1, ht]; omega

theorem cover0_4 (i : S1x2048.Idx) : ∃ t : Fin cfg0.N, (cfg0.win 4).flush t = true ∧ i ∈ ((cfg0.win 4).blk t).view.set := by
  have hi0 : (i 0).val < 1 := (i 0).isLt
  have hi1 : (i 1).val < 2048 := (i 1).isLt
  obtain ⟨t, ht⟩ : ∃ t : Fin cfg0.N, t.val = (i 1).val / 256 := ⟨⟨(i 1).val / 256, by rw [show cfg0.N = 8 from N_0]; omega⟩, rfl⟩
  refine ⟨t, flush0_4 t, ?_⟩
  rw [mem_blk0_4]
  obtain ⟨-, -, -, -, -, -, -, -, -, e0, e1, -⟩ := idx_facts0 t
  intro a
  match a with
  | ⟨0, _⟩ => show win0_4.index t 0 * 1 ≤ (i 0).val ∧ (i 0).val < win0_4.index t 0 * 1 + 1; rw [e0]; omega
  | ⟨1, _⟩ => show win0_4.index t 1 * 256 ≤ (i 1).val ∧ (i 1).val < win0_4.index t 1 * 256 + 256; rw [e1, ht]; omega

/-! ## The output arrays after the region -/

theorem final0_5 (c : Dev nD) : (dat0 V c).arrAt 5 cfg0.N = cellArr0 (V c main_v8) (V c main_v10) (V c main_v11) (V c main_v6) :=
  (dat0 V c).arrAt_eq_of_cover 5 _ (fun t _ => flushed0_5_eq V c t) cover0_5

theorem final0_4 (c : Dev nD) : (dat0 V c).arrAt 4 cfg0.N = hiddenArr0 (V c main_v8) (V c main_v10) (V c main_v11) (V c main_v6) :=
  (dat0 V c).arrAt_eq_of_cover 4 _ (fun t _ => flushed0_4_eq V c t) cover0_4

/-- The cell-state array after the region, unit by unit. -/
theorem arr0_cell (c : Dev nD) (n : Fin 2048) :
    (dat0 (F := Ideal) V c).arrAt 5 cfg0.N (ix2 0 n)
      = Ideal.logistic (G0 (V c main_v8) (V c main_v11) (V c main_v6) 1 n) * V c main_v10 (ix2 0 n)
        + Ideal.logistic (G0 (V c main_v8) (V c main_v11) (V c main_v6) 0 n) * Ideal.tanh (G0 (V c main_v8) (V c main_v11) (V c main_v6) 2 n) := by
  rw [final0_5]; rfl

/-- The hidden-state array after the region, unit by unit. -/
theorem arr0_hidden (c : Dev nD) (n : Fin 2048) :
    (dat0 (F := Ideal) V c).arrAt 4 cfg0.N (ix2 0 n)
      = Ideal.logistic (G0 (V c main_v8) (V c main_v11) (V c main_v6) 3 n) * Ideal.tanh ((dat0 (F := Ideal) V c).arrAt 5 cfg0.N (ix2 0 n)) := by
  rw [final0_4, final0_5]; rfl

end Cert.KernelIdeal.Fr

end
-- ==== Proof.KI.Dat1.lean ====
/-
  Region 1 (an LSTM layer fed by the layer below): what the pipeline's proof data are.
  The region is entered with the TensorCore's buffers at some contents `V`.  Window `w`'s block at grid point `t`
  is read off its array; the body loads its six input blocks whole (layer input, previous hidden state, the block's
  previous cell state, the block's rows of the two weight arrays, the block's bias) and stores the new hidden state
  into window 6 and the new cell state into window 7, each in one whole-block store.
-/
import proofs.«142598_j64742337019981_2_alg».proof.Proof.Gen.KernelIdeal.Launch
import proofs.«142598_j64742337019981_2_alg».proof.Proof.Gen.KernelIdeal.Skeleton
import proofs.«142598_j64742337019981_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles the body loads and stores through. -/
abbrev rH1 : Rect S1x2048 := Rect.unit (s := S1x2048) ![0, 0] S1x2048.size inb_S1x2048_S1x2048_0_0
abbrev rC1 : Rect S1x256 := Rect.unit (s := S1x256) ![0, 0] S1x256.size inb_S1x256_S1x256_0_0
abbrev rW1 : Rect S4x256x2048 := Rect.unit (s := S4x256x2048) ![0, 0, 0] S4x256x2048.size inb_S4x256x2048_S4x256x2048_0_0_0
abbrev rB1 : Rect S4x256 := Rect.unit (s := S4x256) ![0, 0] S4x256.size inb_S4x256_S4x256_0_0

/-- Window 6's staging buffer after the body: the new hidden state of the block's 256 units. -/
def out1_6 (x0 x1 : Vec F S1x2048 .f32) (x2 : Vec F S1x256 .f32) (x3 x4 : Vec F S4x256x2048 .f32) (x5 : Vec F S4x256 .f32) : Vec F S1x256 .f32 :=
  View.canon [⟨rC1, k1_pay2 (k1_pay3 (View.ld x0 rH1)) (k1_pay4 (View.ld x1 rH1)) (k1_pay5 (View.ld x2 rC1)) (k1_pay6 (View.ld x3 rW1)) (k1_pay7 (View.ld x4 rW1)) (k1_pay8 (View.ld x5 rB1))
    (k1_pay9 (View.ld x0 rH1) (View.ld x1 rH1) (View.ld x3 rW1) (View.ld x4 rW1) (View.ld x5 rB1))
    (k1_pay10 (View.ld x0 rH1) (View.ld x1 rH1) (View.ld x3 rW1) (View.ld x4 rW1) (View.ld x5 rB1))
    (k1_pay11 (View.ld x0 rH1) (View.ld x3 rW1)) (k1_pay12 (View.ld x4 rW1)) (constant S1x256 .f32 0x00000000#32)⟩]

/-- Window 7's staging buffer after the body: the new cell state of the block's 256 units. -/
def out1_7 (x0 x1 : Vec F S1x2048 .f32) (x2 : Vec F S1x256 .f32) (x3 x4 : Vec F S4x256x2048 .f32) (x5 : Vec F S4x256 .f32) : Vec F S1x256 .f32 :=
  View.canon [⟨rC1, k1_pay1 (k1_pay4 (View.ld x1 rH1)) (k1_pay5 (View.ld x2 rC1)) (k1_pay8 (View.ld x5 rB1))
    (k1_pay9 (View.ld x0 rH1) (View.ld x1 rH1) (View.ld x3 rW1) (View.ld x4 rW1) (View.ld x5 rB1))
    (k1_pay10 (View.ld x0 rH1) (View.ld x1 rH1) (View.ld x3 rW1) (View.ld x4 rW1) (View.ld x5 rB1))
    (k1_pay11 (View.ld x0 rH1) (View.ld x3 rW1)) (k1_pay12 (View.ld x4 rW1)) (constant S1x256 .f32 0x00000000#32)⟩]

/-- The proof data of pipeline 1 on core `c`: arrays as found; after the body each input's buffer holds its block and
    each output's the body's result of the input blocks; the scoped rest and the generator register ride along untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

end Cert.KernelIdeal.Fr

end
-- ==== Proof.KVal.Cell1.lean ====
/-
  The second layer's kernel body at the ideal values, read at one hidden unit.

  The body holds the layer's input x [1, 2048] (the hidden state the layer below has just produced), the previous
  hidden state h [1, 2048], a block c [1, 256] of the previous cell state, the blocks Wi, Wh [4, 256, 2048] of the input
  and recurrent weights and the block b [4, 256] of the bias. Gate group k at unit l is
      a_k(l) = (Σ_q x(0, q) · Wi(k, l, q) + Σ_q h(0, q) · Wh(k, l, q)) + b(k, l);
  the groups are, in order, the input gate, the forget gate, the candidate and the output gate. The new cell state at
  unit l is  c'(l) = σ(a_1(l)) · c(0, l) + σ(a_0(l)) · tanh(a_2(l)),  and the new hidden state is
  σ(a_3(l)) · tanh(c'(l)),  σ the logistic function.
-/
import proofs.«142598_j64742337019981_2_alg».proof.Proof.KVal.Gate

noncomputable section

namespace Cert.KernelIdeal.KVal

open Cert.KernelIdeal Cert.KernelIdeal.Gen
open Idealize.ShloMosaic Idealize.ShloMosaic.ValueIdx

/-- Gate group `k` at unit `l`: the input product plus the recurrent product, plus the bias. -/
def gate1 (x h : Vec Ideal S1x2048 .f32) (Wi Wh : Vec Ideal S4x256x2048 .f32) (b : Vec Ideal S4x256 .f32)
    (k : Fin 4) (l : Fin 256) : EReal :=
  ((∑ q : Fin 2048, x (ix2 0 q) * Wi (ix3 k l q)) + (∑ q : Fin 2048, h (ix2 0 q) * Wh (ix3 k l q))) + b (ix2 k l)

/-- The block of the new cell state, as the body stores it. -/
def cell1 (x h : Vec Ideal S1x2048 .f32) (c : Vec Ideal S1x256 .f32) (Wi Wh : Vec Ideal S4x256x2048 .f32)
    (b : Vec Ideal S4x256 .f32) : Vec Ideal S1x256 .f32 :=
  k1_pay1 (F := Ideal) (k1_pay4 h) (k1_pay5 c) (k1_pay8 b) (k1_pay9 x h Wi Wh b) (k1_pay10 x h Wi Wh b)
    (k1_pay11 x Wi) (k1_pay12 Wh) (constant S1x256 .f32 0x00000000#32)

/-- The block of the new hidden state, as the body stores it. -/
def hidden1 (x h : Vec Ideal S1x2048 .f32) (c : Vec Ideal S1x256 .f32) (Wi Wh : Vec Ideal S4x256x2048 .f32)
    (b : Vec Ideal S4x256 .f32) : Vec Ideal S1x256 .f32 :=
  k1_pay2 (F := Ideal) (k1_pay3 x) (k1_pay4 h) (k1_pay5 c) (k1_pay6 Wi) (k1_pay7 Wh) (k1_pay8 b)
    (k1_pay9 x h Wi Wh b) (k1_pay10 x h Wi Wh b) (k1_pay11 x Wi) (k1_pay12 Wh)
    (constant S1x256 .f32 0x00000000#32)

/-- The new cell state of the block at unit `l`. -/
theorem k1_cell_apply (x h : Vec Ideal S1x2048 .f32) (c : Vec Ideal S1x256 .f32) (Wi Wh : Vec Ideal S4x256x2048 .f32)
    (b : Vec Ideal S4x256 .f32) (l : Fin 256) :
    cell1 x h c Wi Wh b (ix2 0 l)
      = Ideal.logistic (gate1 x h Wi Wh b 1 l) * c (ix2 0 l)
        + Ideal.logistic (gate1 x h Wi Wh b 0 l) * Ideal.tanh (gate1 x h Wi Wh b 2 l) := by
  unfold cell1 k1_pay1 k1_pay9 k1_pay10 k1_pay11 k1_pay12 k1_pay3 k1_pay4 k1_pay5 k1_pay6 k1_pay7 k1_pay8
  simp only [shapeCast_self, addf_apply, mulf_apply, logistic_apply, tanh_apply]
  rw [gateDot_apply x Wi 1 _ _ 1 rfl l, gateDot_apply h Wh 1 _ _ 1 rfl l, gateBias_apply b 1 _ _ _ 1 rfl l,
    gateDot_apply x Wi 0 _ _ 0 rfl l, gateDot_apply h Wh 0 _ _ 0 rfl l, gateBias_apply b 0 _ _ _ 0 rfl l,
    gateDot_apply x Wi 2 _ _ 2 rfl l, gateDot_apply h Wh 2 _ _ 2 rfl l, gateBias_apply b 2 _ _ _ 2 rfl l]
  rfl

/-- The new hidden state of the block at unit `l`. -/
theorem k1_hidden_apply (x h : Vec Ideal S1x2048 .f32) (c : Vec Ideal S1x256 .f32) (Wi Wh : Vec Ideal S4x256x2048 .f32)
    (b : Vec Ideal S4x256 .f32) (l : Fin 256) :
    hidden1 x h c Wi Wh b (ix2 0 l)
      = Ideal.logistic (gate1 x h Wi Wh b 3 l) * Ideal.tanh (cell1 x h c Wi Wh b (ix2 0 l)) := by
  unfold hidden1 k1_pay2
  simp only [addf_apply, mulf_apply, logistic_apply, tanh_apply]
  refine congrArg₂ (· * ·) (congrArg Ideal.logistic ?_) rfl
  unfold k1_pay3 k1_pay4 k1_pay6 k1_pay7 k1_pay8
  simp only [shapeCast_self]
  rw [gateDot_apply x Wi 3 _ _ 3 rfl l, gateDot_apply h Wh 3 _ _ 3 rfl l, gateBias_apply b 3 _ _ _ 3 rfl l]
  rfl

end Cert.KernelIdeal.KVal

end
-- ==== Proof.KI.Val1.lean ====
/-
  Region 1: what the two output arrays hold after the region, index by index, as a function of the arrays the
  region reads.  The grid has 8 points; point t handles hidden units 256·t … 256·t + 255.  Each input window's block
  at point t is its array read at those units (the state rows are read whole at every point), the body's two results
  at unit l of the block are the cell and hidden formulas of the block's gate pre-activations, and a block's gate
  pre-activation at unit l is the array's at unit 256·t + l.  The 8 blocks of an output tile its array, so the array
  ends holding the formulas at every unit.
-/
import proofs.«142598_j64742337019981_2_alg».proof.Proof.KI.Dat1
import proofs.«142598_j64742337019981_2_alg».proof.Proof.KVal.Cell1
import Idealize.ShloMosaic.Lib.Pipeline.Value
import Idealize.ShloMosaic.Lib.ValueIdx
import Idealize.ShloMosaic.PureOps.Ideal

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The pre-activation of gate group `k` at hidden unit `n`:
    (Σ_q x(0, q) · Wi(k, n, q) + Σ_q h(0, q) · Wh(k, n, q)) + b(k, n). -/
def G1 (x h : Vec Ideal S1x2048 .f32) (Wi Wh : Vec Ideal S4x2048x2048 .f32) (b : Vec Ideal S4x2048 .f32) (k : Fin 4) (n : Fin 2048) : EReal :=
  ((∑ q : Fin 2048, x (ix2 0 q) * Wi (ix3 k n q)) + (∑ q : Fin 2048, h (ix2 0 q) * Wh (ix3 k n q))) + b (ix2 k n)

/-- The new cell state as one array: at unit n, σ(forget) · c + σ(input) · tanh(candidate). -/
def cellArr1 (x h c : Vec Ideal S1x2048 .f32) (Wi Wh : Vec Ideal S4x2048x2048 .f32) (b : Vec Ideal S4x2048 .f32) : S1x2048.Idx → EReal :=
  fun i => Ideal.logistic (G1 x h Wi Wh b 1 (i 1)) * c (ix2 0 (i 1)) + Ideal.logistic (G1 x h Wi Wh b 0 (i 1)) * Ideal.tanh (G1 x h Wi Wh b 2 (i 1))

/-- The new hidden state as one array: at unit n, σ(output) · tanh(new cell). -/
def hiddenArr1 (x h c : Vec Ideal S1x2048 .f32) (Wi Wh : Vec Ideal S4x2048x2048 .f32) (b : Vec Ideal S4x2048 .f32) : S1x2048.Idx → EReal :=
  fun i => Ideal.logistic (G1 x h Wi Wh b 3 (i 1)) * Ideal.tanh (cellArr1 x h c Wi Wh b i)

theorem hz2_1 : (![0, 0] : Fin 2 → Nat) = fun _ => 0 := funext fun a => by fin_cases a <;> rfl
theorem hz3_1 : (![0, 0, 0] : Fin 3 → Nat) = fun _ => 0 := funext fun a => by fin_cases a <;> rfl

/-- The windows' block indices at grid point t, decided over the 8 points: the two state rows are block (0, 0) at
    every point; every other window is at block t along its axis of hidden units. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = t.val
    ∧ win1_3.index t (0 : Fin 3) = 0 ∧ win1_3.index t (1 : Fin 3) = t.val ∧ win1_3.index t (2 : Fin 3) = 0
    ∧ win1_4.index t (0 : Fin 3) = 0 ∧ win1_4.index t (1 : Fin 3) = t.val ∧ win1_4.index t (2 : Fin 3) = 0
    ∧ win1_5.index t (0 : Fin 2) = 0 ∧ win1_5.index t (1 : Fin 2) = t.val
    ∧ win1_6.index t (0 : Fin 2) = 0 ∧ win1_6.index t (1 : Fin 2) = t.val
    ∧ win1_7.index t (0 : Fin 2) = 0 ∧ win1_7.index t (1 : Fin 2) = t.val ∧ t.val < 8 :=
  (by decide +kernel : ∀ t : Fin grid1.N, _)

/-! ## Each input block as its array read at the block's units -/

theorem iblk1_0_apply (c : Dev nD) (t : Fin cfg1.N) (x : S1x2048.Idx) (k : S1x2048.Idx)
    (hk0 : (k 0).val = (x 0).val) (hk1 : (k 1).val = (x 1).val) :
    (iblk1 V c 0 t : Vec Ideal S1x2048 .f32) x = (V c main_v12_0 : S1x2048.Idx → EReal) k := by
  obtain ⟨e0, e1, -⟩ := idx_facts1 t
  unfold iblk1
  rw [View.read_apply]
  show V c main_v12_0 _ = V c main_v12_0 _
  congr 1
  funext a
  apply Fin.ext
  match a with
  | ⟨0, _⟩ => show win1_0.index t 0 * 1 + 1 * (x 0).val = (k 0).val; rw [e0, hk0]; omega
  | ⟨1, _⟩ => show win1_0.index t 1 * 2048 + 1 * (x 1).val = (k 1).val; rw [e1, hk1]; omega

theorem iblk1_1_apply (c : Dev nD) (t : Fin cfg1.N) (x : S1x2048.Idx) (k : S1x2048.Idx)
    (hk0 : (k 0).val = (x 0).val) (hk1 : (k 1).val = (x 1).val) :
    (iblk1 V c 1 t : Vec Ideal S1x2048 .f32) x = (V c main_v16 : S1x2048.Idx → EReal) k := by
  obtain ⟨-, -, e0, e1, -⟩ := idx_facts1 t
  unfold iblk1
  rw [View.read_apply]
  show V c main_v16 _ = V c main_v16 _
  congr 1
  funext a
  apply Fin.ext
  match a with
  | ⟨0, _⟩ => show win1_1.index t 0 * 1 + 1 * (x 0).val = (k 0).val; rw [e0, hk0]; omega
  | ⟨1, _⟩ => show win1_1.index t 1 * 2048 + 1 * (x 1).val = (k 1).val; rw [e1, hk1]; omega

theorem iblk1_2_apply (c : Dev nD) (t : Fin cfg1.N) (x : S1x256.Idx) (k : S1x2048.Idx)
    (hk0 : (k 0).val = (x 0).val) (hk1 : (k 1).val = 256 * t.val + (x 1).val) :
    (iblk1 V c 2 t : Vec Ideal S1x256 .f32) x = (V c main_v18 : S1x2048.Idx → EReal) k := by
  obtain ⟨-, -, -, -, e0, e1, -⟩ := idx_facts1 t
  unfold iblk1
  rw [View.read_apply]
  show V c main_v18 _ = V c main_v18 _
  congr 1
  funext a
  apply Fin.ext
  match a with
  | ⟨0, _⟩ => show win1_2.index t 0 * 1 + 1 * (x 0).val = (k 0).val; rw [e0, hk0]; omega
  | ⟨1, _⟩ => show win1_2.index t 1 * 256 + 1 * (x 1).val = (k 1).val; rw [e1, hk1]; omega

theorem iblk1_3_apply (c : Dev nD) (t : Fin cfg1.N) (x : S4x256x2048.Idx) (k : S4x2048x2048.Idx)
    (hk0 : (k 0).val = (x 0).val) (hk1 : (k 1).val = 256 * t.val + (x 1).val) (hk2 : (k 2).val = (x 2).val) :
    (iblk1 V c 3 t : Vec Ideal S4x256x2048 .f32) x = (V c main_v19 : S4x2048x2048.Idx → EReal) k := by
  obtain ⟨-, -, -, -, -, -, e0, e1, e2, -⟩ := idx_facts1 t
  unfold iblk1
  rw [View.read_apply]
  show V c main_v19 _ = V c main_v19 _
  congr 1
  funext a
  apply Fin.ext
  match a with
  | ⟨0, _⟩ => show win1_3.index t 0 * 4 + 1 * (x 0).val = (k 0).val; rw [e0, hk0]; omega
  | ⟨1, _⟩ => show win1_3.index t 1 * 256 + 1 * (x 1).val = (k 1).val; rw [e1, hk1]; omega
  | ⟨2, _⟩ => show win1_3.index t 2 * 2048 + 1 * (x 2).val = (k 2).val; rw [e2, hk2]; omega

theorem iblk1_4_apply (c : Dev nD) (t : Fin cfg1.N) (x : S4x256x2048.Idx) (k : S4x2048x2048.Idx)
    (hk0 : (k 0).val = (x 0).val) (hk1 : (k 1).val = 256 * t.val + (x 1).val) (hk2 : (k 2).val = (x 2).val) :
    (iblk1 V c 4 t : Vec Ideal S4x256x2048 .f32) x = (V c main_v20 : S4x2048x2048.Idx → EReal) k := by
  obtain ⟨-, -, -, -, -, -, -, -, -, e0, e1, e2, -⟩ := idx_facts1 t
  unfold iblk1
  rw [View.read_apply]
  show V c main_v20 _ = V c main_v20 _
  congr 1
  funext a
  apply Fin.ext
  match a with
  | ⟨0, _⟩ => show win1_4.index t 0 * 4 + 1 * (x 0).val = (k 0).val; rw [e0, hk0]; omega
  | ⟨1, _⟩ => show win1_4.index t 1 * 256 + 1 * (x 1).val = (k 1).val; rw [e1, hk1]; omega
  | ⟨2, _⟩ => show win1_4.index t 2 * 2048 + 1 * (x 2).val = (k 2).val; rw [e2, hk2]; omega

theorem iblk1_5_apply (c : Dev nD) (t : Fin cfg1.N) (x : S4x256.Idx) (k : S4x2048.Idx)
    (hk0 : (k 0).val = (x 0).val) (hk1 : (k 1).val = 256 * t.val + (x 1).val) :
    (iblk1 V c 5 t : Vec Ideal S4x256 .f32) x = (V c main_v14 : S4x2048.Idx → EReal) k := by
  obtain ⟨-, -, -, -, -, -, -, -, -, -, -, -, e0, e1, -⟩ := idx_facts1 t
  unfold iblk1
  rw [View.read_apply]
  show V c main_v14 _ = V c main_v14 _
  congr 1
  funext a
  apply Fin.ext
  match a with
  | ⟨0, _⟩ => show win1_5.index t 0 * 4 + 1 * (x 0).val = (k 0).val; rw [e0, hk0]; omega
  | ⟨1, _⟩ => show win1_5.index t 1 * 256 + 1 * (x 1).val = (k 1).val; rw [e1, hk1]; omega

/-! ## A block's gate pre-activations, and the body's two results, are the arrays' at the block's units -/

theorem gate1_blk (x h : Vec Ideal S1x2048 .f32) (Wi Wh : Vec Ideal S4x2048x2048 .f32) (b : Vec Ideal S4x2048 .f32)
    (xb hb : Vec Ideal S1x2048 .f32) (Wib Whb : Vec Ideal S4x256x2048 .f32) (bb : Vec Ideal S4x256 .f32)
    (l : Fin 256) (n : Fin 2048)
    (Hx : ∀ q : Fin 2048, xb (ix2 0 q) = x (ix2 0 q))
    (Hh : ∀ q : Fin 2048, hb (ix2 0 q) = h (ix2 0 q))
    (HWi : ∀ (k : Fin 4) (q : Fin 2048), Wib (ix3 k l q) = Wi (ix3 k n q))
    (HWh : ∀ (k : Fin 4) (q : Fin 2048), Whb (ix3 k l q) = Wh (ix3 k n q))
    (Hb : ∀ k : Fin 4, bb (ix2 k l) = b (ix2 k n)) (k : Fin 4) :
    KVal.gate1 xb hb Wib Whb bb k l = G1 x h Wi Wh b k n := by
  unfold KVal.gate1 G1
  rw [Hb k]
  congr 1
  congr 1
  · exact Finset.sum_congr rfl fun q _ => by rw [Hx q, HWi k q]
  · exact Finset.sum_congr rfl fun q _ => by rw [Hh q, HWh k q]

theorem cell1_blk (x h c : Vec Ideal S1x2048 .f32) (Wi Wh : Vec Ideal S4x2048x2048 .f32) (b : Vec Ideal S4x2048 .f32)
    (xb hb : Vec Ideal S1x2048 .f32) (cb : Vec Ideal S1x256 .f32) (Wib Whb : Vec Ideal S4x256x2048 .f32) (bb : Vec Ideal S4x256 .f32)
    (l : Fin 256) (n : Fin 2048)
    (Hx : ∀ q : Fin 2048, xb (ix2 0 q) = x (ix2 0 q))
    (Hh : ∀ q : Fin 2048, hb (ix2 0 q) = h (ix2 0 q))
    (Hc : cb (ix2 0 l) = c (ix2 0 n))
    (HWi : ∀ (k : Fin 4) (q : Fin 2048), Wib (ix3 k l q) = Wi (ix3 k n q))
    (HWh : ∀ (k : Fin 4) (q : Fin 2048), Whb (ix3 k l q) = Wh (ix3 k n q))
    (Hb : ∀ k : Fin 4, bb (ix2 k l) = b (ix2 k n)) :
    KVal.cell1 xb hb cb Wib Whb bb (ix2 0 l) = cellArr1 x h c Wi Wh b (ix2 0 n) := by
  rw [KVal.k1_cell_apply, gate1_blk x h Wi Wh b xb hb Wib Whb bb l n Hx Hh HWi HWh Hb 1, gate1_blk x h Wi Wh b xb hb Wib Whb bb l n Hx Hh HWi HWh Hb 0,
    gate1_blk x h Wi Wh b xb hb Wib Whb bb l n Hx Hh HWi HWh Hb 2, Hc]
  rfl

theorem hidden1_blk (x h c : Vec Ideal S1x2048 .f32) (Wi Wh : Vec Ideal S4x2048x2048 .f32) (b : Vec Ideal S4x2048 .f32)
    (xb hb : Vec Ideal S1x2048 .f32) (cb : Vec Ideal S1x256 .f32) (Wib Whb : Vec Ideal S4x256x2048 .f32) (bb : Vec Ideal S4x256 .f32)
    (l : Fin 256) (n : Fin 2048)
    (Hx : ∀ q : Fin 2048, xb (ix2 0 q) = x (ix2 0 q))
    (Hh : ∀ q : Fin 2048, hb (ix2 0 q) = h (ix2 0 q))
    (Hc : cb (ix2 0 l) = c (ix2 0 n))
    (HWi : ∀ (k : Fin 4) (q : Fin 2048), Wib (ix3 k l q) = Wi (ix3 k n q))
    (HWh : ∀ (k : Fin 4) (q : Fin 2048), Whb (ix3 k l q) = Wh (ix3 k n q))
    (Hb : ∀ k : Fin 4, bb (ix2 k l) = b (ix2 k n)) :
    KVal.hidden1 xb hb cb Wib Whb bb (ix2 0 l) = hiddenArr1 x h c Wi Wh b (ix2 0 n) := by
  rw [KVal.k1_hidden_apply, cell1_blk x h c Wi Wh b xb hb cb Wib Whb bb l n Hx Hh Hc HWi HWh Hb, gate1_blk x h Wi Wh b xb hb Wib Whb bb l n Hx Hh HWi HWh Hb 3]
  rfl

/-! ## What each point writes back is its block of the whole-array function -/

/-- Point t writes back block t of the new cell state. -/
theorem flushed1_7_eq (c : Dev nD) (t : Fin cfg1.N) :
    (dat1 V c).flushed 7 t = ((cfg1.win 7).blk t).view.read (Elt Ideal) (cellArr1 (V c main_v12_0) (V c main_v16) (V c main_v18) (V c main_v19) (V c main_v20) (V c main_v14)) := by
  show (cfg1.win 7).cut (grid1.coords t) ((dat1 V c).after 7 t) = _
  rw [after1_7]
  unfold out1_7
  rw [View.canon_unit_zero hz2_1]
  simp only [View.ld_unit_zero (S := S1x2048) hz2_1, View.ld_unit_zero (S := S1x256) hz2_1, View.ld_unit_zero (S := S4x256x2048) hz3_1, View.ld_unit_zero (S := S4x256) hz2_1]
  obtain ⟨-, -, -, -, -, -, -, -, -, -, -, -, -, -, -, -, e0, e1, ht⟩ := idx_facts1 t
  funext j
  obtain ⟨p, l, rfl⟩ : ∃ (p : Fin 1) (l : Fin 256), j = ix2 p l := ⟨j 0, j 1, eq_ix2 j⟩
  obtain rfl : p = 0 := Subsingleton.elim _ _
  have hl : l.val < 256 := l.isLt
  have hn : 256 * t.val + l.val < 2048 := by omega
  have hemb : ((cfg1.win 7).blk t).view.emb (ix2 0 l) = (ix2 0 ⟨256 * t.val + l.val, hn⟩ : S1x2048.Idx) := by
    funext a; apply Fin.ext
    match a with
    | ⟨0, _⟩ => show win1_7.index t 0 * 1 + 1 * 0 = 0; rw [e0]
    | ⟨1, _⟩ => show win1_7.index t 1 * 256 + 1 * l.val = 256 * t.val + l.val; rw [e1]; omega
  show KVal.cell1 (iblk1 V c 0 t) (iblk1 V c 1 t) (iblk1 V c 2 t) (iblk1 V c 3 t) (iblk1 V c 4 t) (iblk1 V c 5 t) (ix2 0 l)
    = cellArr1 (V c main_v12_0) (V c main_v16) (V c main_v18) (V c main_v19) (V c main_v20) (V c main_v14) (((cfg1.win 7).blk t).view.emb (ix2 0 l))
  rw [hemb]
  exact cell1_blk (V c main_v12_0) (V c main_v16) (V c main_v18) (V c main_v19) (V c main_v20) (V c main_v14) (iblk1 V c 0 t) (iblk1 V c 1 t) (iblk1 V c 2 t) (iblk1 V c 3 t) (iblk1 V c 4 t) (iblk1 V c 5 t)
    l ⟨256 * t.val + l.val, hn⟩
    (fun q => iblk1_0_apply V c t (ix2 0 q) (ix2 0 q) rfl rfl)
    (fun q => iblk1_1_apply V c t (ix2 0 q) (ix2 0 q) rfl rfl)
    (iblk1_2_apply V c t (ix2 0 l) (ix2 0 ⟨256 * t.val + l.val, hn⟩) rfl rfl)
    (fun k q => iblk1_3_apply V c t (ix3 k l q) (ix3 k ⟨256 * t.val + l.val, hn⟩ q) rfl rfl rfl)
    (fun k q => iblk1_4_apply V c t (ix3 k l q) (ix3 k ⟨256 * t.val + l.val, hn⟩ q) rfl rfl rfl)
    (fun k => iblk1_5_apply V c t (ix2 k l) (ix2 k ⟨256 * t.val + l.val, hn⟩) rfl rfl)

/-- Point t writes back block t of the new hidden state. -/
theorem flushed1_6_eq (c : Dev nD) (t : Fin cfg1.N) :
    (dat1 V c).flushed 6 t = ((cfg1.win 6).blk t).view.read (Elt Ideal) (hiddenArr1 (V c main_v12_0) (V c main_v16) (V c main_v18) (V c main_v19) (V c main_v20) (V c main_v14)) := by
  show (cfg1.win 6).cut (grid1.coords t) ((dat1 V c).after 6 t) = _
  rw [after1_6]
  unfold out1_6
  rw [View.canon_unit_zero hz2_1]
  simp only [View.ld_unit_zero (S := S1x2048) hz2_1, View.ld_unit_zero (S := S1x256) hz2_1, View.ld_unit_zero (S := S4x256x2048) hz3_1, View.ld_unit_zero (S := S4x256) hz2_1]
  obtain ⟨-, -, -, -, -, -, -, -, -, -, -, -, -, -, e0, e1, -, -, ht⟩ := idx_facts1 t
  funext j
  obtain ⟨p, l, rfl⟩ : ∃ (p : Fin 1) (l : Fin 256), j = ix2 p l := ⟨j 0, j 1, eq_ix2 j⟩
  obtain rfl : p = 0 := Subsingleton.elim _ _
  have hl : l.val < 256 := l.isLt
  have hn : 256 * t.val + l.val < 2048 := by omega
  have hemb : ((cfg1.win 6).blk t).view.emb (ix2 0 l) = (ix2 0 ⟨256 * t.val + l.val, hn⟩ : S1x2048.Idx) := by
    funext a; apply Fin.ext
    match a with
    | ⟨0, _⟩ => show win1_6.index t 0 * 1 + 1 * 0 = 0; rw [e0]
    | ⟨1, _⟩ => show win1_6.index t 1 * 256 + 1 * l.val = 256 * t.val + l.val; rw [e1]; omega
  show KVal.hidden1 (iblk1 V c 0 t) (iblk1 V c 1 t) (iblk1 V c 2 t) (iblk1 V c 3 t) (iblk1 V c 4 t) (iblk1 V c 5 t) (ix2 0 l)
    = hiddenArr1 (V c main_v12_0) (V c main_v16) (V c main_v18) (V c main_v19) (V c main_v20) (V c main_v14) (((cfg1.win 6).blk t).view.emb (ix2 0 l))
  rw [hemb]
  exact hidden1_blk (V c main_v12_0) (V c main_v16) (V c main_v18) (V c main_v19) (V c main_v20) (V c main_v14) (iblk1 V c 0 t) (iblk1 V c 1 t) (iblk1 V c 2 t) (iblk1 V c 3 t) (iblk1 V c 4 t) (iblk1 V c 5 t)
    l ⟨256 * t.val + l.val, hn⟩
    (fun q => iblk1_0_apply V c t (ix2 0 q) (ix2 0 q) rfl rfl)
    (fun q => iblk1_1_apply V c t (ix2 0 q) (ix2 0 q) rfl rfl)
    (iblk1_2_apply V c t (ix2 0 l) (ix2 0 ⟨256 * t.val + l.val, hn⟩) rfl rfl)
    (fun k q => iblk1_3_apply V c t (ix3 k l q) (ix3 k ⟨256 * t.val + l.val, hn⟩ q) rfl rfl rfl)
    (fun k q => iblk1_4_apply V c t (ix3 k l q) (ix3 k ⟨256 * t.val + l.val, hn⟩ q) rfl rfl rfl)
    (fun k => iblk1_5_apply V c t (ix2 k l) (ix2 k ⟨256 * t.val + l.val, hn⟩) rfl rfl)

/-! ## The 8 blocks tile the output arrays -/

/-- An index of the array is in point t's block iff each coordinate is in the block's range on its axis. -/
theorem mem_blk1_7 (t : Fin cfg1.N) (i : S1x2048.Idx) :
    i ∈ ((cfg1.win 7).blk t).view.set ↔ ∀ a : Fin 2, win1_7.index t a * S1x256.size a ≤ (i a).val ∧ (i a).val < win1_7.index t a * S1x256.size a + S1x256.size a := by
  show i ∈ ((View.whole main_v21_1).slice (win1_7.rect t)).set ↔ _
  rw [View.set_slice_whole, Rect.mem_set_unit]
  exact Iff.rfl

/-- Unit n is in the block of point n / 256. -/
theorem cover1_7 (i : S1x2048.Idx) : ∃ t : Fin cfg1.N, (cfg1.win 7).flush t = true ∧ i ∈ ((cfg1.win 7).blk t).view.set := by
  have hi0 : (i 0).val < 1 := (i 0).isLt
  have hi1 : (i 1).val < 2048 := (i 1).isLt
  obtain ⟨t, ht⟩ : ∃ t : Fin cfg1.N, t.val = (i 1).val / 256 := ⟨⟨(i 1).val / 256, by rw [show cfg1.N = 8 from N_1]; omega⟩, rfl⟩
  refine ⟨t, flush1_7 t, ?_⟩
  rw [mem_blk1_7]
  obtain ⟨-, -, -, -, -, -, -, -, -, -, -, -, -, -, -, -, e0, e1, -⟩ := idx_facts1 t
  intro a
  match a with
  | ⟨0, _⟩ => show win1_7.index t 0 * 1 ≤ (i 0).val ∧ (i 0).val < win1_7.index t 0 * 1 + 1; rw [e0]; omega
  | ⟨1, _⟩ => show win1_7.index t 1 * 256 ≤ (i 1).val ∧ (i 1).val < win1_7.index t 1 * 256 + 256; rw [e1, ht]; omega

/-- An index of the array is in point t's block iff each coordinate is in the block's range on its axis. -/
theorem mem_blk1_6 (t : Fin cfg1.N) (i : S1x2048.Idx) :
    i ∈ ((cfg1.win 6).blk t).view.set ↔ ∀ a : Fin 2, win1_6.index t a * S1x256.size a ≤ (i a).val ∧ (i a).val < win1_6.index t a * S1x256.size a + S1x256.size a := by
  show i ∈ ((View.whole main_v21_0).slice (win1_6.rect t)).set ↔ _
  rw [View.set_slice_whole, Rect.mem_set_unit]
  exact Iff.rfl

/-- Unit n is in the block of point n / 256. -/
theorem cover1_6 (i : S1x2048.Idx) : ∃ t : Fin cfg1.N, (cfg1.win 6).flush t = true ∧ i ∈ ((cfg1.win 6).blk t).view.set := by
  have hi0 : (i 0).val < 1 := (i 0).isLt
  have hi1 : (i 1).val < 2048 := (i 1).isLt
  obtain ⟨t, ht⟩ : ∃ t : Fin cfg1.N, t.val = (i 1).val / 256 := ⟨⟨(i 1).val / 256, by rw [show cfg1.N = 8 from N_1]; omega⟩, rfl⟩
  refine ⟨t, flush1_6 t, ?_⟩
  rw [mem_blk1_6]
  obtain ⟨-, -, -, -, -, -, -, -, -, -, -, -, -, -, e0, e1, -⟩ := idx_facts1 t
  intro a
  match a with
  | ⟨0, _⟩ => show win1_6.index t 0 * 1 ≤ (i 0).val ∧ (i 0).val < win1_6.index t 0 * 1 + 1; rw [e0]; omega
  | ⟨1, _⟩ => show win1_6.index t 1 * 256 ≤ (i 1).val ∧ (i 1).val < win1_6.index t 1 * 256 + 256; rw [e1, ht]; omega

/-! ## The output arrays after the region -/

theorem final1_7 (c : Dev nD) : (dat1 V c).arrAt 7 cfg1.N = cellArr1 (V c main_v12_0) (V c main_v16) (V c main_v18) (V c main_v19) (V c main_v20) (V c main_v14) :=
  (dat1 V c).arrAt_eq_of_cover 7 _ (fun t _ => flushed1_7_eq V c t) cover1_7

theorem final1_6 (c : Dev nD) : (dat1 V c).arrAt 6 cfg1.N = hiddenArr1 (V c main_v12_0) (V c main_v16) (V c main_v18) (V c main_v19) (V c main_v20) (V c main_v14) :=
  (dat1 V c).arrAt_eq_of_cover 6 _ (fun t _ => flushed1_6_eq V c t) cover1_6

/-- The cell-state array after the region, unit by unit. -/
theorem arr1_cell (c : Dev nD) (n : Fin 2048) :
    (dat1 (F := Ideal) V c).arrAt 7 cfg1.N (ix2 0 n)
      = Ideal.logistic (G1 (V c main_v12_0) (V c main_v16) (V c main_v19) (V c main_v20) (V c main_v14) 1 n) * V c main_v18 (ix2 0 n)
        + Ideal.logistic (G1 (V c main_v12_0) (V c main_v16) (V c main_v19) (V c main_v20) (V c main_v14) 0 n) * Ideal.tanh (G1 (V c main_v12_0) (V c main_v16) (V c main_v19) (V c main_v20) (V c main_v14) 2 n) := by
  rw [final1_7]; rfl

/-- The hidden-state array after the region, unit by unit. -/
theorem arr1_hidden (c : Dev nD) (n : Fin 2048) :
    (dat1 (F := Ideal) V c).arrAt 6 cfg1.N (ix2 0 n)
      = Ideal.logistic (G1 (V c main_v12_0) (V c main_v16) (V c main_v19) (V c main_v20) (V c main_v14) 3 n) * Ideal.tanh ((dat1 (F := Ideal) V c).arrAt 7 cfg1.N (ix2 0 n)) := by
  rw [final1_6, final1_7]; rfl

end Cert.KernelIdeal.Fr

end
-- ==== Proof.KI.Dat2.lean ====
/-
  Region 2 (an LSTM layer fed by the layer below): what the pipeline's proof data are.
  The region is entered with the TensorCore's buffers at some contents `V`.  Window `w`'s block at grid point `t`
  is read off its array; the body loads its six input blocks whole (layer input, previous hidden state, the block's
  previous cell state, the block's rows of the two weight arrays, the block's bias) and stores the new hidden state
  into window 6 and the new cell state into window 7, each in one whole-block store.
-/
import proofs.«142598_j64742337019981_2_alg».proof.Proof.Gen.KernelIdeal.Launch
import proofs.«142598_j64742337019981_2_alg».proof.Proof.Gen.KernelIdeal.Skeleton
import proofs.«142598_j64742337019981_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-block rectangles the body loads and stores through. -/
abbrev rH2 : Rect S1x2048 := Rect.unit (s := S1x2048) ![0, 0] S1x2048.size inb_S1x2048_S1x2048_0_0
abbrev rC2 : Rect S1x256 := Rect.unit (s := S1x256) ![0, 0] S1x256.size inb_S1x256_S1x256_0_0
abbrev rW2 : Rect S4x256x2048 := Rect.unit (s := S4x256x2048) ![0, 0, 0] S4x256x2048.size inb_S4x256x2048_S4x256x2048_0_0_0
abbrev rB2 : Rect S4x256 := Rect.unit (s := S4x256) ![0, 0] S4x256.size inb_S4x256_S4x256_0_0

/-- Window 6's staging buffer after the body: the new hidden state of the block's 256 units. -/
def out2_6 (x0 x1 : Vec F S1x2048 .f32) (x2 : Vec F S1x256 .f32) (x3 x4 : Vec F S4x256x2048 .f32) (x5 : Vec F S4x256 .f32) : Vec F S1x256 .f32 :=
  View.canon [⟨rC2, k2_pay2 (k2_pay3 (View.ld x0 rH2)) (k2_pay4 (View.ld x1 rH2)) (k2_pay5 (View.ld x2 rC2)) (k2_pay6 (View.ld x3 rW2)) (k2_pay7 (View.ld x4 rW2)) (k2_pay8 (View.ld x5 rB2))
    (k2_pay9 (View.ld x0 rH2) (View.ld x1 rH2) (View.ld x3 rW2) (View.ld x4 rW2) (View.ld x5 rB2))
    (k2_pay10 (View.ld x0 rH2) (View.ld x1 rH2) (View.ld x3 rW2) (View.ld x4 rW2) (View.ld x5 rB2))
    (k2_pay11 (View.ld x0 rH2) (View.ld x3 rW2)) (k2_pay12 (View.ld x4 rW2)) (constant S1x256 .f32 0x00000000#32)⟩]

/-- Window 7's staging buffer after the body: the new cell state of the block's 256 units. -/
def out2_7 (x0 x1 : Vec F S1x2048 .f32) (x2 : Vec F S1x256 .f32) (x3 x4 : Vec F S4x256x2048 .f32) (x5 : Vec F S4x256 .f32) : Vec F S1x256 .f32 :=
  View.canon [⟨rC2, k2_pay1 (k2_pay4 (View.ld x1 rH2)) (k2_pay5 (View.ld x2 rC2)) (k2_pay8 (View.ld x5 rB2))
    (k2_pay9 (View.ld x0 rH2) (View.ld x1 rH2) (View.ld x3 rW2) (View.ld x4 rW2) (View.ld x5 rB2))
    (k2_pay10 (View.ld x0 rH2) (View.ld x1 rH2) (View.ld x3 rW2) (View.ld x4 rW2) (View.ld x5 rB2))
    (k2_pay11 (View.ld x0 rH2) (View.ld x3 rW2)) (k2_pay12 (View.ld x4 rW2)) (constant S1x256 .f32 0x00000000#32)⟩]

/-- The proof data of pipeline 2 on core `c`: arrays as found; after the body each input's buffer holds its block and
    each output's the body's result of the input blocks; the scoped rest and the generator register ride along untouched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

end Cert.KernelIdeal.Fr

end
-- ==== Proof.KVal.Cell2.lean ====
/-
  The third layer's kernel body at the ideal values, read at one hidden unit.

  The body holds the layer's input x [1, 2048] (the hidden state the layer below has just produced), the previous
  hidden state h [1, 2048], a block c [1, 256] of the previous cell state, the blocks Wi, Wh [4, 256, 2048] of the input
  and recurrent weights and the block b [4, 256] of the bias. Gate group k at unit l is
      a_k(l) = (Σ_q x(0, q) · Wi(k, l, q) + Σ_q h(0, q) · Wh(k, l, q)) + b(k, l);
  the groups are, in order, the input gate, the forget gate, the candidate and the output gate. The new cell state at
  unit l is  c'(l) = σ(a_1(l)) · c(0, l) + σ(a_0(l)) · tanh(a_2(l)),  and the new hidden state is
  σ(a_3(l)) · tanh(c'(l)),  σ the logistic function.
-/
import proofs.«142598_j64742337019981_2_alg».proof.Proof.KVal.Gate

noncomputable section

namespace Cert.KernelIdeal.KVal

open Cert.KernelIdeal Cert.KernelIdeal.Gen
open Idealize.ShloMosaic Idealize.ShloMosaic.ValueIdx

/-- Gate group `k` at unit `l`: the input product plus the recurrent product, plus the bias. -/
def gate2 (x h : Vec Ideal S1x2048 .f32) (Wi Wh : Vec Ideal S4x256x2048 .f32) (b : Vec Ideal S4x256 .f32)
    (k : Fin 4) (l : Fin 256) : EReal :=
  ((∑ q : Fin 2048, x (ix2 0 q) * Wi (ix3 k l q)) + (∑ q : Fin 2048, h (ix2 0 q) * Wh (ix3 k l q))) + b (ix2 k l)

/-- The block of the new cell state, as the body stores it. -/
def cell2 (x h : Vec Ideal S1x2048 .f32) (c : Vec Ideal S1x256 .f32) (Wi Wh : Vec Ideal S4x256x2048 .f32)
    (b : Vec Ideal S4x256 .f32) : Vec Ideal S1x256 .f32 :=
  k2_pay1 (F := Ideal) (k2_pay4 h) (k2_pay5 c) (k2_pay8 b) (k2_pay9 x h Wi Wh b) (k2_pay10 x h Wi Wh b)
    (k2_pay11 x Wi) (k2_pay12 Wh) (constant S1x256 .f32 0x00000000#32)

/-- The block of the new hidden state, as the body stores it. -/
def hidden2 (x h : Vec Ideal S1x2048 .f32) (c : Vec Ideal S1x256 .f32) (Wi Wh : Vec Ideal S4x256x2048 .f32)
    (b : Vec Ideal S4x256 .f32) : Vec Ideal S1x256 .f32 :=
  k2_pay2 (F := Ideal) (k2_pay3 x) (k2_pay4 h) (k2_pay5 c) (k2_pay6 Wi) (k2_pay7 Wh) (k2_pay8 b)
    (k2_pay9 x h Wi Wh b) (k2_pay10 x h Wi Wh b) (k2_pay11 x Wi) (k2_pay12 Wh)
    (constant S1x256 .f32 0x00000000#32)

/-- The new cell state of the block at unit `l`. -/
theorem k2_cell_apply (x h : Vec Ideal S1x2048 .f32) (c : Vec Ideal S1x256 .f32) (Wi Wh : Vec Ideal S4x256x2048 .f32)
    (b : Vec Ideal S4x256 .f32) (l : Fin 256) :
    cell2 x h c Wi Wh b (ix2 0 l)
      = Ideal.logistic (gate2 x h Wi Wh b 1 l) * c (ix2 0 l)
        + Ideal.logistic (gate2 x h Wi Wh b 0 l) * Ideal.tanh (gate2 x h Wi Wh b 2 l) := by
  unfold cell2 k2_pay1 k2_pay9 k2_pay10 k2_pay11 k2_pay12 k2_pay3 k2_pay4 k2_pay5 k2_pay6 k2_pay7 k2_pay8
  simp only [shapeCast_self, addf_apply, mulf_apply, logistic_apply, tanh_apply]
  rw [gateDot_apply x Wi 1 _ _ 1 rfl l, gateDot_apply h Wh 1 _ _ 1 rfl l, gateBias_apply b 1 _ _ _ 1 rfl l,
    gateDot_apply x Wi 0 _ _ 0 rfl l, gateDot_apply h Wh 0 _ _ 0 rfl l, gateBias_apply b 0 _ _ _ 0 rfl l,
    gateDot_apply x Wi 2 _ _ 2 rfl l, gateDot_apply h Wh 2 _ _ 2 rfl l, gateBias_apply b 2 _ _ _ 2 rfl l]
  rfl

/-- The new hidden state of the block at unit `l`. -/
theorem k2_hidden_apply (x h : Vec Ideal S1x2048 .f32) (c : Vec Ideal S1x256 .f32) (Wi Wh : Vec Ideal S4x256x2048 .f32)
    (b : Vec Ideal S4x256 .f32) (l : Fin 256) :
    hidden2 x h c Wi Wh b (ix2 0 l)
      = Ideal.logistic (gate2 x h Wi Wh b 3 l) * Ideal.tanh (cell2 x h c Wi Wh b (ix2 0 l)) := by
  unfold hidden2 k2_pay2
  simp only [addf_apply, mulf_apply, logistic_apply, tanh_apply]
  refine congrArg₂ (· * ·) (congrArg Ideal.logistic ?_) rfl
  unfold k2_pay3 k2_pay4 k2_pay6 k2_pay7 k2_pay8
  simp only [shapeCast_self]
  rw [gateDot_apply x Wi 3 _ _ 3 rfl l, gateDot_apply h Wh 3 _ _ 3 rfl l, gateBias_apply b 3 _ _ _ 3 rfl l]
  rfl

end Cert.KernelIdeal.KVal

end
-- ==== Proof.KI.Val2.lean ====
/-
  Region 2: what the two output arrays hold after the region, index by index, as a function of the arrays the
  region reads.  The grid has 8 points; point t handles hidden units 256·t … 256·t + 255.  Each input window's block
  at point t is its array read at those units (the state rows are read whole at every point), the body's two results
  at unit l of the block are the cell and hidden formulas of the block's gate pre-activations, and a block's gate
  pre-activation at unit l is the array's at unit 256·t + l.  The 8 blocks of an output tile its array, so the array
  ends holding the formulas at every unit.
-/
import proofs.«142598_j64742337019981_2_alg».proof.Proof.KI.Dat2
import proofs.«142598_j64742337019981_2_alg».proof.Proof.KVal.Cell2
import Idealize.ShloMosaic.Lib.Pipeline.Value
import Idealize.ShloMosaic.Lib.ValueIdx
import Idealize.ShloMosaic.PureOps.Ideal

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The pre-activation of gate group `k` at hidden unit `n`:
    (Σ_q x(0, q) · Wi(k, n, q) + Σ_q h(0, q) · Wh(k, n, q)) + b(k, n). -/
def G2 (x h : Vec Ideal S1x2048 .f32) (Wi Wh : Vec Ideal S4x2048x2048 .f32) (b : Vec Ideal S4x2048 .f32) (k : Fin 4) (n : Fin 2048) : EReal :=
  ((∑ q : Fin 2048, x (ix2 0 q) * Wi (ix3 k n q)) + (∑ q : Fin 2048, h (ix2 0 q) * Wh (ix3 k n q))) + b (ix2 k n)

/-- The new cell state as one array: at unit n, σ(forget) · c + σ(input) · tanh(candidate). -/
def cellArr2 (x h c : Vec Ideal S1x2048 .f32) (Wi Wh : Vec Ideal S4x2048x2048 .f32) (b : Vec Ideal S4x2048 .f32) : S1x2048.Idx → EReal :=
  fun i => Ideal.logistic (G2 x h Wi Wh b 1 (i 1)) * c (ix2 0 (i 1)) + Ideal.logistic (G2 x h Wi Wh b 0 (i 1)) * Ideal.tanh (G2 x h Wi Wh b 2 (i 1))

/-- The new hidden state as one array: at unit n, σ(output) · tanh(new cell). -/
def hiddenArr2 (x h c : Vec Ideal S1x2048 .f32) (Wi Wh : Vec Ideal S4x2048x2048 .f32) (b : Vec Ideal S4x2048 .f32) : S1x2048.Idx → EReal :=
  fun i => Ideal.logistic (G2 x h Wi Wh b 3 (i 1)) * Ideal.tanh (cellArr2 x h c Wi Wh b i)

theorem hz2_2 : (![0, 0] : Fin 2 → Nat) = fun _ => 0 := funext fun a => by fin_cases a <;> rfl
theorem hz3_2 : (![0, 0, 0] : Fin 3 → Nat) = fun _ => 0 := funext fun a => by fin_cases a <;> rfl

/-- The windows' block indices at grid point t, decided over the 8 points: the two state rows are block (0, 0) at
    every point; every other window is at block t along its axis of hidden units. -/
theorem idx_facts2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = t.val
    ∧ win2_3.index t (0 : Fin 3) = 0 ∧ win2_3.index t (1 : Fin 3) = t.val ∧ win2_3.index t (2 : Fin 3) = 0
    ∧ win2_4.index t (0 : Fin 3) = 0 ∧ win2_4.index t (1 : Fin 3) = t.val ∧ win2_4.index t (2 : Fin 3) = 0
    ∧ win2_5.index t (0 : Fin 2) = 0 ∧ win2_5.index t (1 : Fin 2) = t.val
    ∧ win2_6.index t (0 : Fin 2) = 0 ∧ win2_6.index t (1 : Fin 2) = t.val
    ∧ win2_7.index t (0 : Fin 2) = 0 ∧ win2_7.index t (1 : Fin 2) = t.val ∧ t.val < 8 :=
  (by decide +kernel : ∀ t : Fin grid2.N, _)

/-! ## Each input block as its array read at the block's units -/

theorem iblk2_0_apply (c : Dev nD) (t : Fin cfg2.N) (x : S1x2048.Idx) (k : S1x2048.Idx)
    (hk0 : (k 0).val = (x 0).val) (hk1 : (k 1).val = (x 1).val) :
    (iblk2 V c 0 t : Vec Ideal S1x2048 .f32) x = (V c main_v21_0 : S1x2048.Idx → EReal) k := by
  obtain ⟨e0, e1, -⟩ := idx_facts2 t
  unfold iblk2
  rw [View.read_apply]
  show V c main_v21_0 _ = V c main_v21_0 _
  congr 1
  funext a
  apply Fin.ext
  match a with
  | ⟨0, _⟩ => show win2_0.index t 0 * 1 + 1 * (x 0).val = (k 0).val; rw [e0, hk0]; omega
  | ⟨1, _⟩ => show win2_0.index t 1 * 2048 + 1 * (x 1).val = (k 1).val; rw [e1, hk1]; omega

theorem iblk2_1_apply (c : Dev nD) (t : Fin cfg2.N) (x : S1x2048.Idx) (k : S1x2048.Idx)
    (hk0 : (k 0).val = (x 0).val) (hk1 : (k 1).val = (x 1).val) :
    (iblk2 V c 1 t : Vec Ideal S1x2048 .f32) x = (V c main_v25 : S1x2048.Idx → EReal) k := by
  obtain ⟨-, -, e0, e1, -⟩ := idx_facts2 t
  unfold iblk2
  rw [View.read_apply]
  show V c main_v25 _ = V c main_v25 _
  congr 1
  funext a
  apply Fin.ext
  match a with
  | ⟨0, _⟩ => show win2_1.index t 0 * 1 + 1 * (x 0).val = (k 0).val; rw [e0, hk0]; omega
  | ⟨1, _⟩ => show win2_1.index t 1 * 2048 + 1 * (x 1).val = (k 1).val; rw [e1, hk1]; omega

theorem iblk2_2_apply (c : Dev nD) (t : Fin cfg2.N) (x : S1x256.Idx) (k : S1x2048.Idx)
    (hk0 : (k 0).val = (x 0).val) (hk1 : (k 1).val = 256 * t.val + (x 1).val) :
    (iblk2 V c 2 t : Vec Ideal S1x256 .f32) x = (V c main_v27 : S1x2048.Idx → EReal) k := by
  obtain ⟨-, -, -, -, e0, e1, -⟩ := idx_facts2 t
  unfold iblk2
  rw [View.read_apply]
  show V c main_v27 _ = V c main_v27 _
  congr 1
  funext a
  apply Fin.ext
  match a with
  | ⟨0, _⟩ => show win2_2.index t 0 * 1 + 1 * (x 0).val = (k 0).val; rw [e0, hk0]; omega
  | ⟨1, _⟩ => show win2_2.index t 1 * 256 + 1 * (x 1).val = (k 1).val; rw [e1, hk1]; omega

theorem iblk2_3_apply (c : Dev nD) (t : Fin cfg2.N) (x : S4x256x2048.Idx) (k : S4x2048x2048.Idx)
    (hk0 : (k 0).val = (x 0).val) (hk1 : (k 1).val = 256 * t.val + (x 1).val) (hk2 : (k 2).val = (x 2).val) :
    (iblk2 V c 3 t : Vec Ideal S4x256x2048 .f32) x = (V c main_v28 : S4x2048x2048.Idx → EReal) k := by
  obtain ⟨-, -, -, -, -, -, e0, e1, e2, -⟩ := idx_facts2 t
  unfold iblk2
  rw [View.read_apply]
  show V c main_v28 _ = V c main_v28 _
  congr 1
  funext a
  apply Fin.ext
  match a with
  | ⟨0, _⟩ => show win2_3.index t 0 * 4 + 1 * (x 0).val = (k 0).val; rw [e0, hk0]; omega
  | ⟨1, _⟩ => show win2_3.index t 1 * 256 + 1 * (x 1).val = (k 1).val; rw [e1, hk1]; omega
  | ⟨2, _⟩ => show win2_3.index t 2 * 2048 + 1 * (x 2).val = (k 2).val; rw [e2, hk2]; omega

theorem iblk2_4_apply (c : Dev nD) (t : Fin cfg2.N) (x : S4x256x2048.Idx) (k : S4x2048x2048.Idx)
    (hk0 : (k 0).val = (x 0).val) (hk1 : (k 1).val = 256 * t.val + (x 1).val) (hk2 : (k 2).val = (x 2).val) :
    (iblk2 V c 4 t : Vec Ideal S4x256x2048 .f32) x = (V c main_v29 : S4x2048x2048.Idx → EReal) k := by
  obtain ⟨-, -, -, -, -, -, -, -, -, e0, e1, e2, -⟩ := idx_facts2 t
  unfold iblk2
  rw [View.read_apply]
  show V c main_v29 _ = V c main_v29 _
  congr 1
  funext a
  apply Fin.ext
  match a with
  | ⟨0, _⟩ => show win2_4.index t 0 * 4 + 1 * (x 0).val = (k 0).val; rw [e0, hk0]; omega
  | ⟨1, _⟩ => show win2_4.index t 1 * 256 + 1 * (x 1).val = (k 1).val; rw [e1, hk1]; omega
  | ⟨2, _⟩ => show win2_4.index t 2 * 2048 + 1 * (x 2).val = (k 2).val; rw [e2, hk2]; omega

theorem iblk2_5_apply (c : Dev nD) (t : Fin cfg2.N) (x : S4x256.Idx) (k : S4x2048.Idx)
    (hk0 : (k 0).val = (x 0).val) (hk1 : (k 1).val = 256 * t.val + (x 1).val) :
    (iblk2 V c 5 t : Vec Ideal S4x256 .f32) x = (V c main_v23 : S4x2048.Idx → EReal) k := by
  obtain ⟨-, -, -, -, -, -, -, -, -, -, -, -, e0, e1, -⟩ := idx_facts2 t
  unfold iblk2
  rw [View.read_apply]
  show V c main_v23 _ = V c main_v23 _
  congr 1
  funext a
  apply Fin.ext
  match a with
  | ⟨0, _⟩ => show win2_5.index t 0 * 4 + 1 * (x 0).val = (k 0).val; rw [e0, hk0]; omega
  | ⟨1, _⟩ => show win2_5.index t 1 * 256 + 1 * (x 1).val = (k 1).val; rw [e1, hk1]; omega

/-! ## A block's gate pre-activations, and the body's two results, are the arrays' at the block's units -/

theorem gate2_blk (x h : Vec Ideal S1x2048 .f32) (Wi Wh : Vec Ideal S4x2048x2048 .f32) (b : Vec Ideal S4x2048 .f32)
    (xb hb : Vec Ideal S1x2048 .f32) (Wib Whb : Vec Ideal S4x256x2048 .f32) (bb : Vec Ideal S4x256 .f32)
    (l : Fin 256) (n : Fin 2048)
    (Hx : ∀ q : Fin 2048, xb (ix2 0 q) = x (ix2 0 q))
    (Hh : ∀ q : Fin 2048, hb (ix2 0 q) = h (ix2 0 q))
    (HWi : ∀ (k : Fin 4) (q : Fin 2048), Wib (ix3 k l q) = Wi (ix3 k n q))
    (HWh : ∀ (k : Fin 4) (q : Fin 2048), Whb (ix3 k l q) = Wh (ix3 k n q))
    (Hb : ∀ k : Fin 4, bb (ix2 k l) = b (ix2 k n)) (k : Fin 4) :
    KVal.gate2 xb hb Wib Whb bb k l = G2 x h Wi Wh b k n := by
  unfold KVal.gate2 G2
  rw [Hb k]
  congr 1
  congr 1
  · exact Finset.sum_congr rfl fun q _ => by rw [Hx q, HWi k q]
  · exact Finset.sum_congr rfl fun q _ => by rw [Hh q, HWh k q]

theorem cell2_blk (x h c : Vec Ideal S1x2048 .f32) (Wi Wh : Vec Ideal S4x2048x2048 .f32) (b : Vec Ideal S4x2048 .f32)
    (xb hb : Vec Ideal S1x2048 .f32) (cb : Vec Ideal S1x256 .f32) (Wib Whb : Vec Ideal S4x256x2048 .f32) (bb : Vec Ideal S4x256 .f32)
    (l : Fin 256) (n : Fin 2048)
    (Hx : ∀ q : Fin 2048, xb (ix2 0 q) = x (ix2 0 q))
    (Hh : ∀ q : Fin 2048, hb (ix2 0 q) = h (ix2 0 q))
    (Hc : cb (ix2 0 l) = c (ix2 0 n))
    (HWi : ∀ (k : Fin 4) (q : Fin 2048), Wib (ix3 k l q) = Wi (ix3 k n q))
    (HWh : ∀ (k : Fin 4) (q : Fin 2048), Whb (ix3 k l q) = Wh (ix3 k n q))
    (Hb : ∀ k : Fin 4, bb (ix2 k l) = b (ix2 k n)) :
    KVal.cell2 xb hb cb Wib Whb bb (ix2 0 l) = cellArr2 x h c Wi Wh b (ix2 0 n) := by
  rw [KVal.k2_cell_apply, gate2_blk x h Wi Wh b xb hb Wib Whb bb l n Hx Hh HWi HWh Hb 1, gate2_blk x h Wi Wh b xb hb Wib Whb bb l n Hx Hh HWi HWh Hb 0,
    gate2_blk x h Wi Wh b xb hb Wib Whb bb l n Hx Hh HWi HWh Hb 2, Hc]
  rfl

theorem hidden2_blk (x h c : Vec Ideal S1x2048 .f32) (Wi Wh : Vec Ideal S4x2048x2048 .f32) (b : Vec Ideal S4x2048 .f32)
    (xb hb : Vec Ideal S1x2048 .f32) (cb : Vec Ideal S1x256 .f32) (Wib Whb : Vec Ideal S4x256x2048 .f32) (bb : Vec Ideal S4x256 .f32)
    (l : Fin 256) (n : Fin 2048)
    (Hx : ∀ q : Fin 2048, xb (ix2 0 q) = x (ix2 0 q))
    (Hh : ∀ q : Fin 2048, hb (ix2 0 q) = h (ix2 0 q))
    (Hc : cb (ix2 0 l) = c (ix2 0 n))
    (HWi : ∀ (k : Fin 4) (q : Fin 2048), Wib (ix3 k l q) = Wi (ix3 k n q))
    (HWh : ∀ (k : Fin 4) (q : Fin 2048), Whb (ix3 k l q) = Wh (ix3 k n q))
    (Hb : ∀ k : Fin 4, bb (ix2 k l) = b (ix2 k n)) :
    KVal.hidden2 xb hb cb Wib Whb bb (ix2 0 l) = hiddenArr2 x h c Wi Wh b (ix2 0 n) := by
  rw [KVal.k2_hidden_apply, cell2_blk x h c Wi Wh b xb hb cb Wib Whb bb l n Hx Hh Hc HWi HWh Hb, gate2_blk x h Wi Wh b xb hb Wib Whb bb l n Hx Hh HWi HWh Hb 3]
  rfl

/-! ## What each point writes back is its block of the whole-array function -/

/-- Point t writes back block t of the new cell state. -/
theorem flushed2_7_eq (c : Dev nD) (t : Fin cfg2.N) :
    (dat2 V c).flushed 7 t = ((cfg2.win 7).blk t).view.read (Elt Ideal) (cellArr2 (V c main_v21_0) (V c main_v25) (V c main_v27) (V c main_v28) (V c main_v29) (V c main_v23)) := by
  show (cfg2.win 7).cut (grid2.coords t) ((dat2 V c).after 7 t) = _
  rw [after2_7]
  unfold out2_7
  rw [View.canon_unit_zero hz2_2]
  simp only [View.ld_unit_zero (S := S1x2048) hz2_2, View.ld_unit_zero (S := S1x256) hz2_2, View.ld_unit_zero (S := S4x256x2048) hz3_2, View.ld_unit_zero (S := S4x256) hz2_2]
  obtain ⟨-, -, -, -, -, -, -, -, -, -, -, -, -, -, -, -, e0, e1, ht⟩ := idx_facts2 t
  funext j
  obtain ⟨p, l, rfl⟩ : ∃ (p : Fin 1) (l : Fin 256), j = ix2 p l := ⟨j 0, j 1, eq_ix2 j⟩
  obtain rfl : p = 0 := Subsingleton.elim _ _
  have hl : l.val < 256 := l.isLt
  have hn : 256 * t.val + l.val < 2048 := by omega
  have hemb : ((cfg2.win 7).blk t).view.emb (ix2 0 l) = (ix2 0 ⟨256 * t.val + l.val, hn⟩ : S1x2048.Idx) := by
    funext a; apply Fin.ext
    match a with
    | ⟨0, _⟩ => show win2_7.index t 0 * 1 + 1 * 0 = 0; rw [e0]
    | ⟨1, _⟩ => show win2_7.index t 1 * 256 + 1 * l.val = 256 * t.val + l.val; rw [e1]; omega
  show KVal.cell2 (iblk2 V c 0 t) (iblk2 V c 1 t) (iblk2 V c 2 t) (iblk2 V c 3 t) (iblk2 V c 4 t) (iblk2 V c 5 t) (ix2 0 l)
    = cellArr2 (V c main_v21_0) (V c main_v25) (V c main_v27) (V c main_v28) (V c main_v29) (V c main_v23) (((cfg2.win 7).blk t).view.emb (ix2 0 l))
  rw [hemb]
  exact cell2_blk (V c main_v21_0) (V c main_v25) (V c main_v27) (V c main_v28) (V c main_v29) (V c main_v23) (iblk2 V c 0 t) (iblk2 V c 1 t) (iblk2 V c 2 t) (iblk2 V c 3 t) (iblk2 V c 4 t) (iblk2 V c 5 t)
    l ⟨256 * t.val + l.val, hn⟩
    (fun q => iblk2_0_apply V c t (ix2 0 q) (ix2 0 q) rfl rfl)
    (fun q => iblk2_1_apply V c t (ix2 0 q) (ix2 0 q) rfl rfl)
    (iblk2_2_apply V c t (ix2 0 l) (ix2 0 ⟨256 * t.val + l.val, hn⟩) rfl rfl)
    (fun k q => iblk2_3_apply V c t (ix3 k l q) (ix3 k ⟨256 * t.val + l.val, hn⟩ q) rfl rfl rfl)
    (fun k q => iblk2_4_apply V c t (ix3 k l q) (ix3 k ⟨256 * t.val + l.val, hn⟩ q) rfl rfl rfl)
    (fun k => iblk2_5_apply V c t (ix2 k l) (ix2 k ⟨256 * t.val + l.val, hn⟩) rfl rfl)

/-- Point t writes back block t of the new hidden state. -/
theorem flushed2_6_eq (c : Dev nD) (t : Fin cfg2.N) :
    (dat2 V c).flushed 6 t = ((cfg2.win 6).blk t).view.read (Elt Ideal) (hiddenArr2 (V c main_v21_0) (V c main_v25) (V c main_v27) (V c main_v28) (V c main_v29) (V c main_v23)) := by
  show (cfg2.win 6).cut (grid2.coords t) ((dat2 V c).after 6 t) = _
  rw [after2_6]
  unfold out2_6
  rw [View.canon_unit_zero hz2_2]
  simp only [View.ld_unit_zero (S := S1x2048) hz2_2, View.ld_unit_zero (S := S1x256) hz2_2, View.ld_unit_zero (S := S4x256x2048) hz3_2, View.ld_unit_zero (S := S4x256) hz2_2]
  obtain ⟨-, -, -, -, -, -, -, -, -, -, -, -, -, -, e0, e1, -, -, ht⟩ := idx_facts2 t
  funext j
  obtain ⟨p, l, rfl⟩ : ∃ (p : Fin 1) (l : Fin 256), j = ix2 p l := ⟨j 0, j 1, eq_ix2 j⟩
  obtain rfl : p = 0 := Subsingleton.elim _ _
  have hl : l.val < 256 := l.isLt
  have hn : 256 * t.val + l.val < 2048 := by omega
  have hemb : ((cfg2.win 6).blk t).view.emb (ix2 0 l) = (ix2 0 ⟨256 * t.val + l.val, hn⟩ : S1x2048.Idx) := by
    funext a; apply Fin.ext
    match a with
    | ⟨0, _⟩ => show win2_6.index t 0 * 1 + 1 * 0 = 0; rw [e0]
    | ⟨1, _⟩ => show win2_6.index t 1 * 256 + 1 * l.val = 256 * t.val + l.val; rw [e1]; omega
  show KVal.hidden2 (iblk2 V c 0 t) (iblk2 V c 1 t) (iblk2 V c 2 t) (iblk2 V c 3 t) (iblk2 V c 4 t) (iblk2 V c 5 t) (ix2 0 l)
    = hiddenArr2 (V c main_v21_0) (V c main_v25) (V c main_v27) (V c main_v28) (V c main_v29) (V c main_v23) (((cfg2.win 6).blk t).view.emb (ix2 0 l))
  rw [hemb]
  exact hidden2_blk (V c main_v21_0) (V c main_v25) (V c main_v27) (V c main_v28) (V c main_v29) (V c main_v23) (iblk2 V c 0 t) (iblk2 V c 1 t) (iblk2 V c 2 t) (iblk2 V c 3 t) (iblk2 V c 4 t) (iblk2 V c 5 t)
    l ⟨256 * t.val + l.val, hn⟩
    (fun q => iblk2_0_apply V c t (ix2 0 q) (ix2 0 q) rfl rfl)
    (fun q => iblk2_1_apply V c t (ix2 0 q) (ix2 0 q) rfl rfl)
    (iblk2_2_apply V c t (ix2 0 l) (ix2 0 ⟨256 * t.val + l.val, hn⟩) rfl rfl)
    (fun k q => iblk2_3_apply V c t (ix3 k l q) (ix3 k ⟨256 * t.val + l.val, hn⟩ q) rfl rfl rfl)
    (fun k q => iblk2_4_apply V c t (ix3 k l q) (ix3 k ⟨256 * t.val + l.val, hn⟩ q) rfl rfl rfl)
    (fun k => iblk2_5_apply V c t (ix2 k l) (ix2 k ⟨256 * t.val + l.val, hn⟩) rfl rfl)

/-! ## The 8 blocks tile the output arrays -/

/-- An index of the array is in point t's block iff each coordinate is in the block's range on its axis. -/
theorem mem_blk2_7 (t : Fin cfg2.N) (i : S1x2048.Idx) :
    i ∈ ((cfg2.win 7).blk t).view.set ↔ ∀ a : Fin 2, win2_7.index t a * S1x256.size a ≤ (i a).val ∧ (i a).val < win2_7.index t a * S1x256.size a + S1x256.size a := by
  show i ∈ ((View.whole main_v30_1).slice (win2_7.rect t)).set ↔ _
  rw [View.set_slice_whole, Rect.mem_set_unit]
  exact Iff.rfl

/-- Unit n is in the block of point n / 256. -/
theorem cover2_7 (i : S1x2048.Idx) : ∃ t : Fin cfg2.N, (cfg2.win 7).flush t = true ∧ i ∈ ((cfg2.win 7).blk t).view.set := by
  have hi0 : (i 0).val < 1 := (i 0).isLt
  have hi1 : (i 1).val < 2048 := (i 1).isLt
  obtain ⟨t, ht⟩ : ∃ t : Fin cfg2.N, t.val = (i 1).val / 256 := ⟨⟨(i 1).val / 256, by rw [show cfg2.N = 8 from N_2]; omega⟩, rfl⟩
  refine ⟨t, flush2_7 t, ?_⟩
  rw [mem_blk2_7]
  obtain ⟨-, -, -, -, -, -, -, -, -, -, -, -, -, -, -, -, e0, e1, -⟩ := idx_facts2 t
  intro a
  match a with
  | ⟨0, _⟩ => show win2_7.index t 0 * 1 ≤ (i 0).val ∧ (i 0).val < win2_7.index t 0 * 1 + 1; rw [e0]; omega
  | ⟨1, _⟩ => show win2_7.index t 1 * 256 ≤ (i 1).val ∧ (i 1).val < win2_7.index t 1 * 256 + 256; rw [e1, ht]; omega

/-- An index of the array is in point t's block iff each coordinate is in the block's range on its axis. -/
theorem mem_blk2_6 (t : Fin cfg2.N) (i : S1x2048.Idx) :
    i ∈ ((cfg2.win 6).blk t).view.set ↔ ∀ a : Fin 2, win2_6.index t a * S1x256.size a ≤ (i a).val ∧ (i a).val < win2_6.index t a * S1x256.size a + S1x256.size a := by
  show i ∈ ((View.whole main_v30_0).slice (win2_6.rect t)).set ↔ _
  rw [View.set_slice_whole, Rect.mem_set_unit]
  exact Iff.rfl

/-- Unit n is in the block of point n / 256. -/
theorem cover2_6 (i : S1x2048.Idx) : ∃ t : Fin cfg2.N, (cfg2.win 6).flush t = true ∧ i ∈ ((cfg2.win 6).blk t).view.set := by
  have hi0 : (i 0).val < 1 := (i 0).isLt
  have hi1 : (i 1).val < 2048 := (i 1).isLt
  obtain ⟨t, ht⟩ : ∃ t : Fin cfg2.N, t.val = (i 1).val / 256 := ⟨⟨(i 1).val / 256, by rw [show cfg2.N = 8 from N_2]; omega⟩, rfl⟩
  refine ⟨t, flush2_6 t, ?_⟩
  rw [mem_blk2_6]
  obtain ⟨-, -, -, -, -, -, -, -, -, -, -, -, -, -, e0, e1, -⟩ := idx_facts2 t
  intro a
  match a with
  | ⟨0, _⟩ => show win2_6.index t 0 * 1 ≤ (i 0).val ∧ (i 0).val < win2_6.index t 0 * 1 + 1; rw [e0]; omega
  | ⟨1, _⟩ => show win2_6.index t 1 * 256 ≤ (i 1).val ∧ (i 1).val < win2_6.index t 1 * 256 + 256; rw [e1, ht]; omega

/-! ## The output arrays after the region -/

theorem final2_7 (c : Dev nD) : (dat2 V c).arrAt 7 cfg2.N = cellArr2 (V c main_v21_0) (V c main_v25) (V c main_v27) (V c main_v28) (V c main_v29) (V c main_v23) :=
  (dat2 V c).arrAt_eq_of_cover 7 _ (fun t _ => flushed2_7_eq V c t) cover2_7

theorem final2_6 (c : Dev nD) : (dat2 V c).arrAt 6 cfg2.N = hiddenArr2 (V c main_v21_0) (V c main_v25) (V c main_v27) (V c main_v28) (V c main_v29) (V c main_v23) :=
  (dat2 V c).arrAt_eq_of_cover 6 _ (fun t _ => flushed2_6_eq V c t) cover2_6

/-- The cell-state array after the region, unit by unit. -/
theorem arr2_cell (c : Dev nD) (n : Fin 2048) :
    (dat2 (F := Ideal) V c).arrAt 7 cfg2.N (ix2 0 n)
      = Ideal.logistic (G2 (V c main_v21_0) (V c main_v25) (V c main_v28) (V c main_v29) (V c main_v23) 1 n) * V c main_v27 (ix2 0 n)
        + Ideal.logistic (G2 (V c main_v21_0) (V c main_v25) (V c main_v28) (V c main_v29) (V c main_v23) 0 n) * Ideal.tanh (G2 (V c main_v21_0) (V c main_v25) (V c main_v28) (V c main_v29) (V c main_v23) 2 n) := by
  rw [final2_7]; rfl

/-- The hidden-state array after the region, unit by unit. -/
theorem arr2_hidden (c : Dev nD) (n : Fin 2048) :
    (dat2 (F := Ideal) V c).arrAt 6 cfg2.N (ix2 0 n)
      = Ideal.logistic (G2 (V c main_v21_0) (V c main_v25) (V c main_v28) (V c main_v29) (V c main_v23) 3 n) * Ideal.tanh ((dat2 (F := Ideal) V c).arrAt 7 cfg2.N (ix2 0 n)) := by
  rw [final2_6, final2_7]; rfl

end Cert.KernelIdeal.Fr

end
-- ==== Proof.KI.Body0.lean ====
/-
  Region 0: the kernel body meets the pipeline's obligation at every grid point.  On whole staging buffers holding the
  input blocks, the body runs to the end without a fault, leaves every input buffer as it was, and leaves in each output
  buffer what its one whole-block store wrote: the payload of the loaded blocks.
-/
import proofs.«142598_j64742337019981_2_alg».proof.Proof.Gen.KernelIdeal.Launch
import proofs.«142598_j64742337019981_2_alg».proof.Proof.Gen.KernelIdeal.Skeleton
import proofs.«142598_j64742337019981_2_alg».proof.Proof.Gen.KernelIdeal.Points
import proofs.«142598_j64742337019981_2_alg».proof.Proof.KI.Dat0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-- Input window 1's current staging buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- Input window 2's current staging buffer holds its block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- Input window 3's current staging buffer holds its block at every point, fetched there or not. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-- One whole-block store covers the output's buffer. -/
theorem cover0 (p0 : Vec F S1x256 .f32) (y : S1x256.Idx) :
    ∃ pc ∈ ([⟨rC0, p0⟩] : List (View.Piece (Elt F) S1x256 .f32)), y ∈ pc.1.set :=
  View.cover_of_tiled [⟨rC0, p0⟩] S1x256.size (by rfl) y

set_option maxHeartbeats 1000000 in
/-- The body's triple on whole staging memrefs. -/
theorem sound_kernel0 (c : Dev nD) (E : Set ℕ) (i : grid0.Coords) (arg1 : Memref sig .tc .vmem S1x2048 .f32) (harg1 : arg1.IsWhole) (arg2 : Memref sig .tc .vmem S1x256 .f32) (harg2 : arg2.IsWhole) (arg3 : Memref sig .tc .vmem S4x256x2048 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S1x256 .f32) (harg6 : arg6.IsWhole)
    (x0 : Vec F S1x2048 .f32) (x1 : Vec F S1x256 .f32) (x2 : Vec F S4x256x2048 .f32) (x3 : Vec F S4x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3)) -∗ K ⟨⟩))
      ⊢ wp frame (wpE (defs₀ (F := F)) Variants.none c none) E (cc0__lstm_layer_kernel_no_input i arg1 harg1 arg2 harg2 arg3 harg3 arg4 harg4 arg5 harg5 arg6 harg6) K := by
  simp only [cc0__lstm_layer_kernel_no_input_eq_skeleton]; unfold cc0__lstm_layer_kernel_no_input_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover0 _)
  iexists _; isplitr
  swap; · iexact H5
  ipureintro
  try dsimp only
  exact View.read_writes_eq_canon _ _ _ (cover0 _)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Body1.lean ====
/-
  Region 1: the kernel body meets the pipeline's obligation at every grid point.  On whole staging buffers holding the
  input blocks, the body runs to the end without a fault, leaves every input buffer as it was, and leaves in each output
  buffer what its one whole-block store wrote: the payload of the loaded blocks.
-/
import proofs.«142598_j64742337019981_2_alg».proof.Proof.Gen.KernelIdeal.Launch
import proofs.«142598_j64742337019981_2_alg».proof.Proof.Gen.KernelIdeal.Skeleton
import proofs.«142598_j64742337019981_2_alg».proof.Proof.Gen.KernelIdeal.Points
import proofs.«142598_j64742337019981_2_alg».proof.Proof.KI.Dat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

/-- Input window 1's current staging buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- Input window 2's current staging buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- Input window 3's current staging buffer holds its block at every point, fetched there or not. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- Input window 4's current staging buffer holds its block at every point, fetched there or not. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-- Input window 5's current staging buffer holds its block at every point, fetched there or not. -/
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-- One whole-block store covers the output's buffer. -/
theorem cover1 (p0 : Vec F S1x256 .f32) (y : S1x256.Idx) :
    ∃ pc ∈ ([⟨rC1, p0⟩] : List (View.Piece (Elt F) S1x256 .f32)), y ∈ pc.1.set :=
  View.cover_of_tiled [⟨rC1, p0⟩] S1x256.size (by rfl) y

set_option maxHeartbeats 1000000 in
/-- The body's triple on whole staging memrefs. -/
theorem sound_kernel1 (c : Dev nD) (E : Set ℕ) (i : grid1.Coords) (arg1 : Memref sig .tc .vmem S1x2048 .f32) (harg1 : arg1.IsWhole) (arg2 : Memref sig .tc .vmem S1x2048 .f32) (harg2 : arg2.IsWhole) (arg3 : Memref sig .tc .vmem S1x256 .f32) (harg3 : arg3.IsWhole) (arg4 : Memref sig .tc .vmem S4x256x2048 .f32) (harg4 : arg4.IsWhole) (arg5 : Memref sig .tc .vmem S4x256x2048 .f32) (harg5 : arg5.IsWhole) (arg6 : Memref sig .tc .vmem S4x256 .f32) (harg6 : arg6.IsWhole) (arg7 : Memref sig .tc .vmem S1x256 .f32) (harg7 : arg7.IsWhole) (arg8 : Memref sig .tc .vmem S1x256 .f32) (harg8 : arg8.IsWhole)
    (x0 : Vec F S1x2048 .f32) (x1 : Vec F S1x2048 .f32) (x2 : Vec F S1x256 .f32) (x3 : Vec F S4x256x2048 .f32) (x4 : Vec F S4x256x2048 .f32) (x5 : Vec F S4x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__lstm_layer_kernel_with_input i arg1 harg1 arg2 harg2 arg3 harg3 arg4 harg4 arg5 harg5 arg6 harg6 arg7 harg7 arg8 harg8) K := by
  simp only [cc1__lstm_layer_kernel_with_input_eq_skeleton]; unfold cc1__lstm_layer_kernel_with_input_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover1 _)
  iexists _; isplitr
  swap; · iexact H7
  ipureintro
  try dsimp only
  exact View.read_writes_eq_canon _ _ _ (cover1 _)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Body2.lean ====
/-
  Region 2: the kernel body meets the pipeline's obligation at every grid point.  On whole staging buffers holding the
  input blocks, the body runs to the end without a fault, leaves every input buffer as it was, and leaves in each output
  buffer what its one whole-block store wrote: the payload of the loaded blocks.
-/
import proofs.«142598_j64742337019981_2_alg».proof.Proof.Gen.KernelIdeal.Launch
import proofs.«142598_j64742337019981_2_alg».proof.Proof.Gen.KernelIdeal.Skeleton
import proofs.«142598_j64742337019981_2_alg».proof.Proof.Gen.KernelIdeal.Points
import proofs.«142598_j64742337019981_2_alg».proof.Proof.KI.Dat2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)

/-- Input window 1's current staging buffer holds its block at every point, fetched there or not. -/
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-- Input window 2's current staging buffer holds its block at every point, fetched there or not. -/
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

/-- Input window 3's current staging buffer holds its block at every point, fetched there or not. -/
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

/-- Input window 4's current staging buffer holds its block at every point, fetched there or not. -/
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-- Input window 5's current staging buffer holds its block at every point, fetched there or not. -/
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)

/-- One whole-block store covers the output's buffer. -/
theorem cover2 (p0 : Vec F S1x256 .f32) (y : S1x256.Idx) :
    ∃ pc ∈ ([⟨rC2, p0⟩] : List (View.Piece (Elt F) S1x256 .f32)), y ∈ pc.1.set :=
  View.cover_of_tiled [⟨rC2, p0⟩] S1x256.size (by rfl) y

set_option maxHeartbeats 1000000 in
/-- The body's triple on whole staging memrefs. -/
theorem sound_kernel2 (c : Dev nD) (E : Set ℕ) (i : grid2.Coords) (arg1 : Memref sig .tc .vmem S1x2048 .f32) (harg1 : arg1.IsWhole) (arg2 : Memref sig .tc .vmem S1x2048 .f32) (harg2 : arg2.IsWhole) (arg3 : Memref sig .tc .vmem S1x256 .f32) (harg3 : arg3.IsWhole) (arg4 : Memref sig .tc .vmem S4x256x2048 .f32) (harg4 : arg4.IsWhole) (arg5 : Memref sig .tc .vmem S4x256x2048 .f32) (harg5 : arg5.IsWhole) (arg6 : Memref sig .tc .vmem S4x256 .f32) (harg6 : arg6.IsWhole) (arg7 : Memref sig .tc .vmem S1x256 .f32) (harg7 : arg7.IsWhole) (arg8 : Memref sig .tc .vmem S1x256 .f32) (harg8 : arg8.IsWhole)
    (x0 : Vec F S1x2048 .f32) (x1 : Vec F S1x2048 .f32) (x2 : Vec F S1x256 .f32) (x3 : Vec F S4x256x2048 .f32) (x4 : Vec F S4x256x2048 .f32) (x5 : Vec F S4x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__lstm_layer_kernel_with_input i arg1 harg1 arg2 harg2 arg3 harg3 arg4 harg4 arg5 harg5 arg6 harg6 arg7 harg7 arg8 harg8) K := by
  simp only [cc2__lstm_layer_kernel_with_input_eq_skeleton]; unfold cc2__lstm_layer_kernel_with_input_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover2 _)
  iexists _; isplitr
  swap; · iexact H7
  ipureintro
  try dsimp only
  exact View.read_writes_eq_canon _ _ _ (cover2 _)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Run.lean ====
/-
  The whole run of @main: four stretches of host operations around three pipelined regions.  The contents of the
  TensorCore's unscoped buffers are followed from the launch memory through every segment: a host stretch applies its
  operations, a region replaces its windows' arrays by what its pipeline leaves.  Every weakly fair execution ends, without
  a fault, with every unscoped buffer at the last of these contents (`run_all`); no segment writes an argument array, so
  each ends as launched (`frame`).
-/
import proofs.«142598_j64742337019981_2_alg».proof.Proof.Gen.KernelIdeal.Launch
import proofs.«142598_j64742337019981_2_alg».proof.Proof.Gen.KernelIdeal.Skeleton
import proofs.«142598_j64742337019981_2_alg».proof.Proof.Gen.KernelIdeal.Points
import proofs.«142598_j64742337019981_2_alg».proof.Proof.KI.Body0
import proofs.«142598_j64742337019981_2_alg».proof.Proof.KI.Body1
import proofs.«142598_j64742337019981_2_alg».proof.Proof.KI.Body2
import proofs.«142598_j64742337019981_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev B0 : Dev nD → Valuation τ sig (Elt F) := fun c b => (s₀ m ρ).mem ((c : Dev nD), b)
/-- After the first host stretch (region 0's entry). -/
abbrev B1 : Dev nD → Valuation τ sig (Elt F) := fun c => StableHlo.after hostOps0 (B0 m ρ c)
abbrev T1 : (c : Dev nD) → (b : Ref sig .tc) → Buf (Elt F) ((c : Thread nD τ).loc b) := fun c b => B1 m ρ c b

/-- At region 0's exit: its arrays at what the pipeline leaves (an input's as entered, an output's the fold of its
    write-backs), every other buffer as entered. -/
def B2 (c : Dev nD) : Valuation τ sig (Elt F) :=
  Pipeline.withArrays spec0 c (B1 m ρ c) fun w => (dat0 (T1 m ρ) c).arrAt w cfg0.N
theorem B2_arr (c : Dev nD) (w : Fin cfg0.W) :
    B2 m ρ c (Proc.devRef .tc (Pipeline.arrRef spec0 w)) = (dat0 (T1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references. -/
abbrev T2 : (c : Dev nD) → (b : Ref sig .tc) → Buf (Elt F) ((c : Thread nD τ).loc b) := fun c b => B2 m ρ c b
theorem hF0 (c : Dev nD) (w : Fin cfg0.W) : (dat0 (T1 m ρ) c).arrAt w cfg0.N = T2 m ρ c (Pipeline.arrRef spec0 w) :=
  (B2_arr m ρ c w).symm
theorem hrest0 (c : Dev nD) : ∀ b, b ∉ Finset.univ.image (Pipeline.arrRef spec0) → T2 m ρ c b = T1 m ρ c b :=
  fun b hb => B2_of_ne m ρ c b fun w e => hb (Finset.mem_image.mpr ⟨w, Finset.mem_univ _, e⟩)

/-- After the second host stretch (region 1's entry). -/
abbrev B3 : Dev nD → Valuation τ sig (Elt F) := fun c => StableHlo.after hostOps1 (B2 m ρ c)
abbrev T3 : (c : Dev nD) → (b : Ref sig .tc) → Buf (Elt F) ((c : Thread nD τ).loc b) := fun c b => B3 m ρ c b

/-- At region 1's exit: its arrays at what the pipeline leaves (an input's as entered, an output's the fold of its
    write-backs), every other buffer as entered. -/
def B4 (c : Dev nD) : Valuation τ sig (Elt F) :=
  Pipeline.withArrays spec1 c (B3 m ρ c) fun w => (dat1 (T3 m ρ) c).arrAt w cfg1.N
theorem B4_arr (c : Dev nD) (w : Fin cfg1.W) :
    B4 m ρ c (Proc.devRef .tc (Pipeline.arrRef spec1 w)) = (dat1 (T3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
/-- The same read at the TensorCore's references. -/
abbrev T4 : (c : Dev nD) → (b : Ref sig .tc) → Buf (Elt F) ((c : Thread nD τ).loc b) := fun c b => B4 m ρ c b
theorem hF1 (c : Dev nD) (w : Fin cfg1.W) : (dat1 (T3 m ρ) c).arrAt w cfg1.N = T4 m ρ c (Pipeline.arrRef spec1 w) :=
  (B4_arr m ρ c w).symm
theorem hrest1 (c : Dev nD) : ∀ b, b ∉ Finset.univ.image (Pipeline.arrRef spec1) → T4 m ρ c b = T3 m ρ c b :=
  fun b hb => B4_of_ne m ρ c b fun w e => hb (Finset.mem_image.mpr ⟨w, Finset.mem_univ _, e⟩)

/-- After the third host stretch (region 2's entry). -/
abbrev B5 : Dev nD → Valuation τ sig (Elt F) := fun c => StableHlo.after hostOps2 (B4 m ρ c)
abbrev T5 : (c : Dev nD) → (b : Ref sig .tc) → Buf (Elt F) ((c : Thread nD τ).loc b) := fun c b => B5 m ρ c b

/-- At region 2's exit: its arrays at what the pipeline leaves (an input's as entered, an output's the fold of its
    write-backs), every other buffer as entered. -/
def B6 (c : Dev nD) : Valuation τ sig (Elt F) :=
  Pipeline.withArrays spec2 c (B5 m ρ c) fun w => (dat2 (T5 m ρ) c).arrAt w cfg2.N
theorem B6_arr (c : Dev nD) (w : Fin cfg2.W) :
    B6 m ρ c (Proc.devRef .tc (Pipeline.arrRef spec2 w)) = (dat2 (T5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
/-- The same read at the TensorCore's references. -/
abbrev T6 : (c : Dev nD) → (b : Ref sig .tc) → Buf (Elt F) ((c : Thread nD τ).loc b) := fun c b => B6 m ρ c b
theorem hF2 (c : Dev nD) (w : Fin cfg2.W) : (dat2 (T5 m ρ) c).arrAt w cfg2.N = T6 m ρ c (Pipeline.arrRef spec2 w) :=
  (B6_arr m ρ c w).symm
theorem hrest2 (c : Dev nD) : ∀ b, b ∉ Finset.univ.image (Pipeline.arrRef spec2) → T6 m ρ c b = T5 m ρ c b :=
  fun b hb => B6_of_ne m ρ c b fun w e => hb (Finset.mem_image.mpr ⟨w, Finset.mem_univ _, e⟩)

/-- After the last host stretch: what @main returns with. -/
abbrev B7 : Dev nD → Valuation τ sig (Elt F) := fun c => StableHlo.after hostOps3 (B6 m ρ c)

/-! ## No segment writes an argument array -/

/-- A buffer that no host stretch writes and that is no window's array holds its launch contents at the end. -/
theorem B7_kept (c : Dev nD) (b : Ref sig .tc)
    (h0 : b ∉ hostOps0_W) (h1 : b ∉ hostOps1_W) (h2 : b ∉ hostOps2_W) (h3 : b ∉ hostOps3_W)
    (w0 : ∀ w, Pipeline.arrRef spec0 w ≠ b) (w1 : ∀ w, Pipeline.arrRef spec1 w ≠ b) (w2 : ∀ w, Pipeline.arrRef spec2 w ≠ b) :
    B7 m ρ c (Proc.devRef .tc b) = m ((c : Thread nD τ).loc b) :=
  calc B7 m ρ c (Proc.devRef .tc b)
    _ = B6 m ρ c (Proc.devRef .tc b) := StableHlo.after_of_writes_sub hostOps3 _ hostOps3_writes h3
    _ = B5 m ρ c (Proc.devRef .tc b) := B6_of_ne m ρ c b w2
    _ = B4 m ρ c (Proc.devRef .tc b) := StableHlo.after_of_writes_sub hostOps2 _ hostOps2_writes h2
    _ = B3 m ρ c (Proc.devRef .tc b) := B4_of_ne m ρ c b w1
    _ = B2 m ρ c (Proc.devRef .tc b) := StableHlo.after_of_writes_sub hostOps1 _ hostOps1_writes h1
    _ = B1 m ρ c (Proc.devRef .tc b) := B2_of_ne m ρ c b w0
    _ = B0 m ρ c (Proc.devRef .tc b) := StableHlo.after_of_writes_sub hostOps0 _ hostOps0_writes h0
    _ = m ((c : Thread nD τ).loc b) := rfl

theorem B7_main_arg0 (c : Dev nD) : B7 m ρ c (Proc.devRef .tc main_arg0) = m ((c : Thread nD τ).loc main_arg0) :=
  B7_kept m ρ c main_arg0 (by decide) (by decide) (by decide) (by decide) (by decide) (by decide) (by decide)
theorem B7_main_arg1 (c : Dev nD) : B7 m ρ c (Proc.devRef .tc main_arg1) = m ((c : Thread nD τ).loc main_arg1) :=
  B7_kept m ρ c main_arg1 (by decide) (by decide) (by decide) (by decide) (by decide) (by decide) (by decide)
theorem B7_main_arg2 (c : Dev nD) : B7 m ρ c (Proc.devRef .tc main_arg2) = m ((c : Thread nD τ).loc main_arg2) :=
  B7_kept m ρ c main_arg2 (by decide) (by decide) (by decide) (by decide) (by decide) (by decide) (by decide)
theorem B7_main_arg3 (c : Dev nD) : B7 m ρ c (Proc.devRef .tc main_arg3) = m ((c : Thread nD τ).loc main_arg3) :=
  B7_kept m ρ c main_arg3 (by decide) (by decide) (by decide) (by decide) (by decide) (by decide) (by decide)
theorem B7_main_arg4 (c : Dev nD) : B7 m ρ c (Proc.devRef .tc main_arg4) = m ((c : Thread nD τ).loc main_arg4) :=
  B7_kept m ρ c main_arg4 (by decide) (by decide) (by decide) (by decide) (by decide) (by decide) (by decide)
theorem B7_main_arg5 (c : Dev nD) : B7 m ρ c (Proc.devRef .tc main_arg5) = m ((c : Thread nD τ).loc main_arg5) :=
  B7_kept m ρ c main_arg5 (by decide) (by decide) (by decide) (by decide) (by decide) (by decide) (by decide)
theorem B7_main_arg6 (c : Dev nD) : B7 m ρ c (Proc.devRef .tc main_arg6) = m ((c : Thread nD τ).loc main_arg6) :=
  B7_kept m ρ c main_arg6 (by decide) (by decide) (by decide) (by decide) (by decide) (by decide) (by decide)
theorem B7_main_arg7 (c : Dev nD) : B7 m ρ c (Proc.devRef .tc main_arg7) = m ((c : Thread nD τ).loc main_arg7) :=
  B7_kept m ρ c main_arg7 (by decide) (by decide) (by decide) (by decide) (by decide) (by decide) (by decide)
theorem B7_main_arg8 (c : Dev nD) : B7 m ρ c (Proc.devRef .tc main_arg8) = m ((c : Thread nD τ).loc main_arg8) :=
  B7_kept m ρ c main_arg8 (by decide) (by decide) (by decide) (by decide) (by decide) (by decide) (by decide)
theorem B7_main_arg9 (c : Dev nD) : B7 m ρ c (Proc.devRef .tc main_arg9) = m ((c : Thread nD τ).loc main_arg9) :=
  B7_kept m ρ c main_arg9 (by decide) (by decide) (by decide) (by decide) (by decide) (by decide) (by decide)
theorem B7_main_arg10 (c : Dev nD) : B7 m ρ c (Proc.devRef .tc main_arg10) = m ((c : Thread nD τ).loc main_arg10) :=
  B7_kept m ρ c main_arg10 (by decide) (by decide) (by decide) (by decide) (by decide) (by decide) (by decide)
theorem B7_main_arg11 (c : Dev nD) : B7 m ρ c (Proc.devRef .tc main_arg11) = m ((c : Thread nD τ).loc main_arg11) :=
  B7_kept m ρ c main_arg11 (by decide) (by decide) (by decide) (by decide) (by decide) (by decide) (by decide)
theorem B7_main_arg12 (c : Dev nD) : B7 m ρ c (Proc.devRef .tc main_arg12) = m ((c : Thread nD τ).loc main_arg12) :=
  B7_kept m ρ c main_arg12 (by decide) (by decide) (by decide) (by decide) (by decide) (by decide) (by decide)
theorem B7_main_arg13 (c : Dev nD) : B7 m ρ c (Proc.devRef .tc main_arg13) = m ((c : Thread nD τ).loc main_arg13) :=
  B7_kept m ρ c main_arg13 (by decide) (by decide) (by decide) (by decide) (by decide) (by decide) (by decide)
theorem B7_main_arg14 (c : Dev nD) : B7 m ρ c (Proc.devRef .tc main_arg14) = m ((c : Thread nD τ).loc main_arg14) :=
  B7_kept m ρ c main_arg14 (by decide) (by decide) (by decide) (by decide) (by decide) (by decide) (by decide)
theorem B7_main_arg15 (c : Dev nD) : B7 m ρ c (Proc.devRef .tc main_arg15) = m ((c : Thread nD τ).loc main_arg15) :=
  B7_kept m ρ c main_arg15 (by decide) (by decide) (by decide) (by decide) (by decide) (by decide) (by decide)
theorem B7_main_arg16 (c : Dev nD) : B7 m ρ c (Proc.devRef .tc main_arg16) = m ((c : Thread nD τ).loc main_arg16) :=
  B7_kept m ρ c main_arg16 (by decide) (by decide) (by decide) (by decide) (by decide) (by decide) (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (T1 m ρ) c
  | ⟨1, _⟩ => fun c => dat1 (T3 m ρ) c
  | ⟨2, _⟩ => fun c => dat2 (T5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (B7 m ρ c) ∗ ∃ r, prngReg c r)

/-! ## The regions as segments -/

set_option backward.isDefEq.respectTransparency.types false in
/-- Region 0 over the thread state: entered with every unscoped buffer at `B1`, left with them at `B2`.  Its arrays
    are split out of the unscoped buffers on entry and put back at what the pipeline leaves on exit; the generator
    register goes into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (T1 m ρ c) (T2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `B3`, left with them at `B4`.  Its arrays
    are split out of the unscoped buffers on entry and put back at what the pipeline leaves on exit; the generator
    register goes into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (T3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (T3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (T3 m ρ c) (T4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `B5`, left with them at `B6`.  Its arrays
    are split out of the unscoped buffers on entry and put back at what the pipeline leaves on exit; the generator
    register goes into the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (T5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (T5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (T5 m ρ c) (T6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)) ]
/-- @main is the run of the segments. -/
theorem main_run (c : Dev nD) : main (F := F) c = Pipeline.Seg.run (segs m ρ) :=
  main_segs adm (pdats m ρ) () 𝒱₀ L lv _ _ _ _ (reg0 m ρ) (reg1 m ρ) (reg2 m ρ) rfl rfl rfl rfl c

set_option backward.isDefEq.respectTransparency.types false in
/-- Every weakly fair execution of @main from memory `m` with zero counters terminates, nothing faulting, and every
    final memory holds each unscoped TensorCore buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (B7 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (B7_main_arg0 m ρ c),
     (h c _ (mem_uc main_arg1 (by decide))).trans (B7_main_arg1 m ρ c),
     (h c _ (mem_uc main_arg2 (by decide))).trans (B7_main_arg2 m ρ c),
     (h c _ (mem_uc main_arg3 (by decide))).trans (B7_main_arg3 m ρ c),
     (h c _ (mem_uc main_arg4 (by decide))).trans (B7_main_arg4 m ρ c),
     (h c _ (mem_uc main_arg5 (by decide))).trans (B7_main_arg5 m ρ c),
     (h c _ (mem_uc main_arg6 (by decide))).trans (B7_main_arg6 m ρ c),
     (h c _ (mem_uc main_arg7 (by decide))).trans (B7_main_arg7 m ρ c),
     (h c _ (mem_uc main_arg8 (by decide))).trans (B7_main_arg8 m ρ c),
     (h c _ (mem_uc main_arg9 (by decide))).trans (B7_main_arg9 m ρ c),
     (h c _ (mem_uc main_arg10 (by decide))).trans (B7_main_arg10 m ρ c),
     (h c _ (mem_uc main_arg11 (by decide))).trans (B7_main_arg11 m ρ c),
     (h c _ (mem_uc main_arg12 (by decide))).trans (B7_main_arg12 m ρ c),
     (h c _ (mem_uc main_arg13 (by decide))).trans (B7_main_arg13 m ρ c),
     (h c _ (mem_uc main_arg14 (by decide))).trans (B7_main_arg14 m ρ c),
     (h c _ (mem_uc main_arg15 (by decide))).trans (B7_main_arg15 m ρ c),
     (h c _ (mem_uc main_arg16 (by decide))).trans (B7_main_arg16 m ρ c)⟩) (run_all m ρ)

end Cert.KernelIdeal.Fr

end
-- ==== Proof.LibLstmCell.lean ====
/-
  One step of a stack of LSTM cells over the extended reals, written index by index over plain
  finite index types, independent of any program.

  A cell with hidden width 2048 has 8192 gate pre-activations, laid out as four consecutive
  groups of 2048: input gate, forget gate, candidate, output gate.  With pre-activations `a`
  and previous cell state `c`,
      c' n = σ(a (2048 + n)) · c n + σ(a n) · tanh(a (4096 + n)),
      h' n = σ(a (6144 + n)) · tanh(c' n),
  where σ is the logistic function.  The pre-activation of gate row `p` is
      ((xw p + Σ_q h q · W p q) + b1 p) + b2 p,
  `xw p` being the layer input's contribution.  Addition on the extended reals is commutative and
  associative, so the same value is reached when the two biases are added together first, or when
  the input's contribution and the biases are folded into one bias first: `pre_bias_first`,
  `pre_folded`.  No finiteness is needed for either.
-/
import Idealize.ShloMosaic.PureOps.Ideal
import Idealize.ShloMosaic.Lib.ValueIdx
import Mathlib.Algebra.BigOperators.Fin

noncomputable section

namespace LstmCell

open Idealize.ShloMosaic

/-- Row `g * 2048 + n` of the 8192 gate rows: unit `n` of gate group `g`. -/
def row (g : Fin 4) (n : Fin 2048) : Fin 8192 := ⟨g.val * 2048 + n.val, by have := g.isLt; have := n.isLt; omega⟩

/-- The recurrent product of one gate row: Σ_q h q · W p q. -/
def dotRow (h : Fin 2048 → EReal) (W : Fin 8192 → Fin 2048 → EReal) (p : Fin 8192) : EReal :=
  ∑ q : Fin 2048, h q * W p q

/-- The gate pre-activation in the order a plain reference adds it up. -/
def pre (xw : Fin 8192 → EReal) (h : Fin 2048 → EReal) (W : Fin 8192 → Fin 2048 → EReal)
    (b1 b2 : Fin 8192 → EReal) (p : Fin 8192) : EReal :=
  ((xw p + dotRow h W p) + b1 p) + b2 p

/-- The two biases added together first. -/
theorem pre_bias_first (xw : Fin 8192 → EReal) (h : Fin 2048 → EReal) (W : Fin 8192 → Fin 2048 → EReal)
    (b1 b2 : Fin 8192 → EReal) (p : Fin 8192) :
    (xw p + dotRow h W p) + (b1 p + b2 p) = pre xw h W b1 b2 p := by
  unfold pre; rw [add_assoc (xw p + dotRow h W p)]

/-- The input's contribution and both biases folded into one bias, added after the recurrent product. -/
theorem pre_folded (xw : Fin 8192 → EReal) (h : Fin 2048 → EReal) (W : Fin 8192 → Fin 2048 → EReal)
    (b1 b2 : Fin 8192 → EReal) (p : Fin 8192) :
    dotRow h W p + ((xw p + b1 p) + b2 p) = pre xw h W b1 b2 p := by
  unfold pre
  rw [add_comm (xw p) (dotRow h W p), add_assoc (dotRow h W p), add_assoc (dotRow h W p), add_assoc (xw p)]

/-- The new cell state of unit `n`. -/
def cNew (a : Fin 8192 → EReal) (c : Fin 2048 → EReal) (n : Fin 2048) : EReal :=
  Ideal.logistic (a (row 1 n)) * c n + Ideal.logistic (a (row 0 n)) * Ideal.tanh (a (row 2 n))

/-- The new hidden state of unit `n`. -/
def hNew (a : Fin 8192 → EReal) (c : Fin 2048 → EReal) (n : Fin 2048) : EReal :=
  Ideal.logistic (a (row 3 n)) * Ideal.tanh (cNew a c n)

/-- The input contribution of a layer fed by a vector: Σ_q x q · Wih p q. -/
def inVec (x : Fin 2048 → EReal) (Wih : Fin 8192 → Fin 2048 → EReal) (p : Fin 8192) : EReal :=
  ∑ q : Fin 2048, x q * Wih p q

/-- The input contribution of a layer fed by one number. -/
def inScalar (x : EReal) (w : Fin 8192 → EReal) (p : Fin 8192) : EReal := x * w p

/-! ## Three stacked cells fed by one number, and a linear read-out of the top hidden state -/

/-- The seventeen argument arrays, as functions of plain indices. -/
structure Args where
  x : EReal
  hid : Fin 3 → Fin 2048 → EReal
  cel : Fin 3 → Fin 2048 → EReal
  w0 : Fin 8192 → EReal
  Whh0 : Fin 8192 → Fin 2048 → EReal
  bih0 : Fin 8192 → EReal
  bhh0 : Fin 8192 → EReal
  Wih1 : Fin 8192 → Fin 2048 → EReal
  Whh1 : Fin 8192 → Fin 2048 → EReal
  bih1 : Fin 8192 → EReal
  bhh1 : Fin 8192 → EReal
  Wih2 : Fin 8192 → Fin 2048 → EReal
  Whh2 : Fin 8192 → Fin 2048 → EReal
  bih2 : Fin 8192 → EReal
  bhh2 : Fin 8192 → EReal
  Wout : Fin 2048 → EReal
  bout : EReal

open Idealize.ShloMosaic.ValueIdx in
/-- The argument arrays of the programs, read at plain indices. -/
def Args.ofVecs
    (a0 : (⟨1, ![1]⟩ : Shape).Idx → EReal)
    (a1 a2 : (⟨3, ![3, 1, 2048]⟩ : Shape).Idx → EReal)
    (a3 : (⟨2, ![8192, 1]⟩ : Shape).Idx → EReal)
    (a4 : (⟨2, ![8192, 2048]⟩ : Shape).Idx → EReal)
    (a5 a6 : (⟨1, ![8192]⟩ : Shape).Idx → EReal)
    (a7 a8 : (⟨2, ![8192, 2048]⟩ : Shape).Idx → EReal)
    (a9 a10 : (⟨1, ![8192]⟩ : Shape).Idx → EReal)
    (a11 a12 : (⟨2, ![8192, 2048]⟩ : Shape).Idx → EReal)
    (a13 a14 : (⟨1, ![8192]⟩ : Shape).Idx → EReal)
    (a15 : (⟨2, ![1, 2048]⟩ : Shape).Idx → EReal)
    (a16 : (⟨1, ![1]⟩ : Shape).Idx → EReal) : Args where
  x := a0 (ix1 0)
  hid := fun l n => a1 (ix3 l 0 n)
  cel := fun l n => a2 (ix3 l 0 n)
  w0 := fun p => a3 (ix2 p 0)
  Whh0 := fun p q => a4 (ix2 p q)
  bih0 := fun p => a5 (ix1 p)
  bhh0 := fun p => a6 (ix1 p)
  Wih1 := fun p q => a7 (ix2 p q)
  Whh1 := fun p q => a8 (ix2 p q)
  bih1 := fun p => a9 (ix1 p)
  bhh1 := fun p => a10 (ix1 p)
  Wih2 := fun p q => a11 (ix2 p q)
  Whh2 := fun p q => a12 (ix2 p q)
  bih2 := fun p => a13 (ix1 p)
  bhh2 := fun p => a14 (ix1 p)
  Wout := fun q => a15 (ix2 0 q)
  bout := a16 (ix1 0)

/-- Gate pre-activations of the three layers. -/
def A0 (A : Args) : Fin 8192 → EReal := pre (inScalar A.x A.w0) (A.hid 0) A.Whh0 A.bih0 A.bhh0
/-- New cell and hidden state of layer 0. -/
def C0 (A : Args) : Fin 2048 → EReal := cNew (A0 A) (A.cel 0)
def H0 (A : Args) : Fin 2048 → EReal := hNew (A0 A) (A.cel 0)
def A1 (A : Args) : Fin 8192 → EReal := pre (inVec (H0 A) A.Wih1) (A.hid 1) A.Whh1 A.bih1 A.bhh1
def C1 (A : Args) : Fin 2048 → EReal := cNew (A1 A) (A.cel 1)
def H1 (A : Args) : Fin 2048 → EReal := hNew (A1 A) (A.cel 1)
def A2 (A : Args) : Fin 8192 → EReal := pre (inVec (H1 A) A.Wih2) (A.hid 2) A.Whh2 A.bih2 A.bhh2
def C2 (A : Args) : Fin 2048 → EReal := cNew (A2 A) (A.cel 2)
def H2 (A : Args) : Fin 2048 → EReal := hNew (A2 A) (A.cel 2)
/-- The read-out: Σ_q H2 q · Wout q + bout. -/
def Y (A : Args) : EReal := (∑ q : Fin 2048, H2 A q * A.Wout q) + A.bout

/-- The three results as arrays: the read-out [1,1,1], the hidden states [3,1,2048], the cell states [3,1,2048]. -/
def yArr (A : Args) : (⟨3, ![1, 1, 1]⟩ : Shape).Idx → EReal := fun _ => Y A
def hArr (A : Args) : (⟨3, ![3, 1, 2048]⟩ : Shape).Idx → EReal := fun j =>
  if (j 0).val = 0 then H0 A (j 2) else if (j 0).val = 1 then H1 A (j 2) else H2 A (j 2)
def cArr (A : Args) : (⟨3, ![3, 1, 2048]⟩ : Shape).Idx → EReal := fun j =>
  if (j 0).val = 0 then C0 A (j 2) else if (j 0).val = 1 then C1 A (j 2) else C2 A (j 2)

end LstmCell

end
-- ==== Proof.KI.Args.lean ====
/-
  The idealized kernel program's seventeen argument arrays, read at plain indices.
-/
import proofs.«142598_j64742337019981_2_alg».proof.Proof.KI.Run
import proofs.«142598_j64742337019981_2_alg».proof.Proof.LibLstmCell

noncomputable section

namespace Cert.KernelIdeal.Fr

open Cert.KernelIdeal Cert.KernelIdeal.Gen
open Idealize.ShloMosaic Idealize.ShloMosaic.TcCoe Idealize.SL Idealize.SL.Sem

/-- The argument arrays on core `c` of a launch memory, as the cell stack's arguments. -/
def argsOf (m : (ℓ : Loc nD τ sig) → Buf (Elt Ideal) ℓ) (c : Dev nD) : LstmCell.Args :=
  LstmCell.Args.ofVecs
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16))

end Cert.KernelIdeal.Fr

end
-- ==== Proof.KI.HostLayout.lean ====
/-
  Layout operations a host program applies around a stack of recurrent cells, each read at an index given by its
  coordinates.

  • A one-element vector reshaped to a scalar is the vector's element.
  • A vector of length `n = A·B` reshaped to `[A, B]` reads, at `(a, b)`, the vector at `a·B + b`.
  • An `[n, C]` matrix (`n = A·B`) reshaped to `[A, B, C]` reads, at `(a, b, c)`, the matrix at `(a·B + b, c)`.
  • The unit slice at offset `l` along axis 0 of an `[L, 1, n]` stack, reshaped to `[1, n]`, reads, at `(·, q)`, the
    stack at `(l, 0, q)`.
  All are the row-major position spelt in two ways, stated over coordinates of literal `Fin` types so that they apply to
  a printed operation by unification.
-/
import proofs.«142598_j64742337019981_2_alg».proof.Proof.LibLeadAxes
import Idealize.ShloMosaic.Lib.Pipeline.Value
import Idealize.ShloMosaic.Lib.ValueIdx

namespace Cert.HostLayout

open Idealize.ShloMosaic Idealize.ShloMosaic.ValueIdx

variable {α : Type}

/-- A one-element vector reshaped to a scalar: the vector's element. -/
theorem scalar_of_one_apply (x : (⟨1, ![1]⟩ : Shape).Idx → α) (h : (⟨1, ![1]⟩ : Shape).ShapeCasts ⟨0, ![]⟩)
    (j : (⟨0, ![]⟩ : Shape).Idx) : shapeCast ⟨0, ![]⟩ x h j = x (ix1 0) :=
  shapeCast_apply x h j (ix1 0) (by
    rw [Shape.rowMajor_val_one]
    exact (Shape.rowMajorPi_zero _ _).symm)

/-- A vector of length `n` reshaped to `[A, B]` (`n = A·B`): at `(a, b)` it is the vector at `R = a·B + b`. -/
theorem vec_split_apply {A B n : ℕ} (x : (⟨1, ![n]⟩ : Shape).Idx → α)
    (h : (⟨1, ![n]⟩ : Shape).ShapeCasts ⟨2, ![A, B]⟩) (a : Fin A) (b : Fin B) (R : Fin n)
    (hR : R.val = a.val * B + b.val) : shapeCast ⟨2, ![A, B]⟩ x h (ix2 a b) = x (ix1 R) :=
  shapeCast_apply x h _ _ (by
    rw [Shape.rowMajor_val_one, Shape.rowMajor_val_two]
    exact hR)

/-- An `[n, C]` matrix reshaped to `[A, B, C]` (`n = A·B`): at `(a, b, c)` it is the matrix at `(R, c)`, `R = a·B + b`. -/
theorem mat_split_apply {A B C n : ℕ} (x : (⟨2, ![n, C]⟩ : Shape).Idx → α)
    (h : (⟨2, ![n, C]⟩ : Shape).ShapeCasts ⟨3, ![A, B, C]⟩) (a : Fin A) (b : Fin B) (c : Fin C) (R : Fin n)
    (hR : R.val = a.val * B + b.val) : shapeCast ⟨3, ![A, B, C]⟩ x h (ix3 a b c) = x (ix2 R c) :=
  LeadAxes.shapeCast_split_apply x h a b c R hR

/-- A `[1, 1, n]` array with one unit axis dropped: at `(z, q)` it is the array at `(0, 0, q)`. -/
theorem dropUnit3_apply {n : ℕ} (x : (⟨3, ![1, 1, n]⟩ : Shape).Idx → α)
    (h : (⟨3, ![1, 1, n]⟩ : Shape).ShapeCasts ⟨2, ![1, n]⟩) (z : Fin 1) (q : Fin n) :
    shapeCast ⟨2, ![1, n]⟩ x h (ix2 z q) = x (ix3 0 0 q) :=
  shapeCast_apply x h _ _ (by
    rw [Shape.rowMajor_val_three, Shape.rowMajor_val_two]
    show ((0 : Fin 1).val * 1 + (0 : Fin 1).val) * n + q.val = z.val * n + q.val
    have hz : z.val = 0 := by have := z.isLt; omega
    rw [hz]; simp)

/-- The unit slice at offset `o` along axis 0 of an `[L, 1, n]` stack, with one unit axis dropped: at `(z, q)` it is
    the stack at `(l, 0, q)`, `l = o`. -/
theorem sliceRow_apply {L n : ℕ} (o : ℕ) (X : (⟨3, ![L, 1, n]⟩ : Shape).Idx → α)
    (hs : (⟨3, ![L, 1, n]⟩ : Shape).Slices ![o, 0, 0] ⟨3, ![1, 1, n]⟩)
    (hc : (⟨3, ![1, 1, n]⟩ : Shape).ShapeCasts ⟨2, ![1, n]⟩) (l : Fin L) (hl : l.val = o) (z : Fin 1) (q : Fin n) :
    shapeCast ⟨2, ![1, n]⟩ (extractStridedSlice ⟨3, ![1, 1, n]⟩ ![o, 0, 0] X hs) hc (ix2 z q) = X (ix3 l 0 q) :=
  (dropUnit3_apply _ hc z q).trans
    (LeadAxes.slice3_axis0_apply o X hs 0 0 q l (by rw [hl]; simp))

end Cert.HostLayout
-- ==== Proof.LibFactorLayout.lean ====
/-
  Layout operations between a vector of length n, an [n, 1] column, a [1, n] row, an [n, 4] stack of four columns, a
  [4, n] stack of four rows and an [m, n] array, each read at an index given by its coordinates.

  A reshape [n, 1] → [n] keeps position r; a broadcast [n] → [n, 1] or [n] → [1, n] reads the vector at the long
  coordinate; a concatenation of four [n, 1] columns along axis 1 (of four [1, n] rows along axis 0) reads piece k at
  the same long coordinate; a unit-width slice of an [n, 4] ([4, n]) array at offset k reads column (row) k; a
  broadcast of an [m, 1] column (a [1, n] row) to [m, n] reads the column at the row coordinate (the row at the column
  coordinate).
-/
import Idealize.ShloMosaic.Lib.Pipeline.Value
import Idealize.ShloMosaic.Lib.ValueIdx

namespace Cert.LibFactorLayout

open Idealize.ShloMosaic Idealize.ShloMosaic.ValueIdx

variable {α : Type}

/-- A reshape [n, 1] → [n] read at r is the operand at (r, 0). -/
theorem reshape_at {n : Nat} (x : (⟨2, ![n, 1]⟩ : Shape).Idx → α) (h : (⟨2, ![n, 1]⟩ : Shape).ShapeCasts ⟨1, ![n]⟩) (r : Fin n) :
    shapeCast (⟨1, ![n]⟩ : Shape) x h (ix1 r) = x (ix2 r 0) :=
  shapeCast_apply x h (ix1 r) (ix2 r 0)
    (by rw [Shape.rowMajor_val_two, Shape.rowMajor_val_one]; show r.val * 1 + 0 = r.val; omega)

/-- A scalar broadcast to a vector, read anywhere, is the scalar. -/
theorem splat_at {n : Nat} (s : (⟨0, ![]⟩ : Shape).Idx → α) (h : (⟨0, ![]⟩ : Shape).BroadcastsInDim ⟨1, ![n]⟩ (![] : Fin 0 → Fin 1))
    (i : (⟨1, ![n]⟩ : Shape).Idx) :
    broadcastInDim (⟨1, ![n]⟩ : Shape) ![] h s i = s (fun a => a.elim0) :=
  broadcastInDim_apply _ h s i (fun a => a.elim0) (fun a => a.elim0)

/-- A vector laid out as an [n, 1] column, read at (r, ·), is the vector at r. -/
theorem asCol_at {n : Nat} (hn : n ≠ 1) (v : (⟨1, ![n]⟩ : Shape).Idx → α)
    (h : (⟨1, ![n]⟩ : Shape).BroadcastsInDim ⟨2, ![n, 1]⟩ (![0] : Fin 1 → Fin 2)) (r : Fin n) (z : Fin 1) :
    broadcastInDim (⟨2, ![n, 1]⟩ : Shape) ![0] h v (ix2 r z) = v (ix1 r) :=
  broadcastInDim_apply _ h v (ix2 r z) (ix1 r) (fun a => match a with
    | ⟨0, _⟩ => by show r.val = if n = 1 then 0 else r.val; rw [if_neg hn])

/-- A vector laid out as a [1, n] row, read at (·, q), is the vector at q. -/
theorem asRow_at {n : Nat} (hn : n ≠ 1) (v : (⟨1, ![n]⟩ : Shape).Idx → α)
    (h : (⟨1, ![n]⟩ : Shape).BroadcastsInDim ⟨2, ![1, n]⟩ (![1] : Fin 1 → Fin 2)) (z : Fin 1) (q : Fin n) :
    broadcastInDim (⟨2, ![1, n]⟩ : Shape) ![1] h v (ix2 z q) = v (ix1 q) :=
  broadcastInDim_apply _ h v (ix2 z q) (ix1 q) (fun a => match a with
    | ⟨0, _⟩ => by show q.val = if n = 1 then 0 else q.val; rw [if_neg hn])

/-- Four [n, 1] columns stacked side by side: column k of the stack at row r is piece k at (r, 0). -/
theorem stackCols_at {n : Nat} (u0 u1 u2 u3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (r : Fin n) (k : Fin 4) :
    concatenate (⟨2, ![n, 4]⟩ : Shape) 1 [⟨⟨2, ![n, 1]⟩, u0⟩, ⟨⟨2, ![n, 1]⟩, u1⟩, ⟨⟨2, ![n, 1]⟩, u2⟩, ⟨⟨2, ![n, 1]⟩, u3⟩] h (ix2 r k)
      = (![u0, u1, u2, u3] k) (ix2 r 0) := by
  have hi : ∀ b : Fin 2, b.cast (rfl : (2 : Nat) = 2) ≠ (1 : Fin 2) → ((ix2 r (0 : Fin 1)) b).val = ((ix2 r k) (b.cast rfl)).val := fun b hb =>
    match b, hb with
    | ⟨0, _⟩, _ => rfl
    | ⟨1, _⟩, hb => absurd rfl hb
  let xs : List ((s : Shape) × (s.Idx → α)) := [⟨⟨2, ![n, 1]⟩, u0⟩, ⟨⟨2, ![n, 1]⟩, u1⟩, ⟨⟨2, ![n, 1]⟩, u2⟩, ⟨⟨2, ![n, 1]⟩, u3⟩]
  match k with
  | ⟨0, _⟩ => exact concatenate_apply_piece 1 xs h (ix2 r 0) 0 (by show (0 : Nat) < 4; omega) ⟨2, ![n, 1]⟩ u0 rfl rfl 0 rfl (ix2 r 0) hi rfl
  | ⟨1, _⟩ => exact concatenate_apply_piece 1 xs h (ix2 r 1) 1 (by show (1 : Nat) < 4; omega) ⟨2, ![n, 1]⟩ u1 rfl rfl 1 rfl (ix2 r 0) hi rfl
  | ⟨2, _⟩ => exact concatenate_apply_piece 1 xs h (ix2 r 2) 2 (by show (2 : Nat) < 4; omega) ⟨2, ![n, 1]⟩ u2 rfl rfl 2 rfl (ix2 r 0) hi rfl
  | ⟨3, _⟩ => exact concatenate_apply_piece 1 xs h (ix2 r 3) 3 (by show (3 : Nat) < 4; omega) ⟨2, ![n, 1]⟩ u3 rfl rfl 3 rfl (ix2 r 0) hi rfl

/-- Four [1, n] rows stacked one above the other: row k of the stack at column q is piece k at (0, q). -/
theorem stackRows_at {n : Nat} (u0 u1 u2 u3 : (⟨2, ![1, n]⟩ : Shape).Idx → α)
    (h : Shape.Concatenates [(⟨2, ![1, n]⟩ : Shape), ⟨2, ![1, n]⟩, ⟨2, ![1, n]⟩, ⟨2, ![1, n]⟩] ⟨2, ![4, n]⟩ 0) (k : Fin 4) (q : Fin n) :
    concatenate (⟨2, ![4, n]⟩ : Shape) 0 [⟨⟨2, ![1, n]⟩, u0⟩, ⟨⟨2, ![1, n]⟩, u1⟩, ⟨⟨2, ![1, n]⟩, u2⟩, ⟨⟨2, ![1, n]⟩, u3⟩] h (ix2 k q)
      = (![u0, u1, u2, u3] k) (ix2 0 q) := by
  have hi : ∀ b : Fin 2, b.cast (rfl : (2 : Nat) = 2) ≠ (0 : Fin 2) → ((ix2 (0 : Fin 1) q) b).val = ((ix2 k q) (b.cast rfl)).val := fun b hb =>
    match b, hb with
    | ⟨0, _⟩, hb => absurd rfl hb
    | ⟨1, _⟩, _ => rfl
  let xs : List ((s : Shape) × (s.Idx → α)) := [⟨⟨2, ![1, n]⟩, u0⟩, ⟨⟨2, ![1, n]⟩, u1⟩, ⟨⟨2, ![1, n]⟩, u2⟩, ⟨⟨2, ![1, n]⟩, u3⟩]
  match k with
  | ⟨0, _⟩ => exact concatenate_apply_piece 0 xs h (ix2 0 q) 0 (by show (0 : Nat) < 4; omega) ⟨2, ![1, n]⟩ u0 rfl rfl 0 rfl (ix2 0 q) hi rfl
  | ⟨1, _⟩ => exact concatenate_apply_piece 0 xs h (ix2 1 q) 1 (by show (1 : Nat) < 4; omega) ⟨2, ![1, n]⟩ u1 rfl rfl 1 rfl (ix2 0 q) hi rfl
  | ⟨2, _⟩ => exact concatenate_apply_piece 0 xs h (ix2 2 q) 2 (by show (2 : Nat) < 4; omega) ⟨2, ![1, n]⟩ u2 rfl rfl 2 rfl (ix2 0 q) hi rfl
  | ⟨3, _⟩ => exact concatenate_apply_piece 0 xs h (ix2 3 q) 3 (by show (3 : Nat) < 4; omega) ⟨2, ![1, n]⟩ u3 rfl rfl 3 rfl (ix2 0 q) hi rfl

theorem stackCols_at0 {n : Nat} (u0 u1 u2 u3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (r : Fin n) :
    concatenate (⟨2, ![n, 4]⟩ : Shape) 1 [⟨⟨2, ![n, 1]⟩, u0⟩, ⟨⟨2, ![n, 1]⟩, u1⟩, ⟨⟨2, ![n, 1]⟩, u2⟩, ⟨⟨2, ![n, 1]⟩, u3⟩] h (ix2 r 0)
      = u0 (ix2 r 0) := stackCols_at u0 u1 u2 u3 h r 0
theorem stackRows_at0 {n : Nat} (u0 u1 u2 u3 : (⟨2, ![1, n]⟩ : Shape).Idx → α)
    (h : Shape.Concatenates [(⟨2, ![1, n]⟩ : Shape), ⟨2, ![1, n]⟩, ⟨2, ![1, n]⟩, ⟨2, ![1, n]⟩] ⟨2, ![4, n]⟩ 0) (q : Fin n) :
    concatenate (⟨2, ![4, n]⟩ : Shape) 0 [⟨⟨2, ![1, n]⟩, u0⟩, ⟨⟨2, ![1, n]⟩, u1⟩, ⟨⟨2, ![1, n]⟩, u2⟩, ⟨⟨2, ![1, n]⟩, u3⟩] h (ix2 0 q)
      = u0 (ix2 0 q) := stackRows_at u0 u1 u2 u3 h 0 q
theorem stackCols_at1 {n : Nat} (u0 u1 u2 u3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (r : Fin n) :
    concatenate (⟨2, ![n, 4]⟩ : Shape) 1 [⟨⟨2, ![n, 1]⟩, u0⟩, ⟨⟨2, ![n, 1]⟩, u1⟩, ⟨⟨2, ![n, 1]⟩, u2⟩, ⟨⟨2, ![n, 1]⟩, u3⟩] h (ix2 r 1)
      = u1 (ix2 r 0) := stackCols_at u0 u1 u2 u3 h r 1
theorem stackRows_at1 {n : Nat} (u0 u1 u2 u3 : (⟨2, ![1, n]⟩ : Shape).Idx → α)
    (h : Shape.Concatenates [(⟨2, ![1, n]⟩ : Shape), ⟨2, ![1, n]⟩, ⟨2, ![1, n]⟩, ⟨2, ![1, n]⟩] ⟨2, ![4, n]⟩ 0) (q : Fin n) :
    concatenate (⟨2, ![4, n]⟩ : Shape) 0 [⟨⟨2, ![1, n]⟩, u0⟩, ⟨⟨2, ![1, n]⟩, u1⟩, ⟨⟨2, ![1, n]⟩, u2⟩, ⟨⟨2, ![1, n]⟩, u3⟩] h (ix2 1 q)
      = u1 (ix2 0 q) := stackRows_at u0 u1 u2 u3 h 1 q
theorem stackCols_at2 {n : Nat} (u0 u1 u2 u3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (r : Fin n) :
    concatenate (⟨2, ![n, 4]⟩ : Shape) 1 [⟨⟨2, ![n, 1]⟩, u0⟩, ⟨⟨2, ![n, 1]⟩, u1⟩, ⟨⟨2, ![n, 1]⟩, u2⟩, ⟨⟨2, ![n, 1]⟩, u3⟩] h (ix2 r 2)
      = u2 (ix2 r 0) := stackCols_at u0 u1 u2 u3 h r 2
theorem stackRows_at2 {n : Nat} (u0 u1 u2 u3 : (⟨2, ![1, n]⟩ : Shape).Idx → α)
    (h : Shape.Concatenates [(⟨2, ![1, n]⟩ : Shape), ⟨2, ![1, n]⟩, ⟨2, ![1, n]⟩, ⟨2, ![1, n]⟩] ⟨2, ![4, n]⟩ 0) (q : Fin n) :
    concatenate (⟨2, ![4, n]⟩ : Shape) 0 [⟨⟨2, ![1, n]⟩, u0⟩, ⟨⟨2, ![1, n]⟩, u1⟩, ⟨⟨2, ![1, n]⟩, u2⟩, ⟨⟨2, ![1, n]⟩, u3⟩] h (ix2 2 q)
      = u2 (ix2 0 q) := stackRows_at u0 u1 u2 u3 h 2 q
theorem stackCols_at3 {n : Nat} (u0 u1 u2 u3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (r : Fin n) :
    concatenate (⟨2, ![n, 4]⟩ : Shape) 1 [⟨⟨2, ![n, 1]⟩, u0⟩, ⟨⟨2, ![n, 1]⟩, u1⟩, ⟨⟨2, ![n, 1]⟩, u2⟩, ⟨⟨2, ![n, 1]⟩, u3⟩] h (ix2 r 3)
      = u3 (ix2 r 0) := stackCols_at u0 u1 u2 u3 h r 3
theorem stackRows_at3 {n : Nat} (u0 u1 u2 u3 : (⟨2, ![1, n]⟩ : Shape).Idx → α)
    (h : Shape.Concatenates [(⟨2, ![1, n]⟩ : Shape), ⟨2, ![1, n]⟩, ⟨2, ![1, n]⟩, ⟨2, ![1, n]⟩] ⟨2, ![4, n]⟩ 0) (q : Fin n) :
    concatenate (⟨2, ![4, n]⟩ : Shape) 0 [⟨⟨2, ![1, n]⟩, u0⟩, ⟨⟨2, ![1, n]⟩, u1⟩, ⟨⟨2, ![1, n]⟩, u2⟩, ⟨⟨2, ![1, n]⟩, u3⟩] h (ix2 3 q)
      = u3 (ix2 0 q) := stackRows_at u0 u1 u2 u3 h 3 q

/-- The unit-width slice of an [m, 4] array at column offset k, read at (a, ·), is the array at (a, k). -/
theorem sliceCol_at {m : Nat} (k : Fin 4) (x : (⟨2, ![m, 4]⟩ : Shape).Idx → α)
    (h : (⟨2, ![m, 4]⟩ : Shape).Slices ![0, k.val] ⟨2, ![m, 1]⟩) (a : Fin m) (z : Fin 1) :
    extractStridedSlice (⟨2, ![m, 1]⟩ : Shape) ![0, k.val] x h (ix2 a z) = x (ix2 a k) :=
  extractStridedSlice_apply _ x h (ix2 a z) (ix2 a k) (fun b => match b with
    | ⟨0, _⟩ => by show a.val = 0 + a.val; omega
    | ⟨1, _⟩ => by show k.val = k.val + z.val; omega)

/-- The unit-height slice of a [4, n] array at row offset k, read at (·, b), is the array at (k, b). -/
theorem sliceRow_at {n : Nat} (k : Fin 4) (x : (⟨2, ![4, n]⟩ : Shape).Idx → α)
    (h : (⟨2, ![4, n]⟩ : Shape).Slices ![k.val, 0] ⟨2, ![1, n]⟩) (z : Fin 1) (b : Fin n) :
    extractStridedSlice (⟨2, ![1, n]⟩ : Shape) ![k.val, 0] x h (ix2 z b) = x (ix2 k b) :=
  extractStridedSlice_apply _ x h (ix2 z b) (ix2 k b) (fun c => match c with
    | ⟨0, _⟩ => by show k.val = k.val + z.val; omega
    | ⟨1, _⟩ => by show b.val = 0 + b.val; omega)

/-- An [m, 1] column broadcast to [m, n], read at (a, b), is the column at (a, 0). -/
theorem spreadCol_at {m n : Nat} (hm : m ≠ 1) (v : (⟨2, ![m, 1]⟩ : Shape).Idx → α)
    (h : (⟨2, ![m, 1]⟩ : Shape).Broadcasts ⟨2, ![m, n]⟩) (a : Fin m) (b : Fin n) :
    broadcastTo (⟨2, ![m, n]⟩ : Shape) v h (ix2 a b) = v (ix2 a 0) :=
  broadcastTo_apply v h (ix2 a b) (ix2 a 0) (fun c => match c with
    | ⟨0, _⟩ => by show a.val = if m = 1 then 0 else a.val; rw [if_neg hm]
    | ⟨1, _⟩ => by show (0 : Nat) = if (1 : Nat) = 1 then 0 else b.val; rw [if_pos rfl])

/-- A [1, n] row broadcast to [m, n], read at (a, b), is the row at (0, b). -/
theorem spreadRow_at {m n : Nat} (hn : n ≠ 1) (v : (⟨2, ![1, n]⟩ : Shape).Idx → α)
    (h : (⟨2, ![1, n]⟩ : Shape).Broadcasts ⟨2, ![m, n]⟩) (a : Fin m) (b : Fin n) :
    broadcastTo (⟨2, ![m, n]⟩ : Shape) v h (ix2 a b) = v (ix2 0 b) :=
  broadcastTo_apply v h (ix2 a b) (ix2 0 b) (fun c => match c with
    | ⟨0, _⟩ => by show (0 : Nat) = if (1 : Nat) = 1 then 0 else a.val; rw [if_pos rfl]
    | ⟨1, _⟩ => by show b.val = if n = 1 then 0 else b.val; rw [if_neg hn])

end Cert.LibFactorLayout
-- ==== Proof.KI.Host0.lean ====
/-
  The first host stretch of the idealized kernel program, read at an index: the layer-0 hidden and cell rows sliced out
  of the stacked states, the recurrent weights regrouped by gate, and the folded bias x·w0 + bih0 + bhh0 regrouped by
  gate — each the corresponding argument of the cell stack at plain coordinates.
-/
import proofs.«142598_j64742337019981_2_alg».proof.Proof.KI.Run
import proofs.«142598_j64742337019981_2_alg».proof.Proof.KI.Args
import proofs.«142598_j64742337019981_2_alg».proof.Proof.KI.HostLayout
import proofs.«142598_j64742337019981_2_alg».proof.Proof.LibLstmCell
import proofs.«142598_j64742337019981_2_alg».proof.Proof.LibFactorLayout
import Idealize.ShloMosaic.Lib.StableHlo.Run
import Idealize.ShloMosaic.Lib.ValueIdx
import Idealize.ShloMosaic.Lib.ValueLayout
import Idealize.ShloMosaic.Lib.Pipeline.Value

set_option maxRecDepth 16384
noncomputable section
namespace Cert.KernelIdeal.Fr
open Cert.KernelIdeal Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

/-! ## The buffers the stretch writes, as layout operations on the argument arrays -/

theorem v8_eq (c : Dev nD) : (T1 m ρ c main_v8 : S1x2048.Idx → EReal) =
    shapeCast S1x2048 (extractStridedSlice S1x1x2048 ![0, 0, 0] (m ((c : Thread nD τ).loc main_arg1)) slices_S3x1x2048_S1x1x2048_0_0_0) shapeCasts_S1x1x2048_S1x2048 := by
  show StableHlo.after hostOps0 (B0 m ρ c) (Proc.devRef .tc main_v8) = _
  after_results
  rfl

theorem v10_eq (c : Dev nD) : (T1 m ρ c main_v10 : S1x2048.Idx → EReal) =
    shapeCast S1x2048 (extractStridedSlice S1x1x2048 ![0, 0, 0] (m ((c : Thread nD τ).loc main_arg2)) slices_S3x1x2048_S1x1x2048_0_0_0) shapeCasts_S1x1x2048_S1x2048 := by
  show StableHlo.after hostOps0 (B0 m ρ c) (Proc.devRef .tc main_v10) = _
  after_results
  rfl

theorem v11_eq (c : Dev nD) : (T1 m ρ c main_v11 : S4x2048x2048.Idx → EReal) =
    shapeCast S4x2048x2048 (m ((c : Thread nD τ).loc main_arg4)) shapeCasts_S8192x2048_S4x2048x2048 := by
  show StableHlo.after hostOps0 (B0 m ρ c) (Proc.devRef .tc main_v11) = _
  after_results
  rfl

theorem v6_eq (c : Dev nD) : (T1 m ρ c main_v6 : S4x2048.Idx → EReal) =
    shapeCast S4x2048
      (addf (F := Ideal) (s := S8192) (φ := .f32) (addf (F := Ideal) (s := S8192) (φ := .f32) (mulf (F := Ideal) (s := S8192) (φ := .f32)
          (broadcastInDim S8192 ![] bcast_S_S8192 (shapeCast S_ (m ((c : Thread nD τ).loc main_arg0)) shapeCasts_S1_S_))
          (shapeCast S8192 (m ((c : Thread nD τ).loc main_arg3)) shapeCasts_S8192x1_S8192))
        (m ((c : Thread nD τ).loc main_arg5))) (m ((c : Thread nD τ).loc main_arg6)))
      shapeCasts_S8192_S4x2048 := by
  show StableHlo.after hostOps0 (B0 m ρ c) (Proc.devRef .tc main_v6) = _
  after_results
  rfl

/-! ## Read at an index -/

/-- Layer 0's previous hidden state. -/
theorem v8_at (c : Dev nD) (q : Fin 2048) : T1 m ρ c main_v8 (ix2 0 q) = (argsOf m c).hid 0 q := by
  rw [v8_eq]
  exact Cert.HostLayout.sliceRow_apply 0 _ _ _ 0 rfl 0 q

/-- Layer 0's previous cell state. -/
theorem v10_at (c : Dev nD) (n : Fin 2048) : T1 m ρ c main_v10 (ix2 0 n) = (argsOf m c).cel 0 n := by
  rw [v10_eq]
  exact Cert.HostLayout.sliceRow_apply 0 _ _ _ 0 rfl 0 n

/-- Layer 0's recurrent weights, gate by gate. -/
theorem v11_at (c : Dev nD) (k : Fin 4) (n q : Fin 2048) :
    T1 m ρ c main_v11 (ix3 k n q) = (argsOf m c).Whh0 (LstmCell.row k n) q := by
  rw [v11_eq]
  exact Cert.HostLayout.mat_split_apply _ _ k n q (LstmCell.row k n) rfl

/-- Layer 0's folded bias, gate by gate: the input's contribution and the two biases. -/
theorem v6_at (c : Dev nD) (k : Fin 4) (n : Fin 2048) :
    T1 m ρ c main_v6 (ix2 k n)
      = (LstmCell.inScalar (argsOf m c).x (argsOf m c).w0 (LstmCell.row k n) + (argsOf m c).bih0 (LstmCell.row k n))
          + (argsOf m c).bhh0 (LstmCell.row k n) := by
  rw [v6_eq]
  refine (Cert.HostLayout.vec_split_apply _ _ k n (LstmCell.row k n) rfl).trans ?_
  rw [addf_apply, addf_apply, mulf_apply, Cert.LibFactorLayout.splat_at, Cert.HostLayout.scalar_of_one_apply,
    Cert.LibFactorLayout.reshape_at]
  rfl

end Cert.KernelIdeal.Fr
end
-- ==== Proof.KI.Host1.lean ====
/-
  The host stretch before layer 1 of the idealized kernel program, read at an index: the hidden state region 0 left is
  untouched; layer 1's previous hidden and cell rows are sliced out of the stacked states; its two weight matrices are
  regrouped by gate; its two biases are added and regrouped by gate — each the corresponding argument of the cell
  stack at plain coordinates.
-/
import proofs.«142598_j64742337019981_2_alg».proof.Proof.KI.Run
import proofs.«142598_j64742337019981_2_alg».proof.Proof.KI.Args
import proofs.«142598_j64742337019981_2_alg».proof.Proof.KI.HostLayout
import proofs.«142598_j64742337019981_2_alg».proof.Proof.LibLstmCell
import Idealize.ShloMosaic.Lib.StableHlo.Run
import Idealize.ShloMosaic.Lib.ValueIdx
import Idealize.ShloMosaic.Lib.ValueLayout
import Idealize.ShloMosaic.Lib.Pipeline.Value

set_option maxRecDepth 16384
noncomputable section
namespace Cert.KernelIdeal.Fr
open Cert.KernelIdeal Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

/-! ## What the stretch starts from -/

/-- A buffer that neither the first host stretch nor region 0 writes holds its launch contents at region 0's exit. -/
theorem B2_kept (c : Dev nD) (b : Ref sig .tc) (h0 : b ∉ hostOps0_W) (w0 : ∀ w, Pipeline.arrRef spec0 w ≠ b) :
    B2 m ρ c (Proc.devRef .tc b) = m ((c : Thread nD τ).loc b) :=
  (B2_of_ne m ρ c b w0).trans (StableHlo.after_of_writes_sub hostOps0 _ hostOps0_writes h0)

/-- The hidden state region 0 wrote is not touched by the stretch. -/
theorem v12_0_eq (c : Dev nD) : (T3 m ρ c main_v12_0 : S1x2048.Idx → EReal) = (dat0 (T1 m ρ) c).arrAt 4 cfg0.N := by
  show StableHlo.after hostOps1 (B2 m ρ c) (Proc.devRef .tc main_v12_0) = _
  rw [StableHlo.after_of_writes_sub hostOps1 _ hostOps1_writes (by decide : main_v12_0 ∉ hostOps1_W)]
  exact B2_arr m ρ c 4

/-! ## The buffers the stretch writes, as layout operations on the argument arrays -/

theorem v16_eq (c : Dev nD) : (T3 m ρ c main_v16 : S1x2048.Idx → EReal) =
    shapeCast S1x2048 (extractStridedSlice S1x1x2048 ![1, 0, 0] (m ((c : Thread nD τ).loc main_arg1)) slices_S3x1x2048_S1x1x2048_1_0_0) shapeCasts_S1x1x2048_S1x2048 := by
  rw [← B2_kept m ρ c main_arg1 (by decide) (by decide)]
  show StableHlo.after hostOps1 (B2 m ρ c) (Proc.devRef .tc main_v16) = _
  after_results
  rfl

theorem v18_eq (c : Dev nD) : (T3 m ρ c main_v18 : S1x2048.Idx → EReal) =
    shapeCast S1x2048 (extractStridedSlice S1x1x2048 ![1, 0, 0] (m ((c : Thread nD τ).loc main_arg2)) slices_S3x1x2048_S1x1x2048_1_0_0) shapeCasts_S1x1x2048_S1x2048 := by
  rw [← B2_kept m ρ c main_arg2 (by decide) (by decide)]
  show StableHlo.after hostOps1 (B2 m ρ c) (Proc.devRef .tc main_v18) = _
  after_results
  rfl

theorem v19_eq (c : Dev nD) : (T3 m ρ c main_v19 : S4x2048x2048.Idx → EReal) =
    shapeCast S4x2048x2048 (m ((c : Thread nD τ).loc main_arg7)) shapeCasts_S8192x2048_S4x2048x2048 := by
  rw [← B2_kept m ρ c main_arg7 (by decide) (by decide)]
  show StableHlo.after hostOps1 (B2 m ρ c) (Proc.devRef .tc main_v19) = _
  after_results
  rfl

theorem v20_eq (c : Dev nD) : (T3 m ρ c main_v20 : S4x2048x2048.Idx → EReal) =
    shapeCast S4x2048x2048 (m ((c : Thread nD τ).loc main_arg8)) shapeCasts_S8192x2048_S4x2048x2048 := by
  rw [← B2_kept m ρ c main_arg8 (by decide) (by decide)]
  show StableHlo.after hostOps1 (B2 m ρ c) (Proc.devRef .tc main_v20) = _
  after_results
  rfl

theorem v14_eq (c : Dev nD) : (T3 m ρ c main_v14 : S4x2048.Idx → EReal) =
    shapeCast S4x2048
      (addf (F := Ideal) (s := S8192) (φ := .f32) (m ((c : Thread nD τ).loc main_arg9)) (m ((c : Thread nD τ).loc main_arg10)))
      shapeCasts_S8192_S4x2048 := by
  rw [← B2_kept m ρ c main_arg9 (by decide) (by decide), ← B2_kept m ρ c main_arg10 (by decide) (by decide)]
  show StableHlo.after hostOps1 (B2 m ρ c) (Proc.devRef .tc main_v14) = _
  after_results
  rfl

/-! ## Read at an index -/

/-- Layer 1's previous hidden state. -/
theorem v16_at (c : Dev nD) (q : Fin 2048) : T3 m ρ c main_v16 (ix2 0 q) = (argsOf m c).hid 1 q := by
  rw [v16_eq]
  exact Cert.HostLayout.sliceRow_apply 1 _ _ _ 1 rfl 0 q

/-- Layer 1's previous cell state. -/
theorem v18_at (c : Dev nD) (n : Fin 2048) : T3 m ρ c main_v18 (ix2 0 n) = (argsOf m c).cel 1 n := by
  rw [v18_eq]
  exact Cert.HostLayout.sliceRow_apply 1 _ _ _ 1 rfl 0 n

/-- Layer 1's input weights, gate by gate. -/
theorem v19_at (c : Dev nD) (k : Fin 4) (n q : Fin 2048) :
    T3 m ρ c main_v19 (ix3 k n q) = (argsOf m c).Wih1 (LstmCell.row k n) q := by
  rw [v19_eq]
  exact Cert.HostLayout.mat_split_apply _ _ k n q (LstmCell.row k n) rfl

/-- Layer 1's recurrent weights, gate by gate. -/
theorem v20_at (c : Dev nD) (k : Fin 4) (n q : Fin 2048) :
    T3 m ρ c main_v20 (ix3 k n q) = (argsOf m c).Whh1 (LstmCell.row k n) q := by
  rw [v20_eq]
  exact Cert.HostLayout.mat_split_apply _ _ k n q (LstmCell.row k n) rfl

/-- Layer 1's two biases added, gate by gate. -/
theorem v14_at (c : Dev nD) (k : Fin 4) (n : Fin 2048) :
    T3 m ρ c main_v14 (ix2 k n) = (argsOf m c).bih1 (LstmCell.row k n) + (argsOf m c).bhh1 (LstmCell.row k n) := by
  rw [v14_eq]
  exact Cert.HostLayout.vec_split_apply _ _ k n (LstmCell.row k n) rfl

end Cert.KernelIdeal.Fr
end
-- ==== Proof.KI.Host2.lean ====
/-
  The third host stretch of @main at the ideal values: what region 2 (the third LSTM layer) finds in its input arrays.

  The stretch reads argument arrays only: it adds the third layer's two bias vectors entry by entry and lays the sum out
  as [4, 2048] (gate group, unit); cuts layer 2's previous hidden and cell state out of the [3, 1, 2048] state arrays
  (a slice along axis 0 from 2, the unit axis dropped); and lays each of the layer's two [8192, 2048] weight matrices out
  as [4, 2048, 2048] (gate group, unit, input).  Gate row  p = k · 2048 + n  of a matrix or a bias vector is the entry at
  gate group k, unit n of the laid-out array.  No host stretch and no region before it writes an argument array, so the
  operands are the launch memory's.  The layer's input, the second layer's new hidden state, is region 1's output array,
  which the stretch does not touch.
-/
import proofs.«142598_j64742337019981_2_alg».proof.Proof.KI.Run
import proofs.«142598_j64742337019981_2_alg».proof.Proof.KI.Args
import proofs.«142598_j64742337019981_2_alg».proof.Proof.LibLeadAxes
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

/-- A buffer that neither of the first two host stretches writes and that is no window's array of regions 0 and 1 holds
    its launch contents at region 1's exit. -/
theorem B4_kept (c : Dev nD) (b : Ref sig .tc) (h0 : b ∉ hostOps0_W) (h1 : b ∉ hostOps1_W)
    (w0 : ∀ w, Pipeline.arrRef spec0 w ≠ b) (w1 : ∀ w, Pipeline.arrRef spec1 w ≠ b) :
    B4 m ρ c (Proc.devRef .tc b) = m ((c : Thread nD τ).loc b) :=
  calc B4 m ρ c (Proc.devRef .tc b)
    _ = B3 m ρ c (Proc.devRef .tc b) := B4_of_ne m ρ c b w1
    _ = B2 m ρ c (Proc.devRef .tc b) := StableHlo.after_of_writes_sub hostOps1 _ hostOps1_writes h1
    _ = B1 m ρ c (Proc.devRef .tc b) := B2_of_ne m ρ c b w0
    _ = B0 m ρ c (Proc.devRef .tc b) := StableHlo.after_of_writes_sub hostOps0 _ hostOps0_writes h0
    _ = m ((c : Thread nD τ).loc b) := rfl

/-! ## The arrays the stretch writes, as operations on the launch memory -/

theorem v25_eq (c : Dev nD) : (T5 m ρ c main_v25 : S1x2048.Idx → EReal) =
    shapeCast S1x2048 (extractStridedSlice S1x1x2048 ![2, 0, 0] (m ((c : Thread nD τ).loc main_arg1)) slices_S3x1x2048_S1x1x2048_2_0_0) shapeCasts_S1x1x2048_S1x2048 := by
  show StableHlo.after hostOps2 (B4 m ρ c) (Proc.devRef .tc main_v25) = _
  after_results
  rw [B4_kept m ρ c main_arg1 (by decide) (by decide) (by decide) (by decide)]
  rfl

theorem v27_eq (c : Dev nD) : (T5 m ρ c main_v27 : S1x2048.Idx → EReal) =
    shapeCast S1x2048 (extractStridedSlice S1x1x2048 ![2, 0, 0] (m ((c : Thread nD τ).loc main_arg2)) slices_S3x1x2048_S1x1x2048_2_0_0) shapeCasts_S1x1x2048_S1x2048 := by
  show StableHlo.after hostOps2 (B4 m ρ c) (Proc.devRef .tc main_v27) = _
  after_results
  rw [B4_kept m ρ c main_arg2 (by decide) (by decide) (by decide) (by decide)]
  rfl

theorem v28_eq (c : Dev nD) : (T5 m ρ c main_v28 : S4x2048x2048.Idx → EReal) =
    shapeCast S4x2048x2048 (m ((c : Thread nD τ).loc main_arg11)) shapeCasts_S8192x2048_S4x2048x2048 := by
  show StableHlo.after hostOps2 (B4 m ρ c) (Proc.devRef .tc main_v28) = _
  after_results
  rw [B4_kept m ρ c main_arg11 (by decide) (by decide) (by decide) (by decide)]
  rfl

theorem v29_eq (c : Dev nD) : (T5 m ρ c main_v29 : S4x2048x2048.Idx → EReal) =
    shapeCast S4x2048x2048 (m ((c : Thread nD τ).loc main_arg12)) shapeCasts_S8192x2048_S4x2048x2048 := by
  show StableHlo.after hostOps2 (B4 m ρ c) (Proc.devRef .tc main_v29) = _
  after_results
  rw [B4_kept m ρ c main_arg12 (by decide) (by decide) (by decide) (by decide)]
  rfl

theorem v23_eq (c : Dev nD) : (T5 m ρ c main_v23 : S4x2048.Idx → EReal) =
    shapeCast S4x2048 (addf (F := Ideal) (φ := .f32) (m ((c : Thread nD τ).loc main_arg13)) (m ((c : Thread nD τ).loc main_arg14))) shapeCasts_S8192_S4x2048 := by
  show StableHlo.after hostOps2 (B4 m ρ c) (Proc.devRef .tc main_v23) = _
  after_results
  rw [B4_kept m ρ c main_arg13 (by decide) (by decide) (by decide) (by decide),
    B4_kept m ρ c main_arg14 (by decide) (by decide) (by decide) (by decide)]
  rfl

/-! ## Region 2's input arrays at plain indices -/

/-- The layer's input is region 1's new hidden state: the stretch does not write it. -/
theorem v21_0_eq (c : Dev nD) : (T5 m ρ c main_v21_0 : S1x2048.Idx → EReal) = (dat1 (T3 m ρ) c).arrAt 6 cfg1.N :=
  (StableHlo.after_of_writes_sub hostOps2 _ hostOps2_writes (by decide : main_v21_0 ∉ hostOps2_W)).trans (B4_arr m ρ c 6)

/-- Layer 2's previous hidden state. -/
theorem v25_at (c : Dev nD) (q : Fin 2048) :
    (T5 m ρ c main_v25 : S1x2048.Idx → EReal) (ix2 0 q) = (argsOf m c).hid 2 q := by
  rw [v25_eq, shapeCast_1ab_ab_apply, LeadAxes.slice3_axis0_apply 2 _ _ 0 0 q 2 rfl]
  rfl

/-- Layer 2's previous cell state. -/
theorem v27_at (c : Dev nD) (n : Fin 2048) :
    (T5 m ρ c main_v27 : S1x2048.Idx → EReal) (ix2 0 n) = (argsOf m c).cel 2 n := by
  rw [v27_eq, shapeCast_1ab_ab_apply, LeadAxes.slice3_axis0_apply 2 _ _ 0 0 n 2 rfl]
  rfl

/-- The layer's input weights: gate group `k`, unit `n` is gate row `k · 2048 + n`. -/
theorem v28_at (c : Dev nD) (k : Fin 4) (n q : Fin 2048) :
    (T5 m ρ c main_v28 : S4x2048x2048.Idx → EReal) (ix3 k n q) = (argsOf m c).Wih2 (LstmCell.row k n) q := by
  rw [v28_eq, LeadAxes.shapeCast_split_apply _ _ k n q (LstmCell.row k n) rfl]
  rfl

/-- The layer's recurrent weights. -/
theorem v29_at (c : Dev nD) (k : Fin 4) (n q : Fin 2048) :
    (T5 m ρ c main_v29 : S4x2048x2048.Idx → EReal) (ix3 k n q) = (argsOf m c).Whh2 (LstmCell.row k n) q := by
  rw [v29_eq, LeadAxes.shapeCast_split_apply _ _ k n q (LstmCell.row k n) rfl]
  rfl

/-- The layer's bias: the two bias vectors added entry by entry. -/
theorem v23_at (c : Dev nD) (k : Fin 4) (n : Fin 2048) :
    (T5 m ρ c main_v23 : S4x2048.Idx → EReal) (ix2 k n)
      = (argsOf m c).bih2 (LstmCell.row k n) + (argsOf m c).bhh2 (LstmCell.row k n) := by
  rw [v23_eq, shapeCast_apply _ _ (ix2 k n) (ix1 (LstmCell.row k n)) (by
    rw [Shape.rowMajor_val_one, Shape.rowMajor_val_two]; rfl)]
  rfl

end Cert.KernelIdeal.Fr

end
-- ==== Proof.LibPlainMatmul.lean ====
/-
  A plain matrix product read at an index, at the ideal values.

  For the dimension numbers of an ordinary product of an `M × K` matrix by a `K × N` matrix (contract the left
  operand's axis 1 with the right operand's axis 0, no batch axis), the product accumulated into the zero matrix
  is, at row `r` and column `e`, the sum over `k < K` of `lhs (r, k) * rhs (k, e)` on the extended reals: no
  rounding, no chunk order, and the zero accumulator contributes `0 +`. Stated over literal-size coordinates
  (`ix2 r e`) so that it applies to a printed product by unification; a printed record of dimension numbers with
  these six lists is `DotDims.plain M K N` up to the proof of its well-formedness, which is irrelevant.
-/
import Idealize.ShloMosaic.Lib.ValueIdx
import Idealize.ShloMosaic.PureOps.Ideal.Laws

noncomputable section

namespace Idealize.ShloMosaic.PlainMatmul

open Idealize.ShloMosaic Idealize.ShloMosaic.ValueIdx

/-- The contraction shape of a plain product has one axis, of extent `K`. -/
theorem contr_rank (M K N : ℕ) : (DotDims.plain M K N).contr.rank = 1 := rfl

theorem contr_size (M K N : ℕ) : (DotDims.plain M K N).contr.size ⟨0, by rw [contr_rank]; exact Nat.one_pos⟩ = K := rfl

/-- The operands' coordinates at output index `j` and contraction index `q`: the left operand reads `j`'s row and `q`,
    the right operand `q` and `j`'s column. -/
theorem lhs_val0 (M K N : ℕ) (j : (⟨2, ![M, N]⟩ : Shape).Idx) (q : (DotDims.plain M K N).contr.Idx) :
    ((DotDims.plain M K N).lhsIdx j q 0).val = (j 0).val := rfl
theorem lhs_val1 (M K N : ℕ) (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q
theorem rhs_val0 (M K N : ℕ) (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q
theorem rhs_val1 (M K N : ℕ) (j : (⟨2, ![M, N]⟩ : Shape).Idx) (q : (DotDims.plain M K N).contr.Idx) :
    ((DotDims.plain M K N).rhsIdx j q 1).val = (j 1).val := rfl

/-- So at output `(r, e)` and contraction coordinate `k` the left operand is read at `(r, k)` and the right at `(k, e)`. -/
theorem lhsIdx_eq (M K N : ℕ) (r : Fin M) (e : Fin N) (k : Fin K) :
    (DotDims.plain M K N).lhsIdx (ix2 r e) ((contrEquiv1 (DotDims.plain M K N) K (contr_rank M K N) (contr_size M K N)).symm k) = ix2 r k := by
  have hk := contrEquiv1_symm_val (DotDims.plain M K N) K (contr_rank M K N) (contr_size M K N) k
  funext a
  refine Fin.ext ?_
  match a with
  | ⟨0, _⟩ => exact lhs_val0 M K N _ _
  | ⟨1, _⟩ => exact (lhs_val1 M K N _ _).trans hk

theorem rhsIdx_eq (M K N : ℕ) (r : Fin M) (e : Fin N) (k : Fin K) :
    (DotDims.plain M K N).rhsIdx (ix2 r e) ((contrEquiv1 (DotDims.plain M K N) K (contr_rank M K N) (contr_size M K N)).symm k) = ix2 k e := by
  have hk := contrEquiv1_symm_val (DotDims.plain M K N) K (contr_rank M K N) (contr_size M K N) k
  funext a
  refine Fin.ext ?_
  match a with
  | ⟨0, _⟩ => exact (rhs_val0 M K N _ _).trans hk
  | ⟨1, _⟩ => exact rhs_val1 M K N _ _

/-- A plain product into the zero matrix, at `(r, e)`: the sum over the inner axis of the operands' products. -/
theorem matmul_zero_apply (M K N : ℕ) (prec : Option ContractPrecision)
    (lhs : FVec Ideal ⟨2, ![M, K]⟩ .f32) (rhs : FVec Ideal ⟨2, ![K, N]⟩ .f32) (r : Fin M) (e : Fin N) :
    matmul (DotDims.plain M K N) prec lhs rhs (constant (F := Ideal) ⟨2, ![M, N]⟩ .f32 0x00000000#32) (ix2 r e)
      = ∑ k : Fin K, lhs (ix2 r k) * rhs (ix2 k e) := by
  show FloatOps.matmul (DotDims.plain M K N) prec lhs rhs (constant (F := Ideal) ⟨2, ![M, N]⟩ .f32 0x00000000#32) (ix2 r e) = _
  rw [Ideal.matmul_constant_zero_apply, ← Equiv.sum_comp (contrEquiv1 (DotDims.plain M K N) K (contr_rank M K N) (contr_size M K N)).symm]
  refine Finset.sum_congr rfl fun k _ => ?_
  rw [lhsIdx_eq, rhsIdx_eq]

end Idealize.ShloMosaic.PlainMatmul

end
-- ==== Proof.LibHostDotPlain.lean ====
/-
  A host matrix product read at an index, at the ideal values.

  For the dimension numbers of an ordinary product of an `M × K` matrix by a `K × N` matrix (contract the left
  operand's axis 1 with the right operand's axis 0, no batch axis), the host's dot_general is, at row `r` and column
  `e`, the sum over `k < K` of `lhs (r, k) * rhs (k, e)` on the extended reals, whatever precision it is asked for.
  Stated over literal-size coordinates (`ix2 r e`); a printed record of dimension numbers with the lists
  [1], [0], [0], [1], [], [] is `DotDims.plain M K N` up to the proof of its well-formedness, which is irrelevant, so
  the lemma applies to a printed host product by unification.
-/
import proofs.«142598_j64742337019981_2_alg».proof.Proof.LibPlainMatmul

noncomputable section

namespace Idealize.ShloMosaic.PlainMatmul

open Idealize.ShloMosaic Idealize.ShloMosaic.ValueIdx

/-- A host product of an `M x K` matrix by a `K x N` matrix at `(r, e)`: the sum over the inner axis of the
    operands' products. -/
theorem hostDot_plain_apply (M K N : ℕ) (lhs : FVec Ideal ⟨2, ![M, K]⟩ .f32) (rhs : FVec Ideal ⟨2, ![K, N]⟩ .f32)
    (r : Fin M) (e : Fin N) :
    Host.dotGeneral (F := Ideal) (DotDims.plain M K N) none lhs rhs (ix2 r e)
      = ∑ k : Fin K, lhs (ix2 r k) * rhs (ix2 k e) := by
  simp only [Host.dotGeneral]
  rw [Ideal.dotGeneral_apply, ← Equiv.sum_comp (contrEquiv1 (DotDims.plain M K N) K (contr_rank M K N) (contr_size M K N)).symm]
  refine Finset.sum_congr rfl fun k _ => ?_
  rw [lhsIdx_eq, rhsIdx_eq]

end Idealize.ShloMosaic.PlainMatmul

end
-- ==== Proof.Ref.Ops.lean ====
/-
  The host operations of one plain LSTM step, each read at an index given by its coordinates, at the ideal values.

  A row vector [1, K] times the transpose of an [N, K] matrix is, at column p, the sum over k of x(0, k) · W(p, k); the
  four [1, 2048] slices of a [1, 8192] row of gate pre-activations at offsets 0, 2048, 4096, 6144 read the row at
  gate rows 0·2048 + n, 1·2048 + n, 2·2048 + n, 3·2048 + n; the expression 1 / (1 + exp(-a)), with the two ones the
  broadcast pattern of 1.0, is the logistic function; a slice of a [3, 1, 2048] stack at leading offset l, reshaped to
  [1, 2048], reads the stack at (l, 0, n); the concatenation along axis 0 of three [1, 2048] rows, each laid out as
  [1, 1, 2048], reads row l at (l, 0, n); reshapes between [1], [1, 1] and [1, 1, 1] keep the one element.
-/
import proofs.«142598_j64742337019981_2_alg».proof.Proof.LibHostDotPlain
import proofs.«142598_j64742337019981_2_alg».proof.Proof.LibFactorLayout
import proofs.«142598_j64742337019981_2_alg».proof.Proof.LibLstmCell
import Idealize.ShloMosaic.Lib.Pipeline.Value

noncomputable section

namespace Cert.ReferenceIdeal.RefValue

open Idealize.ShloMosaic Idealize.ShloMosaic.ValueIdx

/-- The pattern of 1.0 denotes the extended real 1. -/
theorem ofBits_one : Ideal.ofBits .f32 0x3F800000#32 = 1 := by
  simp [Ideal.ofBits, Ideal.ieee, -EReal.coe_mul]; norm_num

/-! ## Products -/

/-- A row vector times the transpose of an N × K matrix, at column p: Σ_k x(0, k) · W(p, k). -/
theorem hostDotT_apply (K N : ℕ) (x : FVec Ideal ⟨2, ![1, K]⟩ .f32) (W : FVec Ideal ⟨2, ![N, K]⟩ .f32)
    (ht : (⟨2, ![N, K]⟩ : Shape).Transposes [1, 0] ⟨2, ![K, N]⟩) (p : Fin N) :
    Host.dotGeneral (F := Ideal) (DotDims.plain 1 K N) none x (transpose ⟨2, ![K, N]⟩ [1, 0] W ht) (ix2 0 p)
      = ∑ k : Fin K, x (ix2 0 k) * W (ix2 p k) := by
  rw [PlainMatmul.hostDot_plain_apply]
  refine Finset.sum_congr rfl fun k _ => ?_
  refine congrArg (x (ix2 0 k) * ·) ?_
  exact transpose_apply [1, 0] W ht (ix2 k p) (ix2 p k) (fun b => match b with
    | ⟨0, _⟩ => rfl
    | ⟨1, _⟩ => rfl)

/-- A sum over the one-element index set is its one term. -/
theorem sum_fin_one (f : Fin 1 → EReal) : ∑ k : Fin 1, f k = f 0 := by
  rw [Fin.sum_univ_succ, Fin.sum_univ_zero, add_zero]

/-! ## Slices -/

section Layout
variable {α : Type}

/-- The [1, 2048] slice of a [1, 8192] row at column offset off, read at (0, n), is the row at (0, off + n). -/
theorem rowSlice_apply (off : ℕ) (a : (⟨2, ![1, 8192]⟩ : Shape).Idx → α)
    (h : (⟨2, ![1, 8192]⟩ : Shape).Slices ![0, off] ⟨2, ![1, 2048]⟩) (n : Fin 2048) (p : Fin 8192)
    (hp : p.val = off + n.val) :
    extractStridedSlice (⟨2, ![1, 2048]⟩ : Shape) ![0, off] a h (ix2 0 n) = a (ix2 0 p) :=
  extractStridedSlice_apply _ a h (ix2 0 n) (ix2 0 p) (fun b => match b with
    | ⟨0, _⟩ => by show (0 : ℕ) = 0 + 0; rfl
    | ⟨1, _⟩ => by show p.val = off + n.val; exact hp)

theorem gate0_apply (a : (⟨2, ![1, 8192]⟩ : Shape).Idx → α)
    (h : (⟨2, ![1, 8192]⟩ : Shape).Slices ![0, 0] ⟨2, ![1, 2048]⟩) (n : Fin 2048) :
    extractStridedSlice (⟨2, ![1, 2048]⟩ : Shape) ![0, 0] a h (ix2 0 n) = a (ix2 0 (LstmCell.row 0 n)) :=
  rowSlice_apply 0 a h n _ (by show 0 * 2048 + n.val = 0 + n.val; omega)
theorem gate1_apply (a : (⟨2, ![1, 8192]⟩ : Shape).Idx → α)
    (h : (⟨2, ![1, 8192]⟩ : Shape).Slices ![0, 2048] ⟨2, ![1, 2048]⟩) (n : Fin 2048) :
    extractStridedSlice (⟨2, ![1, 2048]⟩ : Shape) ![0, 2048] a h (ix2 0 n) = a (ix2 0 (LstmCell.row 1 n)) :=
  rowSlice_apply 2048 a h n _ (by show 1 * 2048 + n.val = 2048 + n.val; omega)
theorem gate2_apply (a : (⟨2, ![1, 8192]⟩ : Shape).Idx → α)
    (h : (⟨2, ![1, 8192]⟩ : Shape).Slices ![0, 4096] ⟨2, ![1, 2048]⟩) (n : Fin 2048) :
    extractStridedSlice (⟨2, ![1, 2048]⟩ : Shape) ![0, 4096] a h (ix2 0 n) = a (ix2 0 (LstmCell.row 2 n)) :=
  rowSlice_apply 4096 a h n _ (by show 2 * 2048 + n.val = 4096 + n.val; omega)
theorem gate3_apply (a : (⟨2, ![1, 8192]⟩ : Shape).Idx → α)
    (h : (⟨2, ![1, 8192]⟩ : Shape).Slices ![0, 6144] ⟨2, ![1, 2048]⟩) (n : Fin 2048) :
    extractStridedSlice (⟨2, ![1, 2048]⟩ : Shape) ![0, 6144] a h (ix2 0 n) = a (ix2 0 (LstmCell.row 3 n)) :=
  rowSlice_apply 6144 a h n _ (by show 3 * 2048 + n.val = 6144 + n.val; omega)

/-- Layer l's [1, 2048] state: the slice of a [3, 1, 2048] stack at leading offset l, reshaped, read at (0, n), is the
    stack at (l, 0, n). -/
theorem stateSlice_apply (off : ℕ) (a : (⟨3, ![3, 1, 2048]⟩ : Shape).Idx → α)
    (hs : (⟨3, ![3, 1, 2048]⟩ : Shape).Slices ![off, 0, 0] ⟨3, ![1, 1, 2048]⟩)
    (hc : (⟨3, ![1, 1, 2048]⟩ : Shape).ShapeCasts ⟨2, ![1, 2048]⟩) (l : Fin 3) (hl : l.val = off) (n : Fin 2048) :
    shapeCast (⟨2, ![1, 2048]⟩ : Shape) (extractStridedSlice (⟨3, ![1, 1, 2048]⟩ : Shape) ![off, 0, 0] a hs) hc (ix2 0 n)
      = a (ix3 l 0 n) :=
  (shapeCast_apply _ hc (ix2 0 n) (ix3 0 0 n)
    (by rw [Shape.rowMajor_val_three, Shape.rowMajor_val_two]; show (0 * 1 + 0) * 2048 + n.val = 0 * 2048 + n.val; omega)).trans
  (extractStridedSlice_apply _ a hs (ix3 0 0 n) (ix3 l 0 n) (fun b => match b with
    | ⟨0, _⟩ => by show l.val = off + 0; omega
    | ⟨1, _⟩ => by show (0 : ℕ) = 0 + 0; rfl
    | ⟨2, _⟩ => by show n.val = 0 + n.val; omega))

/-- A [1, 2048] row laid out as [1, 1, 2048], read at (0, 0, n), is the row at (0, n). -/
theorem asSlab_apply (u : (⟨2, ![1, 2048]⟩ : Shape).Idx → α)
    (hb : (⟨2, ![1, 2048]⟩ : Shape).BroadcastsInDim ⟨3, ![1, 1, 2048]⟩ (![1, 2] : Fin 2 → Fin 3)) (n : Fin 2048) :
    broadcastInDim (⟨3, ![1, 1, 2048]⟩ : Shape) ![1, 2] hb u (ix3 0 0 n) = u (ix2 0 n) :=
  broadcastInDim_apply _ hb u (ix3 0 0 n) (ix2 0 n) (fun b => match b with
    | ⟨0, _⟩ => by show (0 : ℕ) = if (1 : ℕ) = 1 then 0 else 0; rw [if_pos rfl]
    | ⟨1, _⟩ => by show n.val = if (2048 : ℕ) = 1 then 0 else n.val; rw [if_neg (by omega)])

/-- Three [1, 1, 2048] slabs stacked along axis 0: slab l of the stack at (·, 0, n) is piece l at (0, 0, n). -/
theorem stack3_apply (v0 v1 v2 : (⟨3, ![1, 1, 2048]⟩ : Shape).Idx → α)
    (h : Shape.Concatenates [(⟨3, ![1, 1, 2048]⟩ : Shape), ⟨3, ![1, 1, 2048]⟩, ⟨3, ![1, 1, 2048]⟩] ⟨3, ![3, 1, 2048]⟩ 0)
    (l : Fin 3) (n : Fin 2048) :
    concatenate (⟨3, ![3, 1, 2048]⟩ : Shape) 0 [⟨⟨3, ![1, 1, 2048]⟩, v0⟩, ⟨⟨3, ![1, 1, 2048]⟩, v1⟩, ⟨⟨3, ![1, 1, 2048]⟩, v2⟩] h (ix3 l 0 n)
      = (![v0, v1, v2] l) (ix3 0 0 n) := by
  have hi : ∀ b : Fin 3, b.cast (rfl : (3 : Nat) = 3) ≠ (0 : Fin 3) →
      ((ix3 (0 : Fin 1) (0 : Fin 1) n) b).val = ((ix3 l (0 : Fin 1) n) (b.cast rfl)).val := fun b hb =>
    match b, hb with
    | ⟨0, _⟩, hb => absurd rfl hb
    | ⟨1, _⟩, _ => rfl
    | ⟨2, _⟩, _ => rfl
  let xs : List ((s : Shape) × (s.Idx → α)) := [⟨⟨3, ![1, 1, 2048]⟩, v0⟩, ⟨⟨3, ![1, 1, 2048]⟩, v1⟩, ⟨⟨3, ![1, 1, 2048]⟩, v2⟩]
  match l with
  | ⟨0, _⟩ => exact concatenate_apply_piece 0 xs h (ix3 0 0 n) 0 (by show (0 : Nat) < 3; omega) ⟨3, ![1, 1, 2048]⟩ v0 rfl rfl 0 rfl (ix3 0 0 n) hi rfl
  | ⟨1, _⟩ => exact concatenate_apply_piece 0 xs h (ix3 1 0 n) 1 (by show (1 : Nat) < 3; omega) ⟨3, ![1, 1, 2048]⟩ v1 rfl rfl 1 rfl (ix3 0 0 n) hi rfl
  | ⟨2, _⟩ => exact concatenate_apply_piece 0 xs h (ix3 2 0 n) 2 (by show (2 : Nat) < 3; omega) ⟨3, ![1, 1, 2048]⟩ v2 rfl rfl 2 rfl (ix3 0 0 n) hi rfl

/-- A reshape [1] → [1, 1] keeps the one element. -/
theorem reshape11_apply (x : (⟨1, ![1]⟩ : Shape).Idx → α) (h : (⟨1, ![1]⟩ : Shape).ShapeCasts ⟨2, ![1, 1]⟩) :
    shapeCast (⟨2, ![1, 1]⟩ : Shape) x h (ix2 0 0) = x (ix1 0) :=
  shapeCast_apply x h (ix2 0 0) (ix1 0)
    (by rw [Shape.rowMajor_val_two, Shape.rowMajor_val_one]; show (0 : ℕ) = 0 * 1 + 0; rfl)

/-- A reshape [1, 1] → [1, 1, 1] keeps the one element. -/
theorem reshape111_apply (x : (⟨2, ![1, 1]⟩ : Shape).Idx → α) (h : (⟨2, ![1, 1]⟩ : Shape).ShapeCasts ⟨3, ![1, 1, 1]⟩)
    (j : (⟨3, ![1, 1, 1]⟩ : Shape).Idx) :
    shapeCast (⟨3, ![1, 1, 1]⟩ : Shape) x h j = x (ix2 0 0) := by
  obtain rfl : j = ix3 0 0 0 := funext fun b => match b with
    | ⟨0, _⟩ => Fin.ext (Nat.lt_one_iff.mp (j 0).isLt)
    | ⟨1, _⟩ => Fin.ext (Nat.lt_one_iff.mp (j 1).isLt)
    | ⟨2, _⟩ => Fin.ext (Nat.lt_one_iff.mp (j 2).isLt)
  exact shapeCast_apply x h (ix3 0 0 0) (ix2 0 0)
    (by rw [Shape.rowMajor_val_two, Shape.rowMajor_val_three]; show 0 * 1 + 0 = (0 * 1 + 0) * 1 + 0; rfl)

end Layout

/-! ## The logistic function as the host spells it -/

/-- 1 / (1 + exp(-a)) with both ones the broadcast pattern of 1.0 is the logistic function of a, elementwise. -/
theorem sigmoid_apply {s : Shape} (a : FVec Ideal s .f32)
    (hb : (⟨0, ![]⟩ : Shape).BroadcastsInDim s (![] : Fin 0 → Fin s.rank)) (i : s.Idx) :
    Host.divf (F := Ideal) (broadcastInDim s ![] hb (constant (F := Ideal) ⟨0, ![]⟩ .f32 0x3F800000#32))
      (addf (broadcastInDim s ![] hb (constant (F := Ideal) ⟨0, ![]⟩ .f32 0x3F800000#32)) (Host.exp (Host.negf a))) i
    = Ideal.logistic (a i) := by
  show Ideal.div (Ideal.ofBits .f32 0x3F800000#32) (Ideal.ofBits .f32 0x3F800000#32 + Ideal.exp (-(a i))) = _
  rw [ofBits_one]
  rfl

end Cert.ReferenceIdeal.RefValue

end
-- ==== Proof.Ref.Layer.lean ====
/-
  One layer of the plain LSTM step, read at an index, against the index-wise cell of LibLstmCell.

  The gate pre-activations the host adds up as ((xw + h · Wᵀ) + b1) + b2 are, at gate row p, LstmCell.pre of the
  operands read at plain indices; the new cell state σ(f) · c + σ(i) · tanh(g), with the four gates the slices of the
  pre-activation row, is LstmCell.cNew; the new hidden state is σ(o) · tanh of the new cell state.  The first layer's
  input contribution, a [1, 1] by [1, 8192] product, is the input number times the weight column; the read-out is the
  product of the top hidden state with the output weights plus the output bias.
-/
import proofs.«142598_j64742337019981_2_alg».proof.Proof.Ref.Ops

noncomputable section

namespace Cert.ReferenceIdeal.RefValue

open Idealize.ShloMosaic Idealize.ShloMosaic.ValueIdx

/-- The broadcast pattern of 1.0 over a [1, 2048] row. -/
local notation "one[" hb "]" =>
  broadcastInDim (⟨2, ![1, 2048]⟩ : Shape) ![] hb (constant (F := Ideal) ⟨0, ![]⟩ FTy.f32 0x3F800000#32)

/-- The gate pre-activations at gate row p. -/
theorem gates_apply (D : DotDims ⟨2, ![1, 2048]⟩ ⟨2, ![2048, 8192]⟩ ⟨2, ![1, 8192]⟩) (hD : D = DotDims.plain 1 2048 8192)
    (xw : FVec Ideal ⟨2, ![1, 8192]⟩ .f32) (hp : FVec Ideal ⟨2, ![1, 2048]⟩ .f32) (W : FVec Ideal ⟨2, ![8192, 2048]⟩ .f32)
    (b1 b2 : FVec Ideal ⟨1, ![8192]⟩ .f32)
    (ht : (⟨2, ![8192, 2048]⟩ : Shape).Transposes [1, 0] ⟨2, ![2048, 8192]⟩)
    (hb : (⟨1, ![8192]⟩ : Shape).BroadcastsInDim ⟨2, ![1, 8192]⟩ (![1] : Fin 1 → Fin 2)) (p : Fin 8192) :
    addf (addf (addf xw (Host.dotGeneral (F := Ideal) D none hp (transpose ⟨2, ![2048, 8192]⟩ [1, 0] W ht)))
        (broadcastInDim ⟨2, ![1, 8192]⟩ ![1] hb b1)) (broadcastInDim ⟨2, ![1, 8192]⟩ ![1] hb b2) (ix2 0 p)
      = LstmCell.pre (fun p => xw (ix2 0 p)) (fun q => hp (ix2 0 q)) (fun p q => W (ix2 p q))
          (fun p => b1 (ix1 p)) (fun p => b2 (ix1 p)) p := by
  subst hD
  show ((xw (ix2 0 p)
        + Host.dotGeneral (F := Ideal) (DotDims.plain 1 2048 8192) none hp (transpose ⟨2, ![2048, 8192]⟩ [1, 0] W ht) (ix2 0 p))
      + broadcastInDim ⟨2, ![1, 8192]⟩ ![1] hb b1 (ix2 0 p)) + broadcastInDim ⟨2, ![1, 8192]⟩ ![1] hb b2 (ix2 0 p) = _
  rw [hostDotT_apply, Cert.LibFactorLayout.asRow_at (by omega), Cert.LibFactorLayout.asRow_at (by omega)]
  rfl

/-- The new cell state of unit n. -/
theorem cell_apply (g : FVec Ideal ⟨2, ![1, 8192]⟩ .f32) (c : FVec Ideal ⟨2, ![1, 2048]⟩ .f32)
    (hb : (⟨0, ![]⟩ : Shape).BroadcastsInDim ⟨2, ![1, 2048]⟩ (![] : Fin 0 → Fin 2))
    (h0 : (⟨2, ![1, 8192]⟩ : Shape).Slices ![0, 0] ⟨2, ![1, 2048]⟩)
    (h1 : (⟨2, ![1, 8192]⟩ : Shape).Slices ![0, 2048] ⟨2, ![1, 2048]⟩)
    (h2 : (⟨2, ![1, 8192]⟩ : Shape).Slices ![0, 4096] ⟨2, ![1, 2048]⟩) (n : Fin 2048) :
    addf (mulf (Host.divf (F := Ideal) one[hb] (addf one[hb]
              (Host.exp (Host.negf (extractStridedSlice (⟨2, ![1, 2048]⟩ : Shape) ![0, 2048] g h1))))) c)
         (mulf (Host.divf (F := Ideal) one[hb] (addf one[hb]
              (Host.exp (Host.negf (extractStridedSlice (⟨2, ![1, 2048]⟩ : Shape) ![0, 0] g h0)))))
            (Host.tanh (extractStridedSlice (⟨2, ![1, 2048]⟩ : Shape) ![0, 4096] g h2))) (ix2 0 n)
      = LstmCell.cNew (fun p => g (ix2 0 p)) (fun n => c (ix2 0 n)) n := by
  show Host.divf (F := Ideal) one[hb] (addf one[hb]
          (Host.exp (Host.negf (extractStridedSlice (⟨2, ![1, 2048]⟩ : Shape) ![0, 2048] g h1)))) (ix2 0 n) * c (ix2 0 n)
      + Host.divf (F := Ideal) one[hb] (addf one[hb]
          (Host.exp (Host.negf (extractStridedSlice (⟨2, ![1, 2048]⟩ : Shape) ![0, 0] g h0)))) (ix2 0 n)
        * Ideal.tanh (extractStridedSlice (⟨2, ![1, 2048]⟩ : Shape) ![0, 4096] g h2 (ix2 0 n)) = _
  rw [sigmoid_apply, sigmoid_apply, gate1_apply, gate0_apply, gate2_apply]
  rfl

/-- The new hidden state of unit n, from the pre-activation row and the new cell state. -/
theorem hidden_apply (g : FVec Ideal ⟨2, ![1, 8192]⟩ .f32) (cn : FVec Ideal ⟨2, ![1, 2048]⟩ .f32)
    (hb : (⟨0, ![]⟩ : Shape).BroadcastsInDim ⟨2, ![1, 2048]⟩ (![] : Fin 0 → Fin 2))
    (h3 : (⟨2, ![1, 8192]⟩ : Shape).Slices ![0, 6144] ⟨2, ![1, 2048]⟩) (n : Fin 2048) :
    mulf (Host.divf (F := Ideal) one[hb] (addf one[hb]
            (Host.exp (Host.negf (extractStridedSlice (⟨2, ![1, 2048]⟩ : Shape) ![0, 6144] g h3))))) (Host.tanh cn) (ix2 0 n)
      = Ideal.logistic (g (ix2 0 (LstmCell.row 3 n))) * Ideal.tanh (cn (ix2 0 n)) := by
  show Host.divf (F := Ideal) one[hb] (addf one[hb]
          (Host.exp (Host.negf (extractStridedSlice (⟨2, ![1, 2048]⟩ : Shape) ![0, 6144] g h3)))) (ix2 0 n)
        * Ideal.tanh (cn (ix2 0 n)) = _
  rw [sigmoid_apply, gate3_apply]

/-- The first layer's input contribution: the input number times the weight column. -/
theorem inScalar_apply (D : DotDims ⟨2, ![1, 1]⟩ ⟨2, ![1, 8192]⟩ ⟨2, ![1, 8192]⟩) (hD : D = DotDims.plain 1 1 8192)
    (x : FVec Ideal ⟨1, ![1]⟩ .f32) (w : FVec Ideal ⟨2, ![8192, 1]⟩ .f32)
    (hc : (⟨1, ![1]⟩ : Shape).ShapeCasts ⟨2, ![1, 1]⟩)
    (ht : (⟨2, ![8192, 1]⟩ : Shape).Transposes [1, 0] ⟨2, ![1, 8192]⟩) (p : Fin 8192) :
    Host.dotGeneral (F := Ideal) D none (shapeCast (⟨2, ![1, 1]⟩ : Shape) x hc) (transpose ⟨2, ![1, 8192]⟩ [1, 0] w ht) (ix2 0 p)
      = LstmCell.inScalar (x (ix1 0)) (fun p => w (ix2 p 0)) p := by
  subst hD
  rw [hostDotT_apply, sum_fin_one, reshape11_apply]
  rfl

/-- The read-out: the top hidden state times the output weights, plus the output bias, as a [1, 1, 1] array. -/
theorem readout_apply (D : DotDims ⟨2, ![1, 2048]⟩ ⟨2, ![2048, 1]⟩ ⟨2, ![1, 1]⟩) (hD : D = DotDims.plain 1 2048 1)
    (h : FVec Ideal ⟨2, ![1, 2048]⟩ .f32) (w : FVec Ideal ⟨2, ![1, 2048]⟩ .f32) (b : FVec Ideal ⟨1, ![1]⟩ .f32)
    (ht : (⟨2, ![1, 2048]⟩ : Shape).Transposes [1, 0] ⟨2, ![2048, 1]⟩)
    (hb : (⟨1, ![1]⟩ : Shape).BroadcastsInDim ⟨2, ![1, 1]⟩ (![1] : Fin 1 → Fin 2))
    (hc : (⟨2, ![1, 1]⟩ : Shape).ShapeCasts ⟨3, ![1, 1, 1]⟩) (j : (⟨3, ![1, 1, 1]⟩ : Shape).Idx) :
    shapeCast (⟨3, ![1, 1, 1]⟩ : Shape)
        (addf (Host.dotGeneral (F := Ideal) D none h (transpose ⟨2, ![2048, 1]⟩ [1, 0] w ht))
          (broadcastInDim ⟨2, ![1, 1]⟩ ![1] hb b)) hc j
      = (∑ q : Fin 2048, h (ix2 0 q) * w (ix2 0 q)) + b (ix1 0) := by
  subst hD
  rw [reshape111_apply]
  show Host.dotGeneral (F := Ideal) (DotDims.plain 1 2048 1) none h (transpose ⟨2, ![2048, 1]⟩ [1, 0] w ht) (ix2 0 0)
      + broadcastInDim ⟨2, ![1, 1]⟩ ![1] hb b (ix2 0 0) = _
  rw [hostDotT_apply]
  refine congrArg ((∑ q : Fin 2048, h (ix2 0 q) * w (ix2 0 q)) + ·) ?_
  exact broadcastInDim_apply _ hb b (ix2 0 0) (ix1 0) (fun a => match a with
    | ⟨0, _⟩ => by show (0 : ℕ) = if (1 : ℕ) = 1 then 0 else 0; rw [if_pos rfl])

/-! ## The same, with the operands given by what they hold at plain indices -/

/-- The gate pre-activations, for operands known index by index. -/
theorem gates_eq (D : DotDims ⟨2, ![1, 2048]⟩ ⟨2, ![2048, 8192]⟩ ⟨2, ![1, 8192]⟩) (hD : D = DotDims.plain 1 2048 8192)
    (xw : FVec Ideal ⟨2, ![1, 8192]⟩ .f32) (hp : FVec Ideal ⟨2, ![1, 2048]⟩ .f32) (W : FVec Ideal ⟨2, ![8192, 2048]⟩ .f32)
    (b1 b2 : FVec Ideal ⟨1, ![8192]⟩ .f32)
    (ht : (⟨2, ![8192, 2048]⟩ : Shape).Transposes [1, 0] ⟨2, ![2048, 8192]⟩)
    (hb : (⟨1, ![8192]⟩ : Shape).BroadcastsInDim ⟨2, ![1, 8192]⟩ (![1] : Fin 1 → Fin 2))
    (xw' : Fin 8192 → EReal) (h' : Fin 2048 → EReal) (W' : Fin 8192 → Fin 2048 → EReal) (b1' b2' : Fin 8192 → EReal)
    (hxw : ∀ p, xw (ix2 0 p) = xw' p) (hh : ∀ q, hp (ix2 0 q) = h' q) (hW : ∀ p q, W (ix2 p q) = W' p q)
    (hb1 : ∀ p, b1 (ix1 p) = b1' p) (hb2 : ∀ p, b2 (ix1 p) = b2' p) (p : Fin 8192) :
    addf (addf (addf xw (Host.dotGeneral (F := Ideal) D none hp (transpose ⟨2, ![2048, 8192]⟩ [1, 0] W ht)))
        (broadcastInDim ⟨2, ![1, 8192]⟩ ![1] hb b1)) (broadcastInDim ⟨2, ![1, 8192]⟩ ![1] hb b2) (ix2 0 p)
      = LstmCell.pre xw' h' W' b1' b2' p := by
  obtain rfl : (fun p => xw (ix2 0 p)) = xw' := funext hxw
  obtain rfl : (fun q => hp (ix2 0 q)) = h' := funext hh
  obtain rfl : (fun p q => W (ix2 p q)) = W' := funext fun p => funext fun q => hW p q
  obtain rfl : (fun p => b1 (ix1 p)) = b1' := funext hb1
  obtain rfl : (fun p => b2 (ix1 p)) = b2' := funext hb2
  exact gates_apply D hD xw hp W b1 b2 ht hb p

/-- The new cell state, for a pre-activation row and a previous cell state known index by index. -/
theorem cell_eq (g : FVec Ideal ⟨2, ![1, 8192]⟩ .f32) (c : FVec Ideal ⟨2, ![1, 2048]⟩ .f32)
    (hb : (⟨0, ![]⟩ : Shape).BroadcastsInDim ⟨2, ![1, 2048]⟩ (![] : Fin 0 → Fin 2))
    (h0 : (⟨2, ![1, 8192]⟩ : Shape).Slices ![0, 0] ⟨2, ![1, 2048]⟩)
    (h1 : (⟨2, ![1, 8192]⟩ : Shape).Slices ![0, 2048] ⟨2, ![1, 2048]⟩)
    (h2 : (⟨2, ![1, 8192]⟩ : Shape).Slices ![0, 4096] ⟨2, ![1, 2048]⟩)
    (a : Fin 8192 → EReal) (c' : Fin 2048 → EReal) (hg : ∀ p, g (ix2 0 p) = a p) (hc : ∀ n, c (ix2 0 n) = c' n)
    (n : Fin 2048) :
    addf (mulf (Host.divf (F := Ideal) one[hb] (addf one[hb]
              (Host.exp (Host.negf (extractStridedSlice (⟨2, ![1, 2048]⟩ : Shape) ![0, 2048] g h1))))) c)
         (mulf (Host.divf (F := Ideal) one[hb] (addf one[hb]
              (Host.exp (Host.negf (extractStridedSlice (⟨2, ![1, 2048]⟩ : Shape) ![0, 0] g h0)))))
            (Host.tanh (extractStridedSlice (⟨2, ![1, 2048]⟩ : Shape) ![0, 4096] g h2))) (ix2 0 n)
      = LstmCell.cNew a c' n := by
  obtain rfl : (fun p => g (ix2 0 p)) = a := funext hg
  obtain rfl : (fun n => c (ix2 0 n)) = c' := funext hc
  exact cell_apply g c hb h0 h1 h2 n

/-- The new hidden state, for a pre-activation row and a new cell state known index by index. -/
theorem hidden_eq (g : FVec Ideal ⟨2, ![1, 8192]⟩ .f32) (cn : FVec Ideal ⟨2, ![1, 2048]⟩ .f32)
    (hb : (⟨0, ![]⟩ : Shape).BroadcastsInDim ⟨2, ![1, 2048]⟩ (![] : Fin 0 → Fin 2))
    (h3 : (⟨2, ![1, 8192]⟩ : Shape).Slices ![0, 6144] ⟨2, ![1, 2048]⟩)
    (a : Fin 8192 → EReal) (c' : Fin 2048 → EReal) (hg : ∀ p, g (ix2 0 p) = a p)
    (hcn : ∀ n, cn (ix2 0 n) = LstmCell.cNew a c' n) (n : Fin 2048) :
    mulf (Host.divf (F := Ideal) one[hb] (addf one[hb]
            (Host.exp (Host.negf (extractStridedSlice (⟨2, ![1, 2048]⟩ : Shape) ![0, 6144] g h3))))) (Host.tanh cn) (ix2 0 n)
      = LstmCell.hNew a c' n := by
  rw [hidden_apply, hg, hcn]
  rfl

/-- A later layer's input contribution: the layer below's hidden state times the input weights' transpose. -/
theorem inVec_eq (D : DotDims ⟨2, ![1, 2048]⟩ ⟨2, ![2048, 8192]⟩ ⟨2, ![1, 8192]⟩) (hD : D = DotDims.plain 1 2048 8192)
    (x : FVec Ideal ⟨2, ![1, 2048]⟩ .f32) (W : FVec Ideal ⟨2, ![8192, 2048]⟩ .f32)
    (ht : (⟨2, ![8192, 2048]⟩ : Shape).Transposes [1, 0] ⟨2, ![2048, 8192]⟩)
    (x' : Fin 2048 → EReal) (W' : Fin 8192 → Fin 2048 → EReal)
    (hx : ∀ q, x (ix2 0 q) = x' q) (hW : ∀ p q, W (ix2 p q) = W' p q) (p : Fin 8192) :
    Host.dotGeneral (F := Ideal) D none x (transpose ⟨2, ![2048, 8192]⟩ [1, 0] W ht) (ix2 0 p) = LstmCell.inVec x' W' p := by
  subst hD
  rw [hostDotT_apply]
  exact Finset.sum_congr rfl fun q _ => by rw [hx, hW]

/-- The read-out, for a top hidden state, output weights and output bias known index by index. -/
theorem readout_eq (D : DotDims ⟨2, ![1, 2048]⟩ ⟨2, ![2048, 1]⟩ ⟨2, ![1, 1]⟩) (hD : D = DotDims.plain 1 2048 1)
    (h : FVec Ideal ⟨2, ![1, 2048]⟩ .f32) (w : FVec Ideal ⟨2, ![1, 2048]⟩ .f32) (b : FVec Ideal ⟨1, ![1]⟩ .f32)
    (ht : (⟨2, ![1, 2048]⟩ : Shape).Transposes [1, 0] ⟨2, ![2048, 1]⟩)
    (hb : (⟨1, ![1]⟩ : Shape).BroadcastsInDim ⟨2, ![1, 1]⟩ (![1] : Fin 1 → Fin 2))
    (hc : (⟨2, ![1, 1]⟩ : Shape).ShapeCasts ⟨3, ![1, 1, 1]⟩)
    (h' w' : Fin 2048 → EReal) (b' : EReal) (hh : ∀ q, h (ix2 0 q) = h' q) (hw : ∀ q, w (ix2 0 q) = w' q)
    (hb' : b (ix1 0) = b') (j : (⟨3, ![1, 1, 1]⟩ : Shape).Idx) :
    shapeCast (⟨3, ![1, 1, 1]⟩ : Shape)
        (addf (Host.dotGeneral (F := Ideal) D none h (transpose ⟨2, ![2048, 1]⟩ [1, 0] w ht))
          (broadcastInDim ⟨2, ![1, 1]⟩ ![1] hb b)) hc j
      = (∑ q : Fin 2048, h' q * w' q) + b' := by
  rw [readout_apply D hD, hb']
  exact congrArg (· + b') (Finset.sum_congr rfl fun q _ => by rw [hh, hw])

/-- The stack of three [1, 2048] rows known index by index: slab l holds row l. -/
theorem stackRows_eq {α : Type} (u0 u1 u2 : (⟨2, ![1, 2048]⟩ : Shape).Idx → α)
    (hb : (⟨2, ![1, 2048]⟩ : Shape).BroadcastsInDim ⟨3, ![1, 1, 2048]⟩ (![1, 2] : Fin 2 → Fin 3))
    (hc : Shape.Concatenates [(⟨3, ![1, 1, 2048]⟩ : Shape), ⟨3, ![1, 1, 2048]⟩, ⟨3, ![1, 1, 2048]⟩] ⟨3, ![3, 1, 2048]⟩ 0)
    (f0 f1 f2 : Fin 2048 → α) (h0 : ∀ n, u0 (ix2 0 n) = f0 n) (h1 : ∀ n, u1 (ix2 0 n) = f1 n)
    (h2 : ∀ n, u2 (ix2 0 n) = f2 n) (j : (⟨3, ![3, 1, 2048]⟩ : Shape).Idx) :
    concatenate (⟨3, ![3, 1, 2048]⟩ : Shape) 0
        [⟨⟨3, ![1, 1, 2048]⟩, broadcastInDim (⟨3, ![1, 1, 2048]⟩ : Shape) ![1, 2] hb u0⟩,
         ⟨⟨3, ![1, 1, 2048]⟩, broadcastInDim (⟨3, ![1, 1, 2048]⟩ : Shape) ![1, 2] hb u1⟩,
         ⟨⟨3, ![1, 1, 2048]⟩, broadcastInDim (⟨3, ![1, 1, 2048]⟩ : Shape) ![1, 2] hb u2⟩] hc j
      = if (j 0).val = 0 then f0 (j 2) else if (j 0).val = 1 then f1 (j 2) else f2 (j 2) := by
  obtain ⟨l, z, n, rfl⟩ : ∃ (l : Fin 3) (z : Fin 1) (n : Fin 2048), j = ix3 l z n := ⟨j 0, j 1, j 2, eq_ix3 j⟩
  obtain rfl : z = 0 := Subsingleton.elim _ _
  rw [stack3_apply]
  match l with
  | ⟨0, _⟩ =>
    show broadcastInDim (⟨3, ![1, 1, 2048]⟩ : Shape) ![1, 2] hb u0 (ix3 0 0 n) = if (0 : ℕ) = 0 then f0 n else _
    rw [if_pos rfl, asSlab_apply, h0]
  | ⟨1, _⟩ =>
    show broadcastInDim (⟨3, ![1, 1, 2048]⟩ : Shape) ![1, 2] hb u1 (ix3 0 0 n)
      = if (1 : ℕ) = 0 then _ else if (1 : ℕ) = 1 then f1 n else _
    rw [if_neg (by omega), if_pos rfl, asSlab_apply, h1]
  | ⟨2, _⟩ =>
    show broadcastInDim (⟨3, ![1, 1, 2048]⟩ : Shape) ![1, 2] hb u2 (ix3 0 0 n)
      = if (2 : ℕ) = 0 then _ else if (2 : ℕ) = 1 then _ else f2 n
    rw [if_neg (by omega), if_neg (by omega), asSlab_apply, h2]

end Cert.ReferenceIdeal.RefValue

end
-- ==== Proof.KI.HostOut.lean ====
/-
  The results of the idealized kernel program, read at an index.

  After the third region thirteen host operations assemble the results: the three layers' new hidden rows, each laid
  out as a [1, 1, 2048] slab, are stacked along axis 0, and so are the three new cell rows; the read-out is the top
  layer's new hidden row times the transposed output weights, plus the broadcast output bias, reshaped to [1, 1, 1].
  The rows the operations read are what the three pipelines left in their output windows' arrays: a later region
  reads an earlier one's hidden row through an input window, which it leaves as it found it, and no host stretch in
  between writes any of them; the output weights and bias are still the launch memory's.  So slab l of each stack is
  layer l's output array, and the read-out is the sum over q of the top hidden row at q times the output weight at q,
  plus the output bias.
-/
import proofs.«142598_j64742337019981_2_alg».proof.Proof.KI.Run
import proofs.«142598_j64742337019981_2_alg».proof.Proof.KI.Args
import proofs.«142598_j64742337019981_2_alg».proof.Proof.Ref.Layer
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

/-! ## What the last host stretch reads, walked back to where it was written -/

/-- Layer 2's new hidden row: region 2's output window 6. -/
theorem B6_v30_0 (c : Dev nD) :
    B6 m ρ c (Proc.devRef .tc main_v30_0) = (dat2 (T5 m ρ) c).arrAt 6 cfg2.N := B6_arr m ρ c 6

/-- Layer 2's new cell row: region 2's output window 7. -/
theorem B6_v30_1 (c : Dev nD) :
    B6 m ρ c (Proc.devRef .tc main_v30_1) = (dat2 (T5 m ρ) c).arrAt 7 cfg2.N := B6_arr m ρ c 7

/-- Layer 1's new hidden row: region 2 reads it through input window 0 and leaves it; the third host stretch does not
    write it; it is region 1's output window 6. -/
theorem B6_v21_0 (c : Dev nD) :
    B6 m ρ c (Proc.devRef .tc main_v21_0) = (dat1 (T3 m ρ) c).arrAt 6 cfg1.N :=
  calc B6 m ρ c (Proc.devRef .tc main_v21_0)
    _ = (dat2 (T5 m ρ) c).arrAt 0 cfg2.N := B6_arr m ρ c 0
    _ = B5 m ρ c (Proc.devRef .tc main_v21_0) := ((dat2 (T5 m ρ) c).arrAt_in 0 rfl _).trans (A_eq2 (T5 m ρ) c 0)
    _ = B4 m ρ c (Proc.devRef .tc main_v21_0) := StableHlo.after_of_writes_sub hostOps2 _ hostOps2_writes (by decide)
    _ = (dat1 (T3 m ρ) c).arrAt 6 cfg1.N := B4_arr m ρ c 6

/-- Layer 1's new cell row: no window of region 2, not written by the third host stretch; region 1's output window 7. -/
theorem B6_v21_1 (c : Dev nD) :
    B6 m ρ c (Proc.devRef .tc main_v21_1) = (dat1 (T3 m ρ) c).arrAt 7 cfg1.N :=
  calc B6 m ρ c (Proc.devRef .tc main_v21_1)
    _ = B5 m ρ c (Proc.devRef .tc main_v21_1) := B6_of_ne m ρ c main_v21_1 (by decide)
    _ = B4 m ρ c (Proc.devRef .tc main_v21_1) := StableHlo.after_of_writes_sub hostOps2 _ hostOps2_writes (by decide)
    _ = (dat1 (T3 m ρ) c).arrAt 7 cfg1.N := B4_arr m ρ c 7

/-- Layer 0's new hidden row: untouched by region 2 and the third host stretch; region 1 reads it through input window 0
    and leaves it; the second host stretch does not write it; it is region 0's output window 4. -/
theorem B6_v12_0 (c : Dev nD) :
    B6 m ρ c (Proc.devRef .tc main_v12_0) = (dat0 (T1 m ρ) c).arrAt 4 cfg0.N :=
  calc B6 m ρ c (Proc.devRef .tc main_v12_0)
    _ = B5 m ρ c (Proc.devRef .tc main_v12_0) := B6_of_ne m ρ c main_v12_0 (by decide)
    _ = B4 m ρ c (Proc.devRef .tc main_v12_0) := StableHlo.after_of_writes_sub hostOps2 _ hostOps2_writes (by decide)
    _ = (dat1 (T3 m ρ) c).arrAt 0 cfg1.N := B4_arr m ρ c 0
    _ = B3 m ρ c (Proc.devRef .tc main_v12_0) := ((dat1 (T3 m ρ) c).arrAt_in 0 rfl _).trans (A_eq1 (T3 m ρ) c 0)
    _ = B2 m ρ c (Proc.devRef .tc main_v12_0) := StableHlo.after_of_writes_sub hostOps1 _ hostOps1_writes (by decide)
    _ = (dat0 (T1 m ρ) c).arrAt 4 cfg0.N := B2_arr m ρ c 4

/-- Layer 0's new cell row: region 0's output window 5, untouched afterwards. -/
theorem B6_v12_1 (c : Dev nD) :
    B6 m ρ c (Proc.devRef .tc main_v12_1) = (dat0 (T1 m ρ) c).arrAt 5 cfg0.N :=
  calc B6 m ρ c (Proc.devRef .tc main_v12_1)
    _ = B5 m ρ c (Proc.devRef .tc main_v12_1) := B6_of_ne m ρ c main_v12_1 (by decide)
    _ = B4 m ρ c (Proc.devRef .tc main_v12_1) := StableHlo.after_of_writes_sub hostOps2 _ hostOps2_writes (by decide)
    _ = B3 m ρ c (Proc.devRef .tc main_v12_1) := B4_of_ne m ρ c main_v12_1 (by decide)
    _ = B2 m ρ c (Proc.devRef .tc main_v12_1) := StableHlo.after_of_writes_sub hostOps1 _ hostOps1_writes (by decide)
    _ = (dat0 (T1 m ρ) c).arrAt 5 cfg0.N := B2_arr m ρ c 5

/-- A buffer that none of the first three host stretches writes and that is no window's array holds its launch
    contents when the last host stretch starts. -/
theorem B6_kept (c : Dev nD) (b : Ref sig .tc)
    (h0 : b ∉ hostOps0_W) (h1 : b ∉ hostOps1_W) (h2 : b ∉ hostOps2_W)
    (w0 : ∀ w, Pipeline.arrRef spec0 w ≠ b) (w1 : ∀ w, Pipeline.arrRef spec1 w ≠ b) (w2 : ∀ w, Pipeline.arrRef spec2 w ≠ b) :
    B6 m ρ c (Proc.devRef .tc b) = m ((c : Thread nD τ).loc b) :=
  calc B6 m ρ c (Proc.devRef .tc b)
    _ = B5 m ρ c (Proc.devRef .tc b) := B6_of_ne m ρ c b w2
    _ = B4 m ρ c (Proc.devRef .tc b) := StableHlo.after_of_writes_sub hostOps2 _ hostOps2_writes h2
    _ = B3 m ρ c (Proc.devRef .tc b) := B4_of_ne m ρ c b w1
    _ = B2 m ρ c (Proc.devRef .tc b) := StableHlo.after_of_writes_sub hostOps1 _ hostOps1_writes h1
    _ = B1 m ρ c (Proc.devRef .tc b) := B2_of_ne m ρ c b w0
    _ = B0 m ρ c (Proc.devRef .tc b) := StableHlo.after_of_writes_sub hostOps0 _ hostOps0_writes h0
    _ = m ((c : Thread nD τ).loc b) := rfl

/-- The output weights are the launch memory's. -/
theorem B6_main_arg15 (c : Dev nD) : B6 m ρ c (Proc.devRef .tc main_arg15) = m ((c : Thread nD τ).loc main_arg15) :=
  B6_kept m ρ c main_arg15 (by decide) (by decide) (by decide) (by decide) (by decide) (by decide)

/-- The output bias is the launch memory's. -/
theorem B6_main_arg16 (c : Dev nD) : B6 m ρ c (Proc.devRef .tc main_arg16) = m ((c : Thread nD τ).loc main_arg16) :=
  B6_kept m ρ c main_arg16 (by decide) (by decide) (by decide) (by decide) (by decide) (by decide)

/-! ## The three results as host operations on those rows -/

/-- An operation over a literal family of three operands: its result with each operand's contents at its own reference. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

theorem v34_eq (c : Dev nD) : (B7 m ρ c (Proc.devRef .tc main_v34) : S3x1x2048.Idx → EReal) =
    concatenate S3x1x2048 0
      [⟨S1x1x2048, broadcastInDim S1x1x2048 ![1, 2] bcast_S1x2048_S1x1x2048_1_2 (B6 m ρ c (Proc.devRef .tc main_v12_0))⟩,
       ⟨S1x1x2048, broadcastInDim S1x1x2048 ![1, 2] bcast_S1x2048_S1x1x2048_1_2 (B6 m ρ c (Proc.devRef .tc main_v21_0))⟩,
       ⟨S1x1x2048, broadcastInDim S1x1x2048 ![1, 2] bcast_S1x2048_S1x1x2048_1_2 (B6 m ρ c (Proc.devRef .tc main_v30_0))⟩]
      concatenates_S1x1x2048_S1x1x2048_S1x1x2048_S3x1x2048_d0 := by
  show StableHlo.after hostOps3 (B6 m ρ c) (Proc.devRef .tc main_v34) = _
  simp only [StableHlo.after_cons, StableHlo.after_nil]
  repeat (first
    | rw [nary3_result] | rw [StableHlo.unary_result] | rw [StableHlo.binary_result] | rw [StableHlo.reshape_result]
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  rfl

theorem v38_eq (c : Dev nD) : (B7 m ρ c (Proc.devRef .tc main_v38) : S3x1x2048.Idx → EReal) =
    concatenate S3x1x2048 0
      [⟨S1x1x2048, broadcastInDim S1x1x2048 ![1, 2] bcast_S1x2048_S1x1x2048_1_2 (B6 m ρ c (Proc.devRef .tc main_v12_1))⟩,
       ⟨S1x1x2048, broadcastInDim S1x1x2048 ![1, 2] bcast_S1x2048_S1x1x2048_1_2 (B6 m ρ c (Proc.devRef .tc main_v21_1))⟩,
       ⟨S1x1x2048, broadcastInDim S1x1x2048 ![1, 2] bcast_S1x2048_S1x1x2048_1_2 (B6 m ρ c (Proc.devRef .tc main_v30_1))⟩]
      concatenates_S1x1x2048_S1x1x2048_S1x1x2048_S3x1x2048_d0 := by
  show StableHlo.after hostOps3 (B6 m ρ c) (Proc.devRef .tc main_v38) = _
  simp only [StableHlo.after_cons, StableHlo.after_nil]
  repeat (first
    | rw [nary3_result] | rw [StableHlo.unary_result] | rw [StableHlo.binary_result] | rw [StableHlo.reshape_result]
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  rfl

theorem v43_eq (c : Dev nD) : (B7 m ρ c (Proc.devRef .tc main_v43) : S1x1x1.Idx → EReal) =
    shapeCast S1x1x1
      (addf (F := Ideal) (s := S1x1) (φ := .f32)
        (Host.dotGeneral (F := Ideal) (φ₁ := .f32) (φ₂ := .f32) dot_S1x2048_S2048x1_S1x1_1_0_0_1_n_n none
          (B6 m ρ c (Proc.devRef .tc main_v30_0))
          (transpose S2048x1 [1, 0] (B6 m ρ c (Proc.devRef .tc main_arg15)) transposes_S1x2048_S2048x1_1_0))
        (broadcastInDim S1x1 ![1] bcast_S1_S1x1_1 (B6 m ρ c (Proc.devRef .tc main_arg16))))
      shapeCasts_S1x1_S1x1x1 := by
  show StableHlo.after hostOps3 (B6 m ρ c) (Proc.devRef .tc main_v43) = _
  after_results
  rfl

/-! ## Read at an index -/

/-- The stacked new hidden states: slab l is layer l's output array. -/
theorem v34_at (c : Dev nD) (j : S3x1x2048.Idx) :
    B7 m ρ c (Proc.devRef .tc main_v34) j
      = if (j 0).val = 0 then (dat0 (T1 m ρ) c).arrAt 4 cfg0.N (ix2 0 (j 2))
        else if (j 0).val = 1 then (dat1 (T3 m ρ) c).arrAt 6 cfg1.N (ix2 0 (j 2))
        else (dat2 (T5 m ρ) c).arrAt 6 cfg2.N (ix2 0 (j 2)) := by
  rw [v34_eq]
  exact Cert.ReferenceIdeal.RefValue.stackRows_eq _ _ _ _ _
    (fun n => (dat0 (T1 m ρ) c).arrAt 4 cfg0.N (ix2 0 n)) (fun n => (dat1 (T3 m ρ) c).arrAt 6 cfg1.N (ix2 0 n))
    (fun n => (dat2 (T5 m ρ) c).arrAt 6 cfg2.N (ix2 0 n))
    (fun n => by rw [B6_v12_0]) (fun n => by rw [B6_v21_0]) (fun n => by rw [B6_v30_0]) j

/-- The stacked new cell states: slab l is layer l's output array. -/
theorem v38_at (c : Dev nD) (j : S3x1x2048.Idx) :
    B7 m ρ c (Proc.devRef .tc main_v38) j
      = if (j 0).val = 0 then (dat0 (T1 m ρ) c).arrAt 5 cfg0.N (ix2 0 (j 2))
        else if (j 0).val = 1 then (dat1 (T3 m ρ) c).arrAt 7 cfg1.N (ix2 0 (j 2))
        else (dat2 (T5 m ρ) c).arrAt 7 cfg2.N (ix2 0 (j 2)) := by
  rw [v38_eq]
  exact Cert.ReferenceIdeal.RefValue.stackRows_eq _ _ _ _ _
    (fun n => (dat0 (T1 m ρ) c).arrAt 5 cfg0.N (ix2 0 n)) (fun n => (dat1 (T3 m ρ) c).arrAt 7 cfg1.N (ix2 0 n))
    (fun n => (dat2 (T5 m ρ) c).arrAt 7 cfg2.N (ix2 0 n))
    (fun n => by rw [B6_v12_1]) (fun n => by rw [B6_v21_1]) (fun n => by rw [B6_v30_1]) j

/-- The read-out: the top layer's new hidden row times the output weights, plus the output bias. -/
theorem v43_at (c : Dev nD) (j : S1x1x1.Idx) :
    B7 m ρ c (Proc.devRef .tc main_v43) j
      = (∑ q : Fin 2048, HMul.hMul (α := EReal) (β := EReal) (γ := EReal) ((dat2 (T5 m ρ) c).arrAt 6 cfg2.N (ix2 0 q)) ((argsOf m c).Wout q))
          + (argsOf m c).bout := by
  rw [v43_eq]
  exact Cert.ReferenceIdeal.RefValue.readout_eq _ rfl _ _ _ _ _ _
    (fun q => (dat2 (T5 m ρ) c).arrAt 6 cfg2.N (ix2 0 q)) (argsOf m c).Wout (argsOf m c).bout
    (fun q => by rw [B6_v30_0]) (fun q => by rw [B6_main_arg15]; rfl) (by rw [B6_main_arg16]; rfl) j

end Cert.KernelIdeal.Fr

end
-- ==== Proof.KI.Value.lean ====
/-
  What the idealized kernel program returns, at the ideal instance: the three results are the read-out, the stacked
  hidden states and the stacked cell states of the three-layer cell stack of its arguments.

  Layer by layer: a region's output arrays are the new cell and hidden states of gate pre-activations read off the
  arrays the region is entered with (the blocks put back together); those arrays are slices and reshapes of the arguments,
  the bias a sum formed by the host before the region, and the layer input the hidden state the region below left.  The
  kernel's order of adding the pre-activation up is brought to the reference's by associativity and commutativity.
-/
import proofs.«142598_j64742337019981_2_alg».proof.Proof.KI.Val0
import proofs.«142598_j64742337019981_2_alg».proof.Proof.KI.Val1
import proofs.«142598_j64742337019981_2_alg».proof.Proof.KI.Val2
import proofs.«142598_j64742337019981_2_alg».proof.Proof.KI.Host0
import proofs.«142598_j64742337019981_2_alg».proof.Proof.KI.Host1
import proofs.«142598_j64742337019981_2_alg».proof.Proof.KI.Host2
import proofs.«142598_j64742337019981_2_alg».proof.Proof.KI.HostOut

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open LstmCell

variable (m : (ℓ : Loc nD τ sig) → Buf (Elt Ideal) ℓ) (ρ : Dev nD → PrngReg)

/-! ## Layer 0 -/

/-- Region 0's gate pre-activations are the stack's: the recurrent product plus the folded bias. -/
theorem gate0_eq (c : Dev nD) (k : Fin 4) (n : Fin 2048) :
    G0 (T1 m ρ c main_v8) (T1 m ρ c main_v11) (T1 m ρ c main_v6) k n = A0 (argsOf m c) (row k n) := by
  unfold G0 A0
  simp only [v6_at m ρ c, v8_at m ρ c, v11_at m ρ c]
  exact pre_folded (inScalar (argsOf m c).x (argsOf m c).w0) ((argsOf m c).hid 0) (argsOf m c).Whh0
    (argsOf m c).bih0 (argsOf m c).bhh0 (row k n)

theorem cell0_at (c : Dev nD) (n : Fin 2048) : (dat0 (T1 m ρ) c).arrAt 5 cfg0.N (ix2 0 n) = C0 (argsOf m c) n := by
  rw [arr0_cell, gate0_eq, gate0_eq, gate0_eq, v10_at]
  rfl

theorem hidden0_at (c : Dev nD) (n : Fin 2048) : (dat0 (T1 m ρ) c).arrAt 4 cfg0.N (ix2 0 n) = H0 (argsOf m c) n := by
  rw [arr0_hidden, gate0_eq, cell0_at]
  rfl

/-! ## Layer 1 -/

theorem gate1_eq (c : Dev nD) (k : Fin 4) (n : Fin 2048) :
    G1 (T3 m ρ c main_v12_0) (T3 m ρ c main_v16) (T3 m ρ c main_v19) (T3 m ρ c main_v20) (T3 m ρ c main_v14) k n
      = A1 (argsOf m c) (row k n) := by
  unfold G1 A1
  simp only [v14_at m ρ c, v16_at m ρ c, v20_at m ρ c, v12_0_eq m ρ c, hidden0_at m ρ c, v19_at m ρ c]
  exact pre_bias_first (inVec (H0 (argsOf m c)) (argsOf m c).Wih1) ((argsOf m c).hid 1) (argsOf m c).Whh1
    (argsOf m c).bih1 (argsOf m c).bhh1 (row k n)

theorem cell1_at (c : Dev nD) (n : Fin 2048) : (dat1 (T3 m ρ) c).arrAt 7 cfg1.N (ix2 0 n) = C1 (argsOf m c) n := by
  rw [arr1_cell, gate1_eq, gate1_eq, gate1_eq, v18_at]
  rfl

theorem hidden1_at (c : Dev nD) (n : Fin 2048) : (dat1 (T3 m ρ) c).arrAt 6 cfg1.N (ix2 0 n) = H1 (argsOf m c) n := by
  rw [arr1_hidden, gate1_eq, cell1_at]
  rfl

/-! ## Layer 2 -/

theorem gate2_eq (c : Dev nD) (k : Fin 4) (n : Fin 2048) :
    G2 (T5 m ρ c main_v21_0) (T5 m ρ c main_v25) (T5 m ρ c main_v28) (T5 m ρ c main_v29) (T5 m ρ c main_v23) k n
      = A2 (argsOf m c) (row k n) := by
  unfold G2 A2
  simp only [v23_at m ρ c, v25_at m ρ c, v29_at m ρ c, v21_0_eq m ρ c, hidden1_at m ρ c, v28_at m ρ c]
  exact pre_bias_first (inVec (H1 (argsOf m c)) (argsOf m c).Wih2) ((argsOf m c).hid 2) (argsOf m c).Whh2
    (argsOf m c).bih2 (argsOf m c).bhh2 (row k n)

theorem cell2_at (c : Dev nD) (n : Fin 2048) : (dat2 (T5 m ρ) c).arrAt 7 cfg2.N (ix2 0 n) = C2 (argsOf m c) n := by
  rw [arr2_cell, gate2_eq, gate2_eq, gate2_eq, v27_at]
  rfl

theorem hidden2_at (c : Dev nD) (n : Fin 2048) : (dat2 (T5 m ρ) c).arrAt 6 cfg2.N (ix2 0 n) = H2 (argsOf m c) n := by
  rw [arr2_hidden, gate2_eq, cell2_at]
  rfl

/-! ## The results -/

theorem out_hidden (c : Dev nD) : B7 m ρ c (Proc.devRef .tc main_v34) = hArr (argsOf m c) := by
  refine funext fun (j : S3x1x2048.Idx) => ?_
  exact (v34_at m ρ c j).trans (if_congr Iff.rfl (hidden0_at m ρ c (j 2))
    (if_congr Iff.rfl (hidden1_at m ρ c (j 2)) (hidden2_at m ρ c (j 2))))

theorem out_cell (c : Dev nD) : B7 m ρ c (Proc.devRef .tc main_v38) = cArr (argsOf m c) := by
  refine funext fun (j : S3x1x2048.Idx) => ?_
  exact (v38_at m ρ c j).trans (if_congr Iff.rfl (cell0_at m ρ c (j 2))
    (if_congr Iff.rfl (cell1_at m ρ c (j 2)) (cell2_at m ρ c (j 2))))

theorem out_y (c : Dev nD) : B7 m ρ c (Proc.devRef .tc main_v43) = yArr (argsOf m c) := by
  refine funext fun (j : S1x1x1.Idx) => ?_
  refine (v43_at m ρ c j).trans ?_
  exact congrArg (· + (argsOf m c).bout) (Finset.sum_congr rfl fun q _ => by rw [hidden2_at m ρ c q])

/-- Every weakly fair execution of the idealized kernel program ends with its three results at the cell stack's values
    and its arguments as launched. -/
theorem value_run : θ_run defs (onTc (τ := τ) (main (F := Ideal))) ⟨m, fun _ => 0, ρ⟩ (fun r => ∀ c : Dev nD,
      r.2.mem ((c.tc : Thread nD τ).loc main_v43) = yArr (argsOf m c)
      ∧ r.2.mem ((c.tc : Thread nD τ).loc main_v34) = hArr (argsOf m c)
      ∧ r.2.mem ((c.tc : Thread nD τ).loc main_v38) = cArr (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_v43 (by decide))).trans (out_y m ρ c),
     (h c _ (mem_uc main_v34 (by decide))).trans (out_hidden m ρ c),
     (h c _ (mem_uc main_v38 (by decide))).trans (out_cell m ρ c),
     (h c _ (mem_uc main_arg0 (by decide))).trans (B7_main_arg0 m ρ c),
     (h c _ (mem_uc main_arg1 (by decide))).trans (B7_main_arg1 m ρ c),
     (h c _ (mem_uc main_arg2 (by decide))).trans (B7_main_arg2 m ρ c),
     (h c _ (mem_uc main_arg3 (by decide))).trans (B7_main_arg3 m ρ c),
     (h c _ (mem_uc main_arg4 (by decide))).trans (B7_main_arg4 m ρ c),
     (h c _ (mem_uc main_arg5 (by decide))).trans (B7_main_arg5 m ρ c),
     (h c _ (mem_uc main_arg6 (by decide))).trans (B7_main_arg6 m ρ c),
     (h c _ (mem_uc main_arg7 (by decide))).trans (B7_main_arg7 m ρ c),
     (h c _ (mem_uc main_arg8 (by decide))).trans (B7_main_arg8 m ρ c),
     (h c _ (mem_uc main_arg9 (by decide))).trans (B7_main_arg9 m ρ c),
     (h c _ (mem_uc main_arg10 (by decide))).trans (B7_main_arg10 m ρ c),
     (h c _ (mem_uc main_arg11 (by decide))).trans (B7_main_arg11 m ρ c),
     (h c _ (mem_uc main_arg12 (by decide))).trans (B7_main_arg12 m ρ c),
     (h c _ (mem_uc main_arg13 (by decide))).trans (B7_main_arg13 m ρ c),
     (h c _ (mem_uc main_arg14 (by decide))).trans (B7_main_arg14 m ρ c),
     (h c _ (mem_uc main_arg15 (by decide))).trans (B7_main_arg15 m ρ c),
     (h c _ (mem_uc main_arg16 (by decide))).trans (B7_main_arg16 m ρ c)⟩) (run_all m ρ)

end Cert.KernelIdeal.Fr

end
-- ==== Proof.Ref.RefRun.lean ====
/-
  What the plain reference computes, as the index-wise LSTM stack of LibLstmCell.

  The reference's run ends with its three results at composed terms of the arguments' launch contents.  Layer by
  layer those terms are read at an index: the pre-activation row of layer l is LstmCell.pre of the layer's input
  contribution (the input number times a weight column for layer 0, the hidden state below times the input weights
  for layers 1 and 2), the layer's previous hidden state, its recurrent weights and its two biases; the new cell and
  hidden rows are LstmCell.cNew and LstmCell.hNew of that row and the previous cell state.  The two stacked results
  hold the three layers' rows, and the read-out is the top hidden row times the output weights plus the output bias.
-/
import proofs.«142598_j64742337019981_2_alg».proof.Proof.Ref.Layer
import proofs.«142598_j64742337019981_2_alg».proof.Proof.Gen.ReferenceIdeal.Run

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-- The seventeen arguments of the launch memory, read at plain indices. -/
def argsOf (m' : (ℓ : Loc nD τ sig) → Buf (Elt Ideal) ℓ) (c : Dev nD) : LstmCell.Args :=
  LstmCell.Args.ofVecs
    (m' ((c.tc : Thread nD τ).loc main_arg0))
    (m' ((c.tc : Thread nD τ).loc main_arg1))
    (m' ((c.tc : Thread nD τ).loc main_arg2))
    (m' ((c.tc : Thread nD τ).loc main_arg3))
    (m' ((c.tc : Thread nD τ).loc main_arg4))
    (m' ((c.tc : Thread nD τ).loc main_arg5))
    (m' ((c.tc : Thread nD τ).loc main_arg6))
    (m' ((c.tc : Thread nD τ).loc main_arg7))
    (m' ((c.tc : Thread nD τ).loc main_arg8))
    (m' ((c.tc : Thread nD τ).loc main_arg9))
    (m' ((c.tc : Thread nD τ).loc main_arg10))
    (m' ((c.tc : Thread nD τ).loc main_arg11))
    (m' ((c.tc : Thread nD τ).loc main_arg12))
    (m' ((c.tc : Thread nD τ).loc main_arg13))
    (m' ((c.tc : Thread nD τ).loc main_arg14))
    (m' ((c.tc : Thread nD τ).loc main_arg15))
    (m' ((c.tc : Thread nD τ).loc main_arg16))

variable (m' : (ℓ : Loc nD τ sig) → Buf (Elt Ideal) ℓ) (c : Dev nD)

/-! ## Layer 0 -/

theorem v13_apply (p : Fin 8192) :
    res_main_v13 (F := Ideal) (launchContents m' c) (ix2 0 p) = LstmCell.A0 (argsOf m' c) p := by
  unfold res_main_v13
  exact gates_eq _ rfl _ _ _ _ _ _ _ _ _ _ _ _
    (fun p => inScalar_apply _ rfl _ _ _ _ p) (fun q => stateSlice_apply 0 _ _ _ 0 rfl q)
    (fun _ _ => rfl) (fun _ => rfl) (fun _ => rfl) p

theorem v33_apply (n : Fin 2048) :
    res_main_v33 (F := Ideal) (launchContents m' c) (ix2 0 n) = LstmCell.C0 (argsOf m' c) n := by
  unfold res_main_v33
  exact cell_eq _ _ _ _ _ _ _ _ (v13_apply m' c) (fun q => stateSlice_apply 0 _ _ _ 0 rfl q) n

theorem v41_apply (n : Fin 2048) :
    res_main_v41 (F := Ideal) (launchContents m' c) (ix2 0 n) = LstmCell.H0 (argsOf m' c) n := by
  unfold res_main_v41
  exact hidden_eq _ _ _ _ _ _ (v13_apply m' c) (v33_apply m' c) n

/-! ## Layer 1 -/

theorem v54_apply (p : Fin 8192) :
    res_main_v54 (F := Ideal) (launchContents m' c) (ix2 0 p) = LstmCell.A1 (argsOf m' c) p := by
  unfold res_main_v54
  exact gates_eq _ rfl _ _ _ _ _ _ _ _ _ _ _ _
    (fun p => inVec_eq _ rfl _ _ _ _ _ (v41_apply m' c) (fun _ _ => rfl) p) (fun q => stateSlice_apply 1 _ _ _ 1 rfl q)
    (fun _ _ => rfl) (fun _ => rfl) (fun _ => rfl) p

theorem v74_apply (n : Fin 2048) :
    res_main_v74 (F := Ideal) (launchContents m' c) (ix2 0 n) = LstmCell.C1 (argsOf m' c) n := by
  unfold res_main_v74
  exact cell_eq _ _ _ _ _ _ _ _ (v54_apply m' c) (fun q => stateSlice_apply 1 _ _ _ 1 rfl q) n

theorem v82_apply (n : Fin 2048) :
    res_main_v82 (F := Ideal) (launchContents m' c) (ix2 0 n) = LstmCell.H1 (argsOf m' c) n := by
  unfold res_main_v82
  exact hidden_eq _ _ _ _ _ _ (v54_apply m' c) (v74_apply m' c) n

/-! ## Layer 2 -/

theorem v95_apply (p : Fin 8192) :
    res_main_v95 (F := Ideal) (launchContents m' c) (ix2 0 p) = LstmCell.A2 (argsOf m' c) p := by
  unfold res_main_v95
  exact gates_eq _ rfl _ _ _ _ _ _ _ _ _ _ _ _
    (fun p => inVec_eq _ rfl _ _ _ _ _ (v82_apply m' c) (fun _ _ => rfl) p) (fun q => stateSlice_apply 2 _ _ _ 2 rfl q)
    (fun _ _ => rfl) (fun _ => rfl) (fun _ => rfl) p

theorem v115_apply (n : Fin 2048) :
    res_main_v115 (F := Ideal) (launchContents m' c) (ix2 0 n) = LstmCell.C2 (argsOf m' c) n := by
  unfold res_main_v115
  exact cell_eq _ _ _ _ _ _ _ _ (v95_apply m' c) (fun q => stateSlice_apply 2 _ _ _ 2 rfl q) n

theorem v123_apply (n : Fin 2048) :
    res_main_v123 (F := Ideal) (launchContents m' c) (ix2 0 n) = LstmCell.H2 (argsOf m' c) n := by
  unfold res_main_v123
  exact hidden_eq _ _ _ _ _ _ (v95_apply m' c) (v115_apply m' c) n

/-! ## The three results -/

/-- The read-out. -/
theorem y_eq :
    shapeCast S1x1x1 (addf (F := Ideal) (Host.dotGeneral (F := Ideal) (φ₁ := .f32) (φ₂ := .f32) dot_S1x2048_S2048x1_S1x1_1_0_0_1_n_n none (res_main_v123 (F := Ideal) (launchContents m' c)) (transpose S2048x1 [1, 0] ((launchContents m' c) (Proc.devRef .tc main_arg15)) transposes_S1x2048_S2048x1_1_0)) (broadcastInDim S1x1 ![1] bcast_S1_S1x1_1 ((launchContents m' c) (Proc.devRef .tc main_arg16)))) shapeCasts_S1x1_S1x1x1
      = LstmCell.yArr (argsOf m' c) :=
  funext fun j => readout_eq _ rfl _ _ _ _ _ _ _ _ _ (v123_apply m' c) (fun _ => rfl) rfl j

/-- The stacked new hidden states. -/
theorem h_eq :
    concatenate S3x1x2048 0 [⟨S1x1x2048, (broadcastInDim S1x1x2048 ![1, 2] bcast_S1x2048_S1x1x2048_1_2 (res_main_v41 (F := Ideal) (launchContents m' c)))⟩, ⟨S1x1x2048, (broadcastInDim S1x1x2048 ![1, 2] bcast_S1x2048_S1x1x2048_1_2 (res_main_v82 (F := Ideal) (launchContents m' c)))⟩, ⟨S1x1x2048, (broadcastInDim S1x1x2048 ![1, 2] bcast_S1x2048_S1x1x2048_1_2 (res_main_v123 (F := Ideal) (launchContents m' c)))⟩] concatenates_S1x1x2048_S1x1x2048_S1x1x2048_S3x1x2048_d0
      = LstmCell.hArr (argsOf m' c) :=
  funext fun j => stackRows_eq _ _ _ _ _ _ _ _ (v41_apply m' c) (v82_apply m' c) (v123_apply m' c) j

/-- The stacked new cell states. -/
theorem c_eq :
    concatenate S3x1x2048 0 [⟨S1x1x2048, (broadcastInDim S1x1x2048 ![1, 2] bcast_S1x2048_S1x1x2048_1_2 (res_main_v33 (F := Ideal) (launchContents m' c)))⟩, ⟨S1x1x2048, (broadcastInDim S1x1x2048 ![1, 2] bcast_S1x2048_S1x1x2048_1_2 (res_main_v74 (F := Ideal) (launchContents m' c)))⟩, ⟨S1x1x2048, (broadcastInDim S1x1x2048 ![1, 2] bcast_S1x2048_S1x1x2048_1_2 (res_main_v115 (F := Ideal) (launchContents m' c)))⟩] concatenates_S1x1x2048_S1x1x2048_S1x1x2048_S3x1x2048_d0
      = LstmCell.cArr (argsOf m' c) :=
  funext fun j => stackRows_eq _ _ _ _ _ _ _ _ (v33_apply m' c) (v74_apply m' c) (v115_apply m' c) j

/-- On every device, from any memory with zero counters: every weakly fair execution of the reference terminates with
    the read-out, the stacked hidden states and the stacked cell states those of the index-wise LSTM stack on the
    arguments' launch contents, and the arguments unchanged. -/
theorem run (m' : (ℓ : Loc nD τ sig) → Buf (Elt Ideal) ℓ) (ρ' : Dev nD → PrngReg) :
    θ_run (Cert.ReferenceIdeal.defs (F := Ideal)) (onTc (τ := τ) (main (F := Ideal))) ⟨m', fun _ => 0, ρ'⟩ (fun r => ∀ c : Dev nD,
      (r.2.mem ((c.tc : Thread nD τ).loc main_v136) = LstmCell.yArr (argsOf m' c)
        ∧ r.2.mem ((c.tc : Thread nD τ).loc main_v127) = LstmCell.hArr (argsOf m' c)
        ∧ r.2.mem ((c.tc : Thread nD τ).loc main_v131) = LstmCell.cArr (argsOf m' c))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)) :=
  (θ_run (Cert.ReferenceIdeal.defs (F := Ideal)) _ _).mono
    (fun _ h c => ⟨⟨(h c).1.trans (y_eq m' c), (h c).2.1.trans (h_eq m' c), (h c).2.2.1.trans (c_eq m' c)⟩, (h c).2.2.2⟩)
    (Cert.ReferenceIdeal.Value.run (F := Ideal) m' ρ')

end Cert.ReferenceIdeal.RefValue

end
-- ==== Proof.lean ====
/-
  The certificate of a three-layer LSTM step: three pipelined kernel regions (one per layer, eight blocks of 256
  hidden units each) against a plain reference.

  Frames.  The kernel program, word-level and idealized, runs as four stretches of host operations around three
  regions; each region's body meets the pipeline's obligation, so every execution ends with the TensorCore's buffers at
  contents followed segment by segment, and no segment writes an argument array.  The reference is a line of host
  operations whose run is read back directly.

  Values at the ideal instance.  Both programs compute, for each layer, the gate pre-activations
  ((input·Wihᵀ + h·Whhᵀ) + bih) + bhh, the new cell state σ(f)·c + σ(i)·tanh(g) and the new hidden state σ(o)·tanh(c').
  The kernel adds the two biases together first (layers 1 and 2) or folds the scalar input's product and both biases into
  one bias first (layer 0); addition on the extended reals is commutative and associative, so the pre-activations agree
  without any finiteness assumption.  The logistic function is one function whether written as one operation or as
  1 / (1 + e^(−a)).  The stacked states and the linear read-out are the same operations on both sides.
-/
import proofs.«142598_j64742337019981_2_alg».proof.Defs
import proofs.«142598_j64742337019981_2_alg».proof.Proof.Gen.Kernel
import proofs.«142598_j64742337019981_2_alg».proof.Proof.Gen.KernelIdeal
import proofs.«142598_j64742337019981_2_alg».proof.Proof.Gen.ReferenceIdeal
import proofs.«142598_j64742337019981_2_alg».proof.Proof.Gen.Pre_finite_inputs
import proofs.«142598_j64742337019981_2_alg».proof.Proof.KB.Run
import proofs.«142598_j64742337019981_2_alg».proof.Proof.KI.Value
import proofs.«142598_j64742337019981_2_alg».proof.Proof.Ref.RefRun
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Fr.frame m ρ

/-- So does the idealized kernel program. -/
theorem frame_ki : Cert.frame_KernelIdeal := fun m ρ _ => Cert.KernelIdeal.Fr.frame m ρ

/-- The reference's run with its results dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote nothing. -/
theorem preserves : Cert.preserves_Kernel_KernelIdeal := trivial

/-- From memories agreeing on the arguments both idealized programs end with the read-out, the stacked hidden states
    and the stacked cell states of the same three-layer cell stack. -/
theorem algebraic : Cert.algebraic_KernelIdeal_ReferenceIdeal := by
  intro m ρ m' ρ' _ hagree
  refine ⟨fun c => LstmCell.yArr (Cert.KernelIdeal.Fr.argsOf m c), fun c => LstmCell.hArr (Cert.KernelIdeal.Fr.argsOf m c),
    fun c => LstmCell.cArr (Cert.KernelIdeal.Fr.argsOf m c), Cert.KernelIdeal.Fr.value_run m ρ, ?_⟩
  have hargs : ∀ c, Cert.ReferenceIdeal.RefValue.argsOf m' c = Cert.KernelIdeal.Fr.argsOf m c := fun c => by
    obtain ⟨h0, h1, h2, h3, h4, h5, h6, h7, h8, h9, h10, h11, h12, h13, h14, h15, h16⟩ := hagree c
    unfold Cert.ReferenceIdeal.RefValue.argsOf Cert.KernelIdeal.Fr.argsOf
    rw [h0, h1, h2, h3, h4, h5, h6, h7, h8, h9, h10, h11, h12, h13, h14, h15, h16]
  refine (θ_run Cert.ReferenceIdeal.defs _ _).mono (fun _ h c => ?_) (Cert.ReferenceIdeal.RefValue.run m' ρ')
  dsimp only
  rw [← hargs c]
  exact ⟨(h c).1.1, (h c).1.2.1, (h c).1.2.2, (h c).2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
